-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : FVec F S1024x1024 .f32) (main_arg2 : FVec F S1024x1024 .f32) (main_arg3 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S1024x1024 : Shape := ⟨2, ![1024, 1024]⟩
abbrev S_ : Shape := ⟨0, ![]⟩
abbrev S1024x3072 : Shape := ⟨2, ![1024, 3072]⟩
abbrev S16384x1024 : Shape := ⟨2, ![16384, 1024]⟩
abbrev S16384x3072 : Shape := ⟨2, ![16384, 3072]⟩
abbrev S512x1024 : Shape := ⟨2, ![512, 1024]⟩
abbrev S512x3072 : Shape := ⟨2, ![512, 3072]⟩
abbrev S8x2048x3072 : Shape := ⟨3, ![8, 2048, 3072]⟩
abbrev S1x1024x1024 : Shape := ⟨3, ![1, 1024, 1024]⟩
abbrev S1x512x1024 : Shape := ⟨3, ![1, 512, 1024]⟩
abbrev S1x1024x1 : Shape := ⟨3, ![1, 1024, 1]⟩
abbrev S1x1024x512 : Shape := ⟨3, ![1, 1024, 512]⟩
abbrev S1x1024 : Shape := ⟨2, ![1, 1024]⟩

abbrev nBuf : Space → Nat
  | .hbm => 13
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x3072, .f32⟩
  | .hbm, ⟨8, _⟩ => ⟨S1024x3072, .bf16⟩
  | .hbm, ⟨9, _⟩ => ⟨S16384x1024, .f32⟩
  | .hbm, ⟨10, _⟩ => ⟨S16384x3072, .bf16⟩
  | .hbm, ⟨11, _⟩ => ⟨S8x2048x3072, .bf16⟩
  | .hbm, ⟨12, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x1024x1024, .f32⟩
  | .local _ .vmem, ⟨12, _⟩ => ⟨S1x1024x1024, .f32⟩
  | .local _ .vmem, ⟨13, _⟩ => ⟨S1x1024x1, .f32⟩
  | .local _ .vmem, ⟨14, _⟩ => ⟨S1x1024x1, .f32⟩
  | .local _ .vmem, ⟨15, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 4], ![false, false, false]⟩

def k1_cond2 (i : grid1.Coords) : BitVec 1 :=
  let arg2 : BitVec 32 := BitVec.ofNat 32 (i 2).val
  let c3_i32 : BitVec 32 := 3#32
  let v40 : BitVec 1 := Scalar.cmpi .eq arg2 c3_i32
  let v41 : BitVec 32 := Scalar.extui v40
  let c0_i32_33 : BitVec 32 := 0#32
  let v42 : BitVec 1 := Scalar.cmpi .ne v41 c0_i32_33
  v42

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S_S1024x1024 : S_.BroadcastsInDim S1024x1024 (![] : Fin 0 → Fin S1024x1024.rank)
  concatenates_S1024x1024_S1024x1024_S1024x1024_S1024x3072_d1 : Shape.Concatenates [S1024x1024, S1024x1024, S1024x1024] S1024x3072 1
  bitsLt_bf16_f32 : FTy.bits .bf16 < FTy.bits .f32
  shapeCasts_S8x2048x1024_S16384x1024 : S8x2048x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S16384x3072_S8x2048x3072 : S16384x3072.ShapeCasts S8x2048x3072
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1x1024x1024 : S1x1024x1024.ShapeCasts S1x1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S1x512x1024 : S1x512x1024.ShapeCasts S1x512x1024
  reduces_S1x1024x512_S1x1024 : S1x1024x512.Reduces [2] S1x1024
  shapeCasts_S1x1024_S1x1024x1 : S1x1024.ShapeCasts S1x1024x1
  broadcasts_S1x1024x1_S1x1024x512 : S1x1024x1.Broadcasts S1x1024x512
  broadcasts_S1x1024x1_S1x1024x1024 : S1x1024x1.Broadcasts S1x1024x1024
  dot_S512x1024_S1024x3072_S512x3072_1_0_0_1_n_n_wf : DotDims.WF S512x1024 S1024x3072 S512x3072 [1] [0] [0] [1] [] []
  dot_S1x1024x1024_S1x512x1024_S1x1024x512_2_2_1_1_0_0_wf : DotDims.WF S1x1024x1024 S1x512x1024 S1x1024x512 [2] [2] [1] [1] [0] [0]
  dot_S1x1024x512_S1x512x1024_S1x1024x1024_2_1_1_2_0_0_wf : DotDims.WF S1x1024x512 S1x512x1024 S1x1024x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S16384x3072.size a
  hwx0_2 : ∀ i : grid0.Coords, EltTy.bits .bf16 = 32 ∨ (Rect.block (s := S16384x3072) S512x3072.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x3072.size a
  hwx1_0 : ∀ i : grid1.Coords, EltTy.bits .bf16 = 32 ∨ (Rect.block (s := S8x2048x3072) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x3072.size a
  hwx1_1 : ∀ i : grid1.Coords, EltTy.bits .bf16 = 32 ∨ (Rect.block (s := S8x2048x3072) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x2048x3072.size a
  hwx1_2 : ∀ i : grid1.Coords, EltTy.bits .bf16 = 32 ∨ (Rect.block (s := S8x2048x3072) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1x1024x1024_S1x512x1024_S1x1024x512_2_2_1_1_0_0 : DotDims S1x1024x1024 S1x512x1024 S1x1024x512 where
  lhsContracting := [2]
  rhsContracting := [2]
  lhsNonContracting := [1]
  rhsNonContracting := [1]
  lhsBatch := [0]
  rhsBatch := [0]
  wf := dot_S1x1024x1024_S1x512x1024_S1x1024x512_2_2_1_1_0_0_wf
def dot_S1x1024x512_S1x512x1024_S1x1024x1024_2_1_1_2_0_0 : DotDims S1x1024x512 S1x512x1024 S1x1024x1024 where
  lhsContracting := [2]
  rhsContracting := [1]
  lhsNonContracting := [1]
  rhsNonContracting := [2]
  lhsBatch := [0]
  rhsBatch := [0]
  wf := dot_S1x1024x512_S1x512x1024_S1x1024x1024_2_1_1_2_0_0_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x2048, .f32⟩
  | .hbm, ⟨8, _⟩ => ⟨S_, .f32⟩
  | .hbm, ⟨9, _⟩ => ⟨S_, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S_, .f32⟩
  | .hbm, ⟨15, _⟩ => ⟨S8x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S8x2048x2048, .f32⟩
  | .hbm, ⟨25, _⟩ => ⟨S8x2048x2048, .f32⟩
  | .hbm, ⟨26, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.QkvBody.lean ====
/-
  The projection kernel, point by point.

  The first kernel runs over 32 grid points; point t takes rows 512·t … 512·t + 511 of the flattened input
  [16384, 1024] and the whole weight matrix [1024, 3072], and writes rows 512·t … 512·t + 511 of the result
  [16384, 3072]: the block of rows times the weights.  This file says what each window's staging buffer holds
  around the kernel body at every point — each input's buffer its block of the array as the kernel finds it,
  the output's buffer the product of the two input blocks — and proves that the body, run from the former,
  ends in the latter.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Qkv

variable (V : (c : Dev nD) → (b : Ref sig .tc) → Buf (Elt F) ((c : Thread nD τ).loc b))

/-- Window w's block of its array at point t, the array as the kernel finds it. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' buffer holds the point's block of rows, fetched there or not. -/
theorem qkv_found_rows {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)

/-- The weights' buffer holds the whole weight matrix at every point, though it is fetched only once. -/
theorem qkv_found_weights {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)

abbrev qkvRowsRect : Rect S512x1024 := Rect.unit (s := S512x1024) ![0, 0] S512x1024.size inb_S512x1024_S512x1024_0_0
abbrev qkvWeightsRect : Rect S1024x3072 := Rect.unit (s := S1024x3072) ![0, 0] S1024x3072.size inb_S1024x3072_S1024x3072_0_0
abbrev qkvOutRect : Rect S512x3072 := Rect.unit (s := S512x3072) ![0, 0] S512x3072.size inb_S512x3072_S512x3072_0_0

/-- What the body leaves in the output's buffer: its one store, the product of the two loaded blocks. -/
def qkvOut (x0 : Vec F S512x1024 .f32) (x1 : Vec F S1024x3072 .bf16) : Vec F S512x3072 .bf16 :=
  View.canon [⟨qkvOutRect, k0_pay1 (View.ld x0 qkvRowsRect) (View.ld x1 qkvWeightsRect)⟩]

/-- The one store covers the output's buffer. -/
theorem qkv_cover (p0 : Vec F S512x3072 .bf16) (y : S512x3072.Idx) :
    ∃ pc ∈ ([⟨qkvOutRect, p0⟩] : List (View.Piece (Elt F) S512x3072 .bf16)), y ∈ pc.1.set :=
  View.cover_of_tiled [⟨qkvOutRect, p0⟩] S512x3072.size (by rfl) y

set_option maxHeartbeats 1000000 in
/-- The body from the two input buffers at read contents x0, x1 and the output's at anything ends with the inputs
    as they were and the output at `qkvOut x0 x1`. -/
theorem qkv_triple (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (qkvOut x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (qkv_cover _)

/-- The proof data of the projection kernel on core c: the arrays as the kernel finds them; after the body at point t
    each input's buffer at its block and the output's at the product of the blocks; nothing kept between points. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvOut (qkvBlk V c 0 t) (qkvBlk V c 1 t)
  Φ _ := Pipeline.ΦA spec0 c
  q _ := fullShare
  owed _ := 0

theorem qkv_A (c : Dev nD) (w : Fin cfg0.W) : (qkvDat V c).A w = V c (Pipeline.arrRef spec0 w) := by
  dsimp only [qkvDat]

theorem qkv_after_rows (c : Dev nD) (t : Fin cfg0.N) : (qkvDat V c).after 0 t = qkvBlk V c 0 t := by dsimp only [qkvDat]
theorem qkv_after_weights (c : Dev nD) (t : Fin cfg0.N) : (qkvDat V c).after 1 t = qkvBlk V c 1 t := by dsimp only [qkvDat]
theorem qkv_after_out (c : Dev nD) (t : Fin cfg0.N) : (qkvDat V c).after 2 t = qkvOut (qkvBlk V c 0 t) (qkvBlk V c 1 t) := by dsimp only [qkvDat]

theorem qkv_before_rows (c : Dev nD) (t : Fin cfg0.N) (d) : (qkvDat V c).before 0 t d = qkvBlk V c 0 t :=
  qkv_found_rows V (qkvDat V c) (qkv_A V c 0) (qkv_after_rows V c) t d
theorem qkv_before_weights (c : Dev nD) (t : Fin cfg0.N) (d) : (qkvDat V c).before 1 t d = qkvBlk V c 1 t :=
  qkv_found_weights V (qkvDat V c) (qkv_A V c 1) (qkv_after_weights V c) t d

/-- What the body is called with at point t, -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d)))

/-- and what it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t))

theorem qkv_body (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkv_before_rows, qkv_before_weights]
  rw [show (qkvDat V c).Φ t.succ = (qkvDat V c).Φ t.castSucc from rfl,
    show (qkvDat V c).owesAt () t.succ = (qkvDat V c).owesAt () t.castSucc from rfl,
    qkv_after_rows, qkv_after_weights, qkv_after_out]
  iintro ⟨HΦ, Ho, ⟨%d0, H0⟩, ⟨%d1, H1⟩, ⟨%d2, H2⟩⟩
  iapply (qkv_triple c Set.univ _ _ _ _ _ _ _ (qkvBlk V c 0 t) (qkvBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection kernel, at every point. -/
theorem qkv_obligation (c : Dev nD) : BodyObligation (qkvDat (F := F) V c) (defs₀ (F := F)) Variants.none () Set.univ := fun t => by
  rw [bigSep_W0, bigSep_W0]
  exact qkv_body V c t

end Qkv

end Cert.KernelIdeal.Hand

end
-- ==== Proof.AttnRunMid.lean ====
/-
  The attention kernel's two branches, and its body run in the middle of a row of key tiles.

  The second kernel runs over 8 × 2 × 4 grid points (batch, query tile, key tile), the key tile moving fastest.
  Its body resets the three scratch buffers (running maximum, running denominator, running numerator) when the
  key tile is the first, folds the current key tile into them at every point, and divides numerator by denominator
  into the output block when the key tile is the last.  This file names the two conditions, says at which points
  each holds, and runs the body in the case where neither does: the scratch buffers go from the contents the point
  before left to the folded ones, the output block is not touched.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The key tile is the first of its row: the body resets the scratch buffers. -/
abbrev attnFirst (i : grid1.Coords) : Prop := (Scalar.cmpi .ne (Scalar.extui (Scalar.cmpi .eq (BitVec.ofNat 32 (i 2).val) 0#32)) 0#32) = 1#1
theorem attnFirst_iff : ∀ t : Fin cfg1.N, attnFirst (grid1.coords t) ↔ t.val % 4 = 0 :=
  (by decide +kernel : ∀ t : Fin grid1.N, attnFirst (grid1.coords t) ↔ t.val % 4 = 0)

/-- The key tile is the last of its row: the body writes the output block. -/
abbrev attnLast (i : grid1.Coords) : Prop := k1_cond2 i = 1#1
theorem attnLast_iff : ∀ t : Fin cfg1.N, attnLast (grid1.coords t) ↔ t.val % 4 = 3 :=
  (by decide +kernel : ∀ t : Fin grid1.N, attnLast (grid1.coords t) ↔ t.val % 4 = 3)

/-- The three input windows are never idle; the output window is idle, and not written back, except at a last key tile. -/
theorem attn_live_q : ∀ t : Fin cfg1.N, cfg1.idle 0 (grid1.coords t) = false := by decide +kernel
theorem attn_live_k : ∀ t : Fin cfg1.N, cfg1.idle 1 (grid1.coords t) = false := by decide +kernel
theorem attn_live_v : ∀ t : Fin cfg1.N, cfg1.idle 2 (grid1.coords t) = false := by decide +kernel
theorem attn_idle_out : ∀ t : Fin cfg1.N, ¬attnLast (grid1.coords t) → cfg1.idle 3 (grid1.coords t) = true := by decide +kernel
theorem attn_noflush_out : ∀ t : Fin cfg1.N, ¬attnLast (grid1.coords t) → (cfg1.win 3).flush t = false := by decide +kernel
theorem attn_live_out : ∀ t : Fin cfg1.N, attnLast (grid1.coords t) → cfg1.idle 3 (grid1.coords t) = false := by decide +kernel

set_option maxHeartbeats 4000000 in
/-- The body at a middle key tile: from the three input blocks x0 (queries), x1 (keys), x2 (values), the output's
    buffer at any contents xi (handed back untouched) and the scratch buffers at xs0, xs1, xs2, it ends with the inputs
    and the output as they were and each scratch buffer with its pieces written, the pieces being what the run finds. -/
noncomputable def attnRunMid (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬attnFirst i) (hc1 : ¬attnLast i)
    (x0 : Vec F S1x1024x1024 .bf16) (x1 : Vec F S1x512x1024 .bf16) (x2 : Vec F S1x512x1024 .bf16)
    (xs0 : Vec F S1x1024x1 .f32) (xs1 : Vec F S1x1024x1 .f32) (xs2 : Vec F S1x1024x1024 .f32) :
    Σ' (LS0 : List (View.Piece (Elt F) S1x1024x1 .f32)) (LS1 : List (View.Piece (Elt F) S1x1024x1 .f32)), { LS2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.AttnRunEnds.lean ====
/-
  The attention kernel's body at the first and at the last key tile of a row.

  At the first key tile the body first resets the scratch buffers (whatever they held), then folds the tile in; the
  output block is not touched.  At the last key tile it folds the tile into the scratch buffers the point before left
  and then stores numerator / denominator over the whole output block.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.AttnRunMid
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a first key tile: the scratch buffers at anything; they end with the pieces the run finds (the reset
    stores under the folding ones). -/
noncomputable def attnRunFirst (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : attnFirst i) (hc1 : ¬attnLast i)
    (x0 : Vec F S1x1024x1024 .bf16) (x1 : Vec F S1x512x1024 .bf16) (x2 : Vec F S1x512x1024 .bf16) :
    Σ' (LS0 : List (View.Piece (Elt F) S1x1024x1 .f32)) (LS1 : List (View.Piece (Elt F) S1x1024x1 .f32)), { LS2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- The body at a last key tile: the scratch buffers at what the point before left, the output's buffer at anything;
    the scratch buffers and the output's buffer end with the pieces the run finds. -/
noncomputable def attnRunLast (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬attnFirst i) (hc1 : attnLast i)
    (x0 : Vec F S1x1024x1024 .bf16) (x1 : Vec F S1x512x1024 .bf16) (x2 : Vec F S1x512x1024 .bf16)
    (xs0 : Vec F S1x1024x1 .f32) (xs1 : Vec F S1x1024x1 .f32) (xs2 : Vec F S1x1024x1024 .f32) :
    Σ' (L3 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttnState.lean ====
/-
  The attention kernel, point by point.

  What the three scratch buffers hold after each grid point is defined by recursion on the point: reset and one key
  tile folded in at a first key tile, one more key tile folded into what the point before left otherwise.  The
  output block is written at the last key tile of a row, from the scratch buffers just folded.  The proof data say
  that, the invariant between two points is "the scratch buffers hold the recursion's value", and the body obligation
  is the body's run in the point's case.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.AttnRunEnds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- Window w's block of its array at point t, the array as the kernel finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds the point's block, fetched there or not (the query block is fetched once per row
    of key tiles). -/
theorem attn_found_q {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attn_found_k {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attn_found_v {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The windows' current staging buffers at point t, and the three scratch buffers. -/
abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev scM : Memref sig .tc .vmem S1x1024x1 .f32 := Memref.whole cc1_scratch0
abbrev scL : Memref sig .tc .vmem S1x1024x1 .f32 := Memref.whole cc1_scratch1
abbrev scA : Memref sig .tc .vmem S1x1024x1024 .f32 := Memref.whole cc1_scratch2
abbrev VM : View sig .tc .vmem S1x1024x1 .f32 := scM.view
abbrev VL : View sig .tc .vmem S1x1024x1 .f32 := scL.view
abbrev VA : View sig .tc .vmem S1x1024x1024 .f32 := scA.view
abbrev VO : View sig .tc .vmem S1x1024x1024 .f32 := (Memref.whole cc1_stg3_0 : Memref sig .tc .vmem S1x1024x1024 .f32).view

/-- Running maximum, running denominator, running numerator. -/
abbrev Scr (F : FTy → Type) [FloatOps F] : Type := Vec F S1x1024x1 .f32 × Vec F S1x1024x1 .f32 × Vec F S1x1024x1024 .f32

/-- What a first key tile leaves in the scratch buffers. -/
def scrFirst (c : Dev nD) (t : Fin cfg1.N) (h0 : attnFirst (grid1.coords t)) (h1 : ¬attnLast (grid1.coords t)) : Scr F :=
  (VM.read (Elt F) (VM.writes (Elt F) VM.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).1),
   VL.read (Elt F) (VL.writes (Elt F) VL.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.1),
   VA.read (Elt F) (VA.writes (Elt F) VA.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.2.1))

/-- What a middle key tile leaves in them, over what the point before left. -/
def scrMid (c : Dev nD) (t : Fin cfg1.N) (h0 : ¬attnFirst (grid1.coords t)) (h1 : ¬attnLast (grid1.coords t)) (p : Scr F) : Scr F :=
  (VM.read (Elt F) (VM.writes (Elt F) VM.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1),
   VL.read (Elt F) (VL.writes (Elt F) VL.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1),
   VA.read (Elt F) (VA.writes (Elt F) VA.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1))

/-- What a last key tile leaves in them, -/
def scrLast (c : Dev nD) (t : Fin cfg1.N) (h0 : ¬attnFirst (grid1.coords t)) (h1 : attnLast (grid1.coords t)) (p : Scr F) : Scr F :=
  (VM.read (Elt F) (VM.writes (Elt F) VM.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1),
   VL.read (Elt F) (VL.writes (Elt F) VL.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1),
   VA.read (Elt F) (VA.writes (Elt F) VA.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.2.1))

/-- and in the output's buffer. -/
def outLast (c : Dev nD) (t : Fin cfg1.N) (h0 : ¬attnFirst (grid1.coords t)) (h1 : attnLast (grid1.coords t)) (p : Scr F) : Vec F S1x1024x1024 .f32 :=
  VO.read (Elt F) (VO.writes (Elt F) VO.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1)

/-! The pieces of every case tile the buffer they are stored into. -/
theorem cover_first_m (c : Dev nD) (t : Fin cfg1.N) (h0 h1) (y : S1x1024x1.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).1, y ∈ pc.1.set :=
  View.cover_of_tiledL _ S1x1024x1.size (by sl_kernel_rfl) y
theorem cover_first_l (c : Dev nD) (t : Fin cfg1.N) (h0 h1) (y : S1x1024x1.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.1, y ∈ pc.1.set :=
  View.cover_of_tiledL _ S1x1024x1.size (by sl_kernel_rfl) y
theorem cover_first_a (c : Dev nD) (t : Fin cfg1.N) (h0 h1) (y : S1x1024x1024.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.2.1, y ∈ pc.1.set :=
  View.cover_of_tiledL _ S1x1024x1024.size (by sl_kernel_rfl) y
theorem cover_mid_m (c : Dev nD) (t : Fin cfg1.N) (h0 h1) (p : Scr F) (y : S1x1024x1.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1, y ∈ pc.1.set :=
  View.cover_of_tiledL _ S1x1024x1.size (by sl_kernel_rfl) y
theorem cover_mid_l (c : Dev nD) (t : Fin cfg1.N) (h0 h1) (p : Scr F) (y : S1x1024x1.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1, y ∈ pc.1.set :=
  View.cover_of_tiledL _ S1x1024x1.size (by sl_kernel_rfl) y
theorem cover_mid_a (c : Dev nD) (t : Fin cfg1.N) (h0 h1) (p : Scr F) (y : S1x1024x1024.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1, y ∈ pc.1.set :=
  View.cover_of_tiledL _ S1x1024x1024.size (by sl_kernel_rfl) y
theorem cover_last_o (c : Dev nD) (t : Fin cfg1.N) (h0 h1) (p : Scr F) (y : S1x1024x1024.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1, y ∈ pc.1.set :=
  View.cover_of_tiledL _ S1x1024x1024.size (by sl_kernel_rfl) y
theorem cover_last_m (c : Dev nD) (t : Fin cfg1.N) (h0 h1) (p : Scr F) (y : S1x1024x1.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1, y ∈ pc.1.set :=
  View.cover_of_tiledL _ S1x1024x1.size (by sl_kernel_rfl) y
theorem cover_last_l (c : Dev nD) (t : Fin cfg1.N) (h0 h1) (p : Scr F) (y : S1x1024x1.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1, y ∈ pc.1.set :=
  View.cover_of_tiledL _ S1x1024x1.size (by sl_kernel_rfl) y
theorem cover_last_a (c : Dev nD) (t : Fin cfg1.N) (h0 h1) (p : Scr F) (y : S1x1024x1024.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.2.1, y ∈ pc.1.set :=
  View.cover_of_tiledL _ S1x1024x1024.size (by sl_kernel_rfl) y

theorem first_of_mod {t : Fin cfg1.N} (h : t.val % 4 = 0) : attnFirst (grid1.coords t) := (attnFirst_iff t).mpr h
theorem not_first_of_mod {t : Fin cfg1.N} (h : ¬t.val % 4 = 0) : ¬attnFirst (grid1.coords t) := fun hh => h ((attnFirst_iff t).mp hh)
theorem last_of_mod {t : Fin cfg1.N} (h : t.val % 4 = 3) : attnLast (grid1.coords t) := (attnLast_iff t).mpr h
theorem not_last_of_mod {t : Fin cfg1.N} (h : ¬t.val % 4 = 3) : ¬attnLast (grid1.coords t) := fun hh => h ((attnLast_iff t).mp hh)
theorem not_last_of_first {n : ℕ} (h : n % 4 = 0) : ¬n % 4 = 3 := by omega

/-- The scratch buffers after point n, by recursion on the point. -/
def attnSt (c : Dev nD) : (n : ℕ) → n < cfg1.N → Scr F
  | 0, h => scrFirst V c ⟨0, h⟩ (first_of_mod (Nat.zero_mod 4)) (not_last_of_mod (not_last_of_first (Nat.zero_mod 4)))
  | n + 1, h =>
    if h0 : (n + 1) % 4 = 0 then scrFirst V c ⟨n + 1, h⟩ (first_of_mod h0) (not_last_of_mod (not_last_of_first h0))
    else if h1 : (n + 1) % 4 = 3 then scrLast V c ⟨n + 1, h⟩ (not_first_of_mod h0) (last_of_mod h1) (attnSt c n (Nat.lt_of_succ_lt h))
    else scrMid V c ⟨n + 1, h⟩ (not_first_of_mod h0) (not_last_of_mod h1) (attnSt c n (Nat.lt_of_succ_lt h))

theorem attnSt_first (c : Dev nD) (t : Fin cfg1.N) (h0 : t.val % 4 = 0) :
    attnSt V c t.val t.isLt = scrFirst V c t (first_of_mod h0) (not_last_of_mod (not_last_of_first h0)) := by
  obtain ⟨n, hn⟩ := t
  cases n with
  | zero => rfl
  | succ n => exact dif_pos h0

theorem attnSt_mid (c : Dev nD) (t : Fin cfg1.N) (h0 : ¬t.val % 4 = 0) (h1 : ¬t.val % 4 = 3) :
    attnSt V c t.val t.isLt = scrMid V c t (not_first_of_mod h0) (not_last_of_mod h1)
      (attnSt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem attnSt_last (c : Dev nD) (t : Fin cfg1.N) (h0 : ¬t.val % 4 = 0) (h1 : t.val % 4 = 3) :
    attnSt V c t.val t.isLt = scrLast V c t (not_first_of_mod h0) (last_of_mod h1)
      (attnSt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The output's buffer after point t: at a last key tile the quotient just stored; elsewhere the window is idle and
    this value is never consulted. -/
def attnOutAt (c : Dev nD) (t : Fin cfg1.N) : Vec F S1x1024x1024 .f32 :=
  if h1 : t.val % 4 = 3 then
    outLast V c t (not_first_of_mod (by omega)) (last_of_mod h1) (attnSt V c (t.val - 1) (Nat.lt_of_le_of_lt (Nat.sub_le _ _) t.isLt))
  else VO.read (Elt F) VO.junk

theorem attnOutAt_last (c : Dev nD) (t : Fin cfg1.N) (h0 : ¬t.val % 4 = 0) (h1 : t.val % 4 = 3) :
    attnOutAt V c t = outLast V c t (not_first_of_mod h0) (last_of_mod h1) (attnSt V c (t.val - 1) (Nat.lt_of_le_of_lt (Nat.sub_le _ _) t.isLt)) :=
  dif_pos h1

/-- The projection kernel's five staging buffers, which the attention kernel never touches, each at some contents. -/
abbrev idleStage (c : Dev nD) : sProp 𝕄 :=
  iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d))

/-- The invariant of the attention kernel with its scratch buffers named as memrefs at some contents. -/
theorem attn_PhiA (c : Dev nD) :
    (Pipeline.ΦA spec1 c : sProp 𝕄)
      = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The invariant before position n: at the start whatever the launch hands over; afterwards the scratch buffers at
    what the point before left in them. -/
def attnPhi (c : Dev nD) : (n : ℕ) → n ≤ cfg1.N → sProp 𝕄
  | 0, _ => Pipeline.ΦA spec1 c
  | n + 1, hn => iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c n hn).1 ∗ owns (c : Thread nD τ) scL fullShare (attnSt V c n hn).2.1 ∗ owns (c : Thread nD τ) scA fullShare (attnSt V c n hn).2.2) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c n hn).1 ∗ owns (c : Thread nD τ) scL fullShare (attnSt V c n hn).2.1 ∗ owns (c : Thread nD τ) scA fullShare (attnSt V c n hn).2.2) ∗ (∃ r, prngReg c r)) := rfl
theorem attnPhi_pos (c : Dev nD) (n : ℕ) (h : n ≤ cfg1.N) (hz : n ≠ 0) :
    attnPhi V c n h = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c (n - 1) (by omega)).1 ∗ owns (c : Thread nD τ) scL fullShare (attnSt V c (n - 1) (by omega)).2.1 ∗ owns (c : Thread nD τ) scA fullShare (attnSt V c (n - 1) (by omega)).2.2) ∗ (∃ r, prngReg c r)) := by
  cases n with
  | zero => exact absurd rfl hz
  | succ n => rfl

end Attn

end Cert.KernelIdeal.Hand

end
-- ==== Proof.AttnBody.lean ====
/-
  The attention kernel's proof data and body obligation.

  After the body at point t each input window's buffer holds its block, the output's buffer the quotient stored at a
  last key tile; between two points the scratch buffers hold the recursion's value.  The three query / key / value
  windows read ONE array (the projection's result), each through its own share of it.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.AttnState
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- The proof data of the attention kernel on core c. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOutAt V c t
  Φ t := attnPhi V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem attn_A (c : Dev nD) (w : Fin cfg1.W) : (attnDat V c).A w = V c (Pipeline.arrRef spec1 w) := by
  dsimp only [attnDat]
theorem attn_Phi_castSucc (c : Dev nD) (t : Fin cfg1.N) :
    (attnDat V c).Φ t.castSucc = attnPhi V c t.val (Nat.le_of_lt t.isLt) := by
  dsimp only [attnDat]; simp only [Fin.coe_castSucc]
theorem attn_after_0 (c : Dev nD) (t : Fin cfg1.N) : (attnDat V c).after 0 t = attnBlk V c 0 t := by dsimp only [attnDat]
theorem attn_after_1 (c : Dev nD) (t : Fin cfg1.N) : (attnDat V c).after 1 t = attnBlk V c 1 t := by dsimp only [attnDat]
theorem attn_after_2 (c : Dev nD) (t : Fin cfg1.N) : (attnDat V c).after 2 t = attnBlk V c 2 t := by dsimp only [attnDat]
theorem attn_after_3 (c : Dev nD) (t : Fin cfg1.N) : (attnDat V c).after 3 t = attnOutAt V c t := by dsimp only [attnDat]
theorem attn_before_0 (c : Dev nD) (t : Fin cfg1.N) (d) : (attnDat V c).before 0 t d = attnBlk V c 0 t :=
  attn_found_q V (attnDat V c) (attn_A V c 0) (attn_after_0 V c) t d
theorem attn_before_1 (c : Dev nD) (t : Fin cfg1.N) (d) : (attnDat V c).before 1 t d = attnBlk V c 1 t :=
  attn_found_k V (attnDat V c) (attn_A V c 1) (attn_after_1 V c) t d
theorem attn_before_2 (c : Dev nD) (t : Fin cfg1.N) (d) : (attnDat V c).before 2 t d = attnBlk V c 2 t :=
  attn_found_v V (attnDat V c) (attn_A V c 2) (attn_after_2 V c) t d

/-- What the body is called with at point t, -/
def attnPre (c : Dev nD) (t : Fin cfg1.N) : sProp 𝕄 :=
  iprop((attnDat V c).Φ t.castSucc ∗ (attnDat V c).owesAt () t.castSucc
    ∗ (∃ d, owns (c : Thread nD τ) (ms0 t) fullShare ((attnDat V c).before 0 t d))
    ∗ (∃ d, owns (c : Thread nD τ) (ms1 t) fullShare ((attnDat V c).before 1 t d))
    ∗ (∃ d, owns (c : Thread nD τ) (ms2 t) fullShare ((attnDat V c).before 2 t d))
    ∗ (∃ d, owns (c : Thread nD τ) (ms3 t) fullShare ((attnDat V c).before 3 t d)))

/-- and what it returns. -/
def attnPost (c : Dev nD) (t : Fin cfg1.N) : sProp 𝕄 :=
  iprop((attnDat V c).Φ t.succ ∗ (attnDat V c).owesAt () t.succ
    ∗ (attnDat V c).leavesExact 0 t ∗ (attnDat V c).leavesExact 1 t ∗ (attnDat V c).leavesExact 2 t ∗ (attnDat V c).leavesExact 3 t)

set_option maxHeartbeats 8000000 in
/-- The body at any point, in the point's case. -/
theorem attn_body (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before_0, attn_before_1, attn_before_2]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  by_cases h0 : t.val % 4 = 0
  · have h1 : ¬t.val % 4 = 3 := not_last_of_first h0
    rw [show (attnDat V c).leavesExact 0 t = owns (c : Thread nD τ) (ms0 t) fullShare ((attnDat V c).after 0 t) from by
      unfold Dat.leavesExact; rw [attn_live_q t], attn_after_0]
    rw [show (attnDat V c).leavesExact 1 t = owns (c : Thread nD τ) (ms1 t) fullShare ((attnDat V c).after 1 t) from by
      unfold Dat.leavesExact; rw [attn_live_k t], attn_after_1]
    rw [show (attnDat V c).leavesExact 2 t = owns (c : Thread nD τ) (ms2 t) fullShare ((attnDat V c).after 2 t) from by
      unfold Dat.leavesExact; rw [attn_live_v t], attn_after_2]
    rw [Dat.leavesExact_idle (attnDat V c) 3 t (attn_idle_out t (not_last_of_mod h1)) (attn_noflush_out t (not_last_of_mod h1))]
    rw [attnSt_first V c t h0]
    unfold scrFirst; (try dsimp only)
    by_cases hz : t.val = 0
    · rw [attn_Phi_castSucc V c t, attnPhi_zero V c _ _ hz, attn_PhiA]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunFirst c (grid1.coords t) _ _ _ _ _ _ _ _ _ _ _ _ _ _ (first_of_mod h0) (not_last_of_mod (not_last_of_first h0)) (attnBlk V c 0 t) (attnBlk V c 1 t) (attnBlk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_first_m V c t _ _)
        isplitl [HS1]
        · unfold owns; iexists _; isplitr
          swap; · iexact HS1
          ipureintro; exact View.read_writes_of_cover _ _ _ _ _ (cover_first_l V c t _ _)
        unfold owns; iexists _; isplitr
        swap; · iexact HS2
        ipureintro; exact View.read_writes_of_cover _ _ _ _ _ (cover_first_a V c t _ _)
      isplitl [Ho]; · iexact Ho
      isplitl [H0]; · iexact H0
      isplitl [H1]; · iexact H1
      isplitl [H2]; · iexact H2
      iexists _; iexact H3
    · rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunFirst c (grid1.coords t) _ _ _ _ _ _ _ _ _ _ _ _ _ _ (first_of_mod h0) (not_last_of_mod (not_last_of_first h0)) (attnBlk V c 0 t) (attnBlk V c 1 t) (attnBlk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_first_m V c t _ _)
        isplitl [HS1]
        · unfold owns; iexists _; isplitr
          swap; · iexact HS1
          ipureintro; exact View.read_writes_of_cover _ _ _ _ _ (cover_first_l V c t _ _)
        unfold owns; iexists _; isplitr
        swap; · iexact HS2
        ipureintro; exact View.read_writes_of_cover _ _ _ _ _ (cover_first_a V c t _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (attnDat V c).leavesExact 0 t = owns (c : Thread nD τ) (ms0 t) fullShare ((attnDat V c).after 0 t) from by
        unfold Dat.leavesExact; rw [attn_live_q t], attn_after_0]
      rw [show (attnDat V c).leavesExact 1 t = owns (c : Thread nD τ) (ms1 t) fullShare ((attnDat V c).after 1 t) from by
        unfold Dat.leavesExact; rw [attn_live_k t], attn_after_1]
      rw [show (attnDat V c).leavesExact 2 t = owns (c : Thread nD τ) (ms2 t) fullShare ((attnDat V c).after 2 t) from by
        unfold Dat.leavesExact; rw [attn_live_v t], attn_after_2]
      rw [show (attnDat V c).leavesExact 3 t = owns (c : Thread nD τ) (ms3 t) fullShare ((attnDat V c).after 3 t) from by
        unfold Dat.leavesExact; rw [attn_live_out t (last_of_mod h1)], attn_after_3]
      rw [attnSt_last V c t h0 h1, attnOutAt_last V c t h0 h1]
      unfold scrLast outLast; (try dsimp only)
      rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunLast c (grid1.coords t) _ _ _ _ _ _ _ _ _ _ _ _ _ _ (not_first_of_mod h0) (last_of_mod h1) (attnBlk V c 0 t) (attnBlk V c 1 t) (attnBlk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_last_m V c t _ _ _)
        isplitl [HS1]
        · unfold owns; iexists _; isplitr
          swap; · iexact HS1
          ipureintro; exact View.read_writes_of_cover _ _ _ _ _ (cover_last_l V c t _ _ _)
        unfold owns; iexists _; isplitr
        swap; · iexact HS2
        ipureintro; exact View.read_writes_of_cover _ _ _ _ _ (cover_last_a V c t _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_o V c t _ _ _)
    · rw [show (attnDat V c).leavesExact 0 t = owns (c : Thread nD τ) (ms0 t) fullShare ((attnDat V c).after 0 t) from by
        unfold Dat.leavesExact; rw [attn_live_q t], attn_after_0]
      rw [show (attnDat V c).leavesExact 1 t = owns (c : Thread nD τ) (ms1 t) fullShare ((attnDat V c).after 1 t) from by
        unfold Dat.leavesExact; rw [attn_live_k t], attn_after_1]
      rw [show (attnDat V c).leavesExact 2 t = owns (c : Thread nD τ) (ms2 t) fullShare ((attnDat V c).after 2 t) from by
        unfold Dat.leavesExact; rw [attn_live_v t], attn_after_2]
      rw [Dat.leavesExact_idle (attnDat V c) 3 t (attn_idle_out t (not_last_of_mod h1)) (attn_noflush_out t (not_last_of_mod h1))]
      rw [attnSt_mid V c t h0 h1]
      unfold scrMid; (try dsimp only)
      rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunMid c (grid1.coords t) _ _ _ _ _ _ _ _ _ _ _ _ _ _ (not_first_of_mod h0) (not_last_of_mod h1) (attnBlk V c 0 t) (attnBlk V c 1 t) (attnBlk V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_mid_m V c t _ _ _)
        isplitl [HS1]
        · unfold owns; iexists _; isplitr
          swap; · iexact HS1
          ipureintro; exact View.read_writes_of_cover _ _ _ _ _ (cover_mid_l V c t _ _ _)
        unfold owns; iexists _; isplitr
        swap; · iexact HS2
        ipureintro; exact View.read_writes_of_cover _ _ _ _ _ (cover_mid_a V c t _ _ _)
      isplitl [Ho]; · iexact Ho
      isplitl [H0]; · iexact H0
      isplitl [H1]; · iexact H1
      isplitl [H2]; · iexact H2
      iexists _; iexact H3

/-- The body obligation of the attention kernel, at every point. -/
theorem attn_obligation (c : Dev nD) : BodyObligation (attnDat (F := F) V c) (defs₀ (F := F)) Variants.none () Set.univ := fun t => by
  rw [bigSep_W1, bigSep_W1]
  exact attn_body V c t

/-- What the launch hands the kernel is the invariant before the first point. -/
theorem attn_in (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives it back, the scratch buffers' contents forgotten. -/
theorem attn_out (c : Dev nD) : (attnDat V c).Φ (Fin.last cfg1.N) ⊢ Pipeline.ΦA spec1 c := by
  rw [show (attnDat V c).Φ (Fin.last cfg1.N) = attnPhi V c (Fin.last cfg1.N).val (Nat.le_of_lt_succ (Fin.last cfg1.N).isLt) from rfl,
    attnPhi_pos V c _ _ (by rw [Fin.val_last]; have : cfg1.N = 64 := N_1; omega), attn_PhiA]
  iintro ⟨⟨Q0, Q1, Q2, Q3, Q4, HS0, HS1, HS2⟩, Hg⟩
  isplitr [Hg]
  swap; · iexact Hg
  isplitl [Q0]; · iexact Q0
  isplitl [Q1]; · iexact Q1
  isplitl [Q2]; · iexact Q2
  isplitl [Q3]; · iexact Q3
  isplitl [Q4]; · iexact Q4
  isplitl [HS0]; · iexists _; iexact HS0
  isplitl [HS1]; · iexists _; iexact HS1
  iexists _; iexact HS2

end Attn

end Cert.KernelIdeal.Hand

end
-- ==== Proof.AttnShares.lean ====
/-
  The one array behind the attention kernel's three input windows.

  The query, key and value windows all read the projection's result; the output window writes the final array.  The
  kernel therefore holds TWO distinct buffers: the projection's result, split three ways among the input windows
  (a left half, and the two halves of the right half), and the output array whole.  At the end the three shares, all
  still at the contents the kernel found, join back into the whole buffer.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.AttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- The distinct buffers behind the four windows: the projection's result and the output array. -/
theorem attn_arrBufs (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v6) ↦{fullShare} U main_v6) ∗ (((c : Thread nD τ).loc main_v7) ↦{fullShare} U main_v7)) := by
  unfold Pipeline.arrBufs; exact bigSep_eq_bigSepL_of_eq [main_v6, main_v7] (by decide) (by decide) _

/-- The four windows' arrays, one by one: three shares of the projection's result and the output array whole. -/
theorem attn_arrays (c : Dev nD) (G : (w : Fin cfg1.W) → Buf (Elt F) ((cfg1.win w).arr.view.loc (c : Thread nD τ))) :
    ((attnDat V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays; rw [bigSep_W1]
  rw [(arr_whole1 0).set_eq_univ, (arr_whole1 3).set_eq_univ]
  rfl

/-- Entering: the two buffers at the contents the kernel finds make the four windows' arrays. -/
theorem attn_arrays_in (c : Dev nD) :
    (Pipeline.arrBufs (Ix := Unit) (Name := ℕ) (U := UR sig nD τ) (Lvl := ℕ) spec1 c (V c) : sProp 𝕄)
      ⊢ (attnDat V c).arrays ((attnDat V c).arrAt · 0) := by
  rw [attn_arrBufs, attn_arrays]
  iintro ⟨H6, H7⟩
  ihave H6 := (pointsTo_share (PosShare.mem_left_op_right fullShare)).1 $$ H6
  icases H6 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  iexact H7

/-- Leaving: the three shares, still at the contents found, join; the output array holds what the write-backs left. -/
theorem attn_arrays_out (c : Dev nD) :
    ((attnDat V c).arrays ((attnDat V c).arrAt · cfg1.N) : sProp 𝕄)
      ⊢ iprop((((c : Thread nD τ).loc main_v6) ↦{fullShare} V c main_v6) ∗ (((c : Thread nD τ).loc main_v7) ↦{fullShare} (attnDat V c).arrAt 3 cfg1.N)) := by
  rw [attn_arrays]
  rw [show (attnDat V c).arrAt 0 cfg1.N = V c main_v6 from ((attnDat V c).arrAt_in 0 rfl _).trans (attn_A V c 0),
    show (attnDat V c).arrAt 1 cfg1.N = V c main_v6 from ((attnDat V c).arrAt_in 1 rfl _).trans (attn_A V c 1),
    show (attnDat V c).arrAt 2 cfg1.N = V c main_v6 from ((attnDat V c).arrAt_in 2 rfl _).trans (attn_A V c 2)]
  iintro ⟨Hl, Hrl, Hrr, H7⟩
  isplitr [H7]
  swap; · iexact H7
  iapply (pointsTo_share (PosShare.mem_left_op_right fullShare)).2
  isplitl [Hl]; · iexact Hl
  iapply (pointsTo_share (PosShare.mem_left_op_right fullShare.right)).2
  isplitl [Hrl]; · iexact Hrl
  iexact Hrr

/-- Entering the kernel: the core's unscoped buffers at the contents found are the four windows' arrays and the rest. -/
theorem attn_entry (c : Dev nD) :
    (unscopedBufs c (V c) : sProp 𝕄)
      ⊢ iprop((attnDat V c).arrays ((attnDat V c).arrAt · 0) ∗ Pipeline.unscopedRest (Ix := Unit) (Name := ℕ) (U := UR sig nD τ) (Lvl := ℕ) spec1 c (V c)) := by
  have hs : (unscopedBufs c (V c) : sProp 𝕄)
      = iprop(Pipeline.arrBufs (Ix := Unit) (Name := ℕ) (U := UR sig nD τ) (Lvl := ℕ) spec1 c (V c) ∗ Pipeline.unscopedRest spec1 c (V c)) :=
    Pipeline.unscopedBufs_split₀ cfgs (1 : Fin 2) (by decide) c (V c)
  rw [hs]
  exact sep_mono (attn_arrays_in V c) .rfl

/-- Leaving it: the windows' arrays at their final contents and the rest make the unscoped buffers at any contents that
    agree with the found ones except at the output array, which holds what the write-backs left. -/
theorem attn_exit (c : Dev nD) (U' : (b : Ref sig .tc) → Buf (Elt F) ((c : Thread nD τ).loc b)) (h6 : U' main_v6 = V c main_v6)
    (h7 : U' main_v7 = (attnDat V c).arrAt 3 cfg1.N) (hrest : ∀ b, b ∉ Finset.univ.image (Pipeline.arrRef spec1) → U' b = V c b) :
    iprop((attnDat V c).arrays ((attnDat V c).arrAt · cfg1.N) ∗ Pipeline.unscopedRest (Ix := Unit) (Name := ℕ) (U := UR sig nD τ) (Lvl := ℕ) spec1 c (V c))
      ⊢ (unscopedBufs c U' : sProp 𝕄) := by
  have hs : (unscopedBufs c U' : sProp 𝕄)
      = iprop(Pipeline.arrBufs (Ix := Unit) (Name := ℕ) (U := UR sig nD τ) (Lvl := ℕ) spec1 c U' ∗ Pipeline.unscopedRest spec1 c U') :=
    Pipeline.unscopedBufs_split₀ cfgs (1 : Fin 2) (by decide) c U'
  rw [hs, attn_arrBufs, h6, h7]
  refine sep_mono (attn_arrays_out V c) (Entails.of_eq ?_)
  unfold Pipeline.unscopedRest
  exact bigSep_congr fun b hb => by rw [hrest b (Finset.mem_sdiff.mp hb).2]

end Attn

end Cert.KernelIdeal.Hand

end
-- ==== Proof.KernelRun.lean ====
/-
  The whole program, segment by segment: host operations, the projection kernel, a reshape, the attention kernel.

  The contents of the core's buffers at each boundary are a fold from the launch memory: after the first stretch of
  host operations (the scaled and concatenated weights, the flattened input), after the projection kernel (its result
  array at what its write-backs leave), after the reshape, after the attention kernel (the final array at what its
  write-backs leave).  Each kernel is entered from the buffers at the boundary before it and left at the boundary
  after it; no argument array is ever written.  The run's conclusion names the final array's contents and says every
  argument array ends as launched.
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.Gen.KernelIdeal.Regions
import proofs.«178871_j489626272173_2_alg».proof.Proof.QkvBody
import proofs.«178871_j489626272173_2_alg».proof.Proof.AttnShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- after the first host stretch (the projection kernel's entry), -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- after the projection kernel: its arrays at what the pipeline leaves, -/
def W2 (c : Dev nD) : Valuation τ sig (Elt F) :=
  Pipeline.withArrays spec0 c (W1 m c) fun w => (qkvDat (U1 m) c).arrAt w cfg0.N
theorem W2_arr (c : Dev nD) (w : Fin cfg0.W) :
    W2 m c (Proc.devRef .tc (Pipeline.arrRef spec0 w)) = (qkvDat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem qkv_final (c : Dev nD) (w : Fin cfg0.W) : (qkvDat (U1 m) c).arrAt w cfg0.N = U2 m c (Pipeline.arrRef spec0 w) :=
  (W2_arr m c w).symm
theorem qkv_rest (c : Dev nD) : ∀ b, b ∉ Finset.univ.image (Pipeline.arrRef spec0) → U2 m c b = U1 m c b :=
  fun b hb => W2_of_ne m c b fun w e => hb (Finset.mem_image.mpr ⟨w, Finset.mem_univ _, e⟩)
/-- after the reshape (the attention kernel's entry), -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- and after the attention kernel: the final array at what its write-backs leave. -/
def W4 (c : Dev nD) : Valuation τ sig (Elt F) :=
  Function.update (W3 m c) (Proc.devRef .tc main_v7) ((attnDat (U3 m) c).arrAt 3 cfg1.N)
abbrev U4 : (c : Dev nD) → (b : Ref sig .tc) → Buf (Elt F) ((c : Thread nD τ).loc b) := fun c b => W4 m c b
theorem W4_out (c : Dev nD) : U4 m c main_v7 = (attnDat (U3 m) c).arrAt 3 cfg1.N := by
  unfold U4 W4; exact Function.update_self _ _ _
theorem W4_of_ne (c : Dev nD) (b : Ref sig .tc) (hb : b ≠ main_v7) : U4 m c b = U3 m c b := by
  unfold U4 W4; exact Function.update_of_ne (StableHlo.devRef_ne_of_ne hb) _ _

/-- No host operation and no kernel writes an argument array. -/
theorem W4_arg (c : Dev nD) (b : Ref sig .tc) (h7 : b ≠ main_v7) (h1 : b ∉ (hostOps1_W : List (Ref sig .tc)))
    (h5 : ∀ w, Pipeline.arrRef spec0 w ≠ b) (h0 : b ∉ (hostOps0_W : List (Ref sig .tc))) :
    U4 m c b = m ((c : Thread nD τ).loc b) :=
  (W4_of_ne m c b h7).trans <| (StableHlo.after_of_writes_sub hostOps1 _ hostOps1_writes h1).trans <|
    (W2_of_ne m c b h5).trans <| (StableHlo.after_of_writes_sub hostOps0 _ hostOps0_writes h0).trans rfl

/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => qkvDat (U1 m) c
  | ⟨1, _⟩ => fun c => attnDat (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rd (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m c) ∗ ∃ r, prngReg c r)

set_option backward.isDefEq.respectTransparency.types false in
/-- The projection kernel as a segment: entered from every unscoped buffer at W1, left at W2. -/
def regQkv : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkv_obligation (U1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (qkv_final m c) (qkv_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel as a segment: entered from every unscoped buffer at W3, left at W4. Its three input windows
    share the projection's result (each holds a share of it); its invariant keeps the scratch buffers. -/
def regAttn : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attn_obligation (U3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest (Ix := Unit) (Name := ℕ) (U := UR sig nD τ) (Lvl := ℕ) spec1 c (U3 m c)) :=
      attn_entry (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (attn_out (U3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (U3 m c))
        ⊢ (unscopedBufs c (U4 m c) : sProp 𝕄) :=
      attn_exit (U3 m) c (U4 m c) (W4_of_ne m c main_v6 (by decide)) (W4_out m c)
        (fun b hb => W4_of_ne m c b fun e => hb (Finset.mem_image.mpr ⟨3, Finset.mem_univ _, e.symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (regQkv m),
    .host (hseg hostOps1 hostOps1_sub hostOps1_fresh (W2 m)),
    .region (regAttn m) ]
theorem main_run (c : Dev nD) : main (F := F) c = Pipeline.Seg.run (segs m) := (main_chain c).trans (by chain_rfl)

set_option backward.isDefEq.respectTransparency.types false in
/-- THE RUN, at any F: every weakly fair execution of @main from memory m with zero counters terminates, nothing
    faulting, and every final memory holds the final array at W4's value and each argument array as launched. -/
theorem run_main : θ_run defs (onTc (τ := τ) (main (F := F))) ⟨m, fun _ => 0, ρ⟩ (fun r => ∀ c : Dev nD,
      r.2.mem ((c.tc : Thread nD τ).loc main_v7) = U4 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v7 (by decide)),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide))⟩)

end Cert.KernelIdeal.Hand

end
-- ==== Proof.BitsQkvBody.lean ====
/-
  (For the kernel as printed, at word level: its text is the same as its exact reading's, and so is this module.)
  The projection kernel, point by point.

  The first kernel runs over 32 grid points; point t takes rows 512·t … 512·t + 511 of the flattened input
  [16384, 1024] and the whole weight matrix [1024, 3072], and writes rows 512·t … 512·t + 511 of the result
  [16384, 3072]: the block of rows times the weights.  This file says what each window's staging buffer holds
  around the kernel body at every point — each input's buffer its block of the array as the kernel finds it,
  the output's buffer the product of the two input blocks — and proves that the body, run from the former,
  ends in the latter.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Qkv

variable (V : (c : Dev nD) → (b : Ref sig .tc) → Buf (Elt F) ((c : Thread nD τ).loc b))

/-- Window w's block of its array at point t, the array as the kernel finds it. -/
def qkvBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows' buffer holds the point's block of rows, fetched there or not. -/
theorem qkv_found_rows {c : Dev nD} (dat : Dat τ (Elt F) Unit ℕ (UR sig nD τ) ℕ cfg0 c) (hA : dat.A 0 = V c (Pipeline.arrRef spec0 0))
    (hafter : ∀ t, dat.after 0 t = qkvBlk V c 0 t) (t : Fin cfg0.N) (d) : dat.before 0 t d = qkvBlk V c 0 t :=
  (dat.before_in_eq_fetched 0 rfl (fun _ => rfl) (fun _ _ _ => rfl) (fun t => by rw [hafter]; unfold Dat.blockOf qkvBlk; rw [hA]; try rfl) t d).trans
    (by unfold Dat.fetched Dat.blockOf qkvBlk; rw [hA]; try rfl)

/-- The weights' buffer holds the whole weight matrix at every point, though it is fetched only once. -/
theorem qkv_found_weights {c : Dev nD} (dat : Dat τ (Elt F) Unit ℕ (UR sig nD τ) ℕ cfg0 c) (hA : dat.A 1 = V c (Pipeline.arrRef spec0 1))
    (hafter : ∀ t, dat.after 1 t = qkvBlk V c 1 t) (t : Fin cfg0.N) (d) : dat.before 1 t d = qkvBlk V c 1 t :=
  (dat.before_in_eq_fetched 1 rfl (fun _ => rfl) (fun _ _ _ => rfl) (fun t => by rw [hafter]; unfold Dat.blockOf qkvBlk; rw [hA]; try rfl) t d).trans
    (by unfold Dat.fetched Dat.blockOf qkvBlk; rw [hA]; try rfl)

abbrev qkvRowsRect : Rect S512x1024 := Rect.unit (s := S512x1024) ![0, 0] S512x1024.size inb_S512x1024_S512x1024_0_0
abbrev qkvWeightsRect : Rect S1024x3072 := Rect.unit (s := S1024x3072) ![0, 0] S1024x3072.size inb_S1024x3072_S1024x3072_0_0
abbrev qkvOutRect : Rect S512x3072 := Rect.unit (s := S512x3072) ![0, 0] S512x3072.size inb_S512x3072_S512x3072_0_0

/-- What the body leaves in the output's buffer: its one store, the product of the two loaded blocks. -/
def qkvOut (x0 : Vec F S512x1024 .f32) (x1 : Vec F S1024x3072 .bf16) : Vec F S512x3072 .bf16 :=
  View.canon [⟨qkvOutRect, k0_pay1 (View.ld x0 qkvRowsRect) (View.ld x1 qkvWeightsRect)⟩]

/-- The one store covers the output's buffer. -/
theorem qkv_cover (p0 : Vec F S512x3072 .bf16) (y : S512x3072.Idx) :
    ∃ pc ∈ ([⟨qkvOutRect, p0⟩] : List (View.Piece (Elt F) S512x3072 .bf16)), y ∈ pc.1.set :=
  View.cover_of_tiled [⟨qkvOutRect, p0⟩] S512x3072.size (by rfl) y

set_option maxHeartbeats 1000000 in
/-- The body from the two input buffers at read contents x0, x1 and the output's at anything ends with the inputs
    as they were and the output at `qkvOut x0 x1`. -/
theorem qkv_triple (c : Dev nD) (E : Set ℕ) (i : grid0.Coords) (arg1 : Memref sig .tc .vmem S512x1024 .f32) (harg1 : arg1.IsWhole)
    (arg2 : Memref sig .tc .vmem S1024x3072 .bf16) (harg2 : arg2.IsWhole) (arg3 : Memref sig .tc .vmem S512x3072 .bf16) (harg3 : arg3.IsWhole)
    (x0 : Vec F S512x1024 .f32) (x1 : Vec F S1024x3072 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (qkvOut x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (qkv_cover _)

/-- The proof data of the projection kernel on core c: the arrays as the kernel finds them; after the body at point t
    each input's buffer at its block and the output's at the product of the blocks; nothing kept between points. -/
def qkvDat (c : Dev nD) : Dat τ (Elt F) Unit ℕ (UR sig nD τ) ℕ cfg0 c where
  A w := V c (Pipeline.arrRef spec0 w)
  after w t := match w with
    | ⟨0, _⟩ => qkvBlk V c 0 t
    | ⟨1, _⟩ => qkvBlk V c 1 t
    | ⟨2, _⟩ => qkvOut (qkvBlk V c 0 t) (qkvBlk V c 1 t)
  Φ _ := Pipeline.ΦA spec0 c
  q _ := fullShare
  owed _ := 0

theorem qkv_A (c : Dev nD) (w : Fin cfg0.W) : (qkvDat V c).A w = V c (Pipeline.arrRef spec0 w) := by
  dsimp only [qkvDat]

theorem qkv_after_rows (c : Dev nD) (t : Fin cfg0.N) : (qkvDat V c).after 0 t = qkvBlk V c 0 t := by dsimp only [qkvDat]
theorem qkv_after_weights (c : Dev nD) (t : Fin cfg0.N) : (qkvDat V c).after 1 t = qkvBlk V c 1 t := by dsimp only [qkvDat]
theorem qkv_after_out (c : Dev nD) (t : Fin cfg0.N) : (qkvDat V c).after 2 t = qkvOut (qkvBlk V c 0 t) (qkvBlk V c 1 t) := by dsimp only [qkvDat]

theorem qkv_before_rows (c : Dev nD) (t : Fin cfg0.N) (d) : (qkvDat V c).before 0 t d = qkvBlk V c 0 t :=
  qkv_found_rows V (qkvDat V c) (qkv_A V c 0) (qkv_after_rows V c) t d
theorem qkv_before_weights (c : Dev nD) (t : Fin cfg0.N) (d) : (qkvDat V c).before 1 t d = qkvBlk V c 1 t :=
  qkv_found_weights V (qkvDat V c) (qkv_A V c 1) (qkv_after_weights V c) t d

/-- What the body is called with at point t, -/
def qkvPre (c : Dev nD) (t : Fin cfg0.N) : sProp 𝕄 :=
  iprop((qkvDat V c).Φ t.castSucc ∗ (qkvDat V c).owesAt () t.castSucc
    ∗ (∃ d, owns (c : Thread nD τ) (st0_0 t) fullShare ((qkvDat V c).before 0 t d))
    ∗ (∃ d, owns (c : Thread nD τ) (st0_1 t) fullShare ((qkvDat V c).before 1 t d))
    ∗ (∃ d, owns (c : Thread nD τ) (st0_2 t) fullShare ((qkvDat V c).before 2 t d)))

/-- and what it returns. -/
def qkvPost (c : Dev nD) (t : Fin cfg0.N) : sProp 𝕄 :=
  iprop((qkvDat V c).Φ t.succ ∗ (qkvDat V c).owesAt () t.succ
    ∗ owns (c : Thread nD τ) (st0_0 t) fullShare ((qkvDat V c).after 0 t)
    ∗ owns (c : Thread nD τ) (st0_1 t) fullShare ((qkvDat V c).after 1 t)
    ∗ owns (c : Thread nD τ) (st0_2 t) fullShare ((qkvDat V c).after 2 t))

theorem qkv_body (c : Dev nD) (t : Fin cfg0.N) :
    qkvPre V c t ⊢ wp frame (wpE (defs₀ (F := F)) Variants.none c none) Set.univ (bodyAt0 t) (fun _ => qkvPost V c t) := by
  unfold qkvPre qkvPost bodyAt0
  simp only [qkv_before_rows, qkv_before_weights]
  rw [show (qkvDat V c).Φ t.succ = (qkvDat V c).Φ t.castSucc from rfl,
    show (qkvDat V c).owesAt () t.succ = (qkvDat V c).owesAt () t.castSucc from rfl,
    qkv_after_rows, qkv_after_weights, qkv_after_out]
  iintro ⟨HΦ, Ho, ⟨%d0, H0⟩, ⟨%d1, H1⟩, ⟨%d2, H2⟩⟩
  iapply (qkv_triple c Set.univ _ _ _ _ _ _ _ (qkvBlk V c 0 t) (qkvBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the projection kernel, at every point. -/
theorem qkv_obligation (c : Dev nD) : BodyObligation (qkvDat (F := F) V c) (defs₀ (F := F)) Variants.none () Set.univ := fun t => by
  rw [bigSep_W0, bigSep_W0]
  exact qkv_body V c t

end Qkv

end Cert.Kernel.Hand

end
-- ==== Proof.BitsAttnRunMid.lean ====
/-
  (For the kernel as printed, at word level: its text is the same as its exact reading's, and so is this module.)
  The attention kernel's two branches, and its body run in the middle of a row of key tiles.

  The second kernel runs over 8 × 2 × 4 grid points (batch, query tile, key tile), the key tile moving fastest.
  Its body resets the three scratch buffers (running maximum, running denominator, running numerator) when the
  key tile is the first, folds the current key tile into them at every point, and divides numerator by denominator
  into the output block when the key tile is the last.  This file names the two conditions, says at which points
  each holds, and runs the body in the case where neither does: the scratch buffers go from the contents the point
  before left to the folded ones, the output block is not touched.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The key tile is the first of its row: the body resets the scratch buffers. -/
abbrev attnFirst (i : grid1.Coords) : Prop := (Scalar.cmpi .ne (Scalar.extui (Scalar.cmpi .eq (BitVec.ofNat 32 (i 2).val) 0#32)) 0#32) = 1#1
theorem attnFirst_iff : ∀ t : Fin cfg1.N, attnFirst (grid1.coords t) ↔ t.val % 4 = 0 :=
  (by decide +kernel : ∀ t : Fin grid1.N, attnFirst (grid1.coords t) ↔ t.val % 4 = 0)

/-- The key tile is the last of its row: the body writes the output block. -/
abbrev attnLast (i : grid1.Coords) : Prop := k1_cond2 i = 1#1
theorem attnLast_iff : ∀ t : Fin cfg1.N, attnLast (grid1.coords t) ↔ t.val % 4 = 3 :=
  (by decide +kernel : ∀ t : Fin grid1.N, attnLast (grid1.coords t) ↔ t.val % 4 = 3)

/-- The three input windows are never idle; the output window is idle, and not written back, except at a last key tile. -/
theorem attn_live_q : ∀ t : Fin cfg1.N, cfg1.idle 0 (grid1.coords t) = false := by decide +kernel
theorem attn_live_k : ∀ t : Fin cfg1.N, cfg1.idle 1 (grid1.coords t) = false := by decide +kernel
theorem attn_live_v : ∀ t : Fin cfg1.N, cfg1.idle 2 (grid1.coords t) = false := by decide +kernel
theorem attn_idle_out : ∀ t : Fin cfg1.N, ¬attnLast (grid1.coords t) → cfg1.idle 3 (grid1.coords t) = true := by decide +kernel
theorem attn_noflush_out : ∀ t : Fin cfg1.N, ¬attnLast (grid1.coords t) → (cfg1.win 3).flush t = false := by decide +kernel
theorem attn_live_out : ∀ t : Fin cfg1.N, attnLast (grid1.coords t) → cfg1.idle 3 (grid1.coords t) = false := by decide +kernel

set_option maxHeartbeats 4000000 in
/-- The body at a middle key tile: from the three input blocks x0 (queries), x1 (keys), x2 (values), the output's
    buffer at any contents xi (handed back untouched) and the scratch buffers at xs0, xs1, xs2, it ends with the inputs
    and the output as they were and each scratch buffer with its pieces written, the pieces being what the run finds. -/
noncomputable def attnRunMid (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬attnFirst i) (hc1 : ¬attnLast i)
    (x0 : Vec F S1x1024x1024 .bf16) (x1 : Vec F S1x512x1024 .bf16) (x2 : Vec F S1x512x1024 .bf16)
    (xs0 : Vec F S1x1024x1 .f32) (xs1 : Vec F S1x1024x1 .f32) (xs2 : Vec F S1x1024x1024 .f32) :
    Σ' (LS0 : List (View.Piece (Elt F) S1x1024x1 .f32)) (LS1 : List (View.Piece (Elt F) S1x1024x1 .f32)), { LS2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.BitsAttnRunEnds.lean ====
/-
  (For the kernel as printed, at word level: its text is the same as its exact reading's, and so is this module.)
  The attention kernel's body at the first and at the last key tile of a row.

  At the first key tile the body first resets the scratch buffers (whatever they held), then folds the tile in; the
  output block is not touched.  At the last key tile it folds the tile into the scratch buffers the point before left
  and then stores numerator / denominator over the whole output block.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import proofs.«178871_j489626272173_2_alg».proof.Proof.BitsAttnRunMid
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a first key tile: the scratch buffers at anything; they end with the pieces the run finds (the reset
    stores under the folding ones). -/
noncomputable def attnRunFirst (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : attnFirst i) (hc1 : ¬attnLast i)
    (x0 : Vec F S1x1024x1024 .bf16) (x1 : Vec F S1x512x1024 .bf16) (x2 : Vec F S1x512x1024 .bf16) :
    Σ' (LS0 : List (View.Piece (Elt F) S1x1024x1 .f32)) (LS1 : List (View.Piece (Elt F) S1x1024x1 .f32)), { LS2 : List (View.Piece (Elt F) S1x1024x1024 .f32) //
      ∀ (xi : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

set_option maxHeartbeats 4000000 in
/-- The body at a last key tile: the scratch buffers at what the point before left, the output's buffer at anything;
    the scratch buffers and the output's buffer end with the pieces the run finds. -/
noncomputable def attnRunLast (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x1024 .f32) (harg9 : arg9.IsWhole) (hc0 : ¬attnFirst i) (hc1 : attnLast i)
    (x0 : Vec F S1x1024x1024 .bf16) (x1 : Vec F S1x512x1024 .bf16) (x2 : Vec F S1x512x1024 .bf16)
    (xs0 : Vec F S1x1024x1 .f32) (xs1 : Vec F S1x1024x1 .f32) (xs2 : Vec F S1x1024x1024 .f32) :
    Σ' (L3 : List (View.Piece (Elt F) S1x1024x1024 .f32)) (LS0 : List (View.Piece (Elt F) S1x1024x1 .f32)) (LS1 : List (View.Piece (Elt F) S1x1024x1 .f32)), { LS2 : List (View.Piece (Elt F) S1x1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.BitsAttnState.lean ====
/-
  (For the kernel as printed, at word level: its text is the same as its exact reading's, and so is this module.)
  The attention kernel, point by point.

  What the three scratch buffers hold after each grid point is defined by recursion on the point: reset and one key
  tile folded in at a first key tile, one more key tile folded into what the point before left otherwise.  The
  output block is written at the last key tile of a row, from the scratch buffers just folded.  The proof data say
  that, the invariant between two points is "the scratch buffers hold the recursion's value", and the body obligation
  is the body's run in the point's case.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import proofs.«178871_j489626272173_2_alg».proof.Proof.BitsAttnRunEnds
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- Window w's block of its array at point t, the array as the kernel finds it. -/
def attnBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's buffer holds the point's block, fetched there or not (the query block is fetched once per row
    of key tiles). -/
theorem attn_found_q {c : Dev nD} (dat : Dat τ (Elt F) Unit ℕ (UR sig nD τ) ℕ cfg1 c) (hA : dat.A 0 = V c (Pipeline.arrRef spec1 0))
    (hafter : ∀ t, dat.after 0 t = attnBlk V c 0 t) (t : Fin cfg1.N) (d) : dat.before 0 t d = attnBlk V c 0 t :=
  (dat.before_in_eq_fetched 0 rfl (fun _ => rfl) (fun _ _ _ => rfl) (fun t => by rw [hafter]; unfold Dat.blockOf attnBlk; rw [hA]; try rfl) t d).trans
    (by unfold Dat.fetched Dat.blockOf attnBlk; rw [hA]; try rfl)
theorem attn_found_k {c : Dev nD} (dat : Dat τ (Elt F) Unit ℕ (UR sig nD τ) ℕ cfg1 c) (hA : dat.A 1 = V c (Pipeline.arrRef spec1 1))
    (hafter : ∀ t, dat.after 1 t = attnBlk V c 1 t) (t : Fin cfg1.N) (d) : dat.before 1 t d = attnBlk V c 1 t :=
  (dat.before_in_eq_fetched 1 rfl (fun _ => rfl) (fun _ _ _ => rfl) (fun t => by rw [hafter]; unfold Dat.blockOf attnBlk; rw [hA]; try rfl) t d).trans
    (by unfold Dat.fetched Dat.blockOf attnBlk; rw [hA]; try rfl)
theorem attn_found_v {c : Dev nD} (dat : Dat τ (Elt F) Unit ℕ (UR sig nD τ) ℕ cfg1 c) (hA : dat.A 2 = V c (Pipeline.arrRef spec1 2))
    (hafter : ∀ t, dat.after 2 t = attnBlk V c 2 t) (t : Fin cfg1.N) (d) : dat.before 2 t d = attnBlk V c 2 t :=
  (dat.before_in_eq_fetched 2 rfl (fun _ => rfl) (fun _ _ _ => rfl) (fun t => by rw [hafter]; unfold Dat.blockOf attnBlk; rw [hA]; try rfl) t d).trans
    (by unfold Dat.fetched Dat.blockOf attnBlk; rw [hA]; try rfl)

/-- The windows' current staging buffers at point t, and the three scratch buffers. -/
abbrev ms0 (t : Fin cfg1.N) : Memref sig .tc .vmem S1x1024x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x512x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x1024x1024 .f32 := win1_3.stage (cfg1.slots t 3)
abbrev hs3 (t : Fin cfg1.N) : (ms3 t).IsWhole := hstage1_3 ((cfg1.slots t 3).cast nbuf1_3)
abbrev scM : Memref sig .tc .vmem S1x1024x1 .f32 := Memref.whole cc1_scratch0
abbrev scL : Memref sig .tc .vmem S1x1024x1 .f32 := Memref.whole cc1_scratch1
abbrev scA : Memref sig .tc .vmem S1x1024x1024 .f32 := Memref.whole cc1_scratch2
abbrev VM : View sig .tc .vmem S1x1024x1 .f32 := scM.view
abbrev VL : View sig .tc .vmem S1x1024x1 .f32 := scL.view
abbrev VA : View sig .tc .vmem S1x1024x1024 .f32 := scA.view
abbrev VO : View sig .tc .vmem S1x1024x1024 .f32 := (Memref.whole cc1_stg3_0 : Memref sig .tc .vmem S1x1024x1024 .f32).view

/-- Running maximum, running denominator, running numerator. -/
abbrev Scr (F : FTy → Type) [FloatOps F] : Type := Vec F S1x1024x1 .f32 × Vec F S1x1024x1 .f32 × Vec F S1x1024x1024 .f32

/-- What a first key tile leaves in the scratch buffers. -/
def scrFirst (c : Dev nD) (t : Fin cfg1.N) (h0 : attnFirst (grid1.coords t)) (h1 : ¬attnLast (grid1.coords t)) : Scr F :=
  (VM.read (Elt F) (VM.writes (Elt F) VM.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).1),
   VL.read (Elt F) (VL.writes (Elt F) VL.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.1),
   VA.read (Elt F) (VA.writes (Elt F) VA.junk (attnRunFirst c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.2.1))

/-- What a middle key tile leaves in them, over what the point before left. -/
def scrMid (c : Dev nD) (t : Fin cfg1.N) (h0 : ¬attnFirst (grid1.coords t)) (h1 : ¬attnLast (grid1.coords t)) (p : Scr F) : Scr F :=
  (VM.read (Elt F) (VM.writes (Elt F) VM.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1),
   VL.read (Elt F) (VL.writes (Elt F) VL.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1),
   VA.read (Elt F) (VA.writes (Elt F) VA.junk (attnRunMid c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1))

/-- What a last key tile leaves in them, -/
def scrLast (c : Dev nD) (t : Fin cfg1.N) (h0 : ¬attnFirst (grid1.coords t)) (h1 : attnLast (grid1.coords t)) (p : Scr F) : Scr F :=
  (VM.read (Elt F) (VM.writes (Elt F) VM.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1),
   VL.read (Elt F) (VL.writes (Elt F) VL.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1),
   VA.read (Elt F) (VA.writes (Elt F) VA.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.2.1))

/-- and in the output's buffer. -/
def outLast (c : Dev nD) (t : Fin cfg1.N) (h0 : ¬attnFirst (grid1.coords t)) (h1 : attnLast (grid1.coords t)) (p : Scr F) : Vec F S1x1024x1024 .f32 :=
  VO.read (Elt F) (VO.writes (Elt F) VO.junk (attnRunLast c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1)

/-! The pieces of every case tile the buffer they are stored into. -/
theorem cover_first_m (c : Dev nD) (t : Fin cfg1.N) (h0 h1) (y : S1x1024x1.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).1, y ∈ pc.1.set :=
  View.cover_of_tiledL _ S1x1024x1.size (by sl_kernel_rfl) y
theorem cover_first_l (c : Dev nD) (t : Fin cfg1.N) (h0 h1) (y : S1x1024x1.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.1, y ∈ pc.1.set :=
  View.cover_of_tiledL _ S1x1024x1.size (by sl_kernel_rfl) y
theorem cover_first_a (c : Dev nD) (t : Fin cfg1.N) (h0 h1) (y : S1x1024x1024.Idx) :
    ∃ pc ∈ (attnRunFirst (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t)).2.2.1, y ∈ pc.1.set :=
  View.cover_of_tiledL _ S1x1024x1024.size (by sl_kernel_rfl) y
theorem cover_mid_m (c : Dev nD) (t : Fin cfg1.N) (h0 h1) (p : Scr F) (y : S1x1024x1.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1, y ∈ pc.1.set :=
  View.cover_of_tiledL _ S1x1024x1.size (by sl_kernel_rfl) y
theorem cover_mid_l (c : Dev nD) (t : Fin cfg1.N) (h0 h1) (p : Scr F) (y : S1x1024x1.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1, y ∈ pc.1.set :=
  View.cover_of_tiledL _ S1x1024x1.size (by sl_kernel_rfl) y
theorem cover_mid_a (c : Dev nD) (t : Fin cfg1.N) (h0 h1) (p : Scr F) (y : S1x1024x1024.Idx) :
    ∃ pc ∈ (attnRunMid (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1, y ∈ pc.1.set :=
  View.cover_of_tiledL _ S1x1024x1024.size (by sl_kernel_rfl) y
theorem cover_last_o (c : Dev nD) (t : Fin cfg1.N) (h0 h1) (p : Scr F) (y : S1x1024x1024.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).1, y ∈ pc.1.set :=
  View.cover_of_tiledL _ S1x1024x1024.size (by sl_kernel_rfl) y
theorem cover_last_m (c : Dev nD) (t : Fin cfg1.N) (h0 h1) (p : Scr F) (y : S1x1024x1.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.1, y ∈ pc.1.set :=
  View.cover_of_tiledL _ S1x1024x1.size (by sl_kernel_rfl) y
theorem cover_last_l (c : Dev nD) (t : Fin cfg1.N) (h0 h1) (p : Scr F) (y : S1x1024x1.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.1, y ∈ pc.1.set :=
  View.cover_of_tiledL _ S1x1024x1.size (by sl_kernel_rfl) y
theorem cover_last_a (c : Dev nD) (t : Fin cfg1.N) (h0 h1) (p : Scr F) (y : S1x1024x1024.Idx) :
    ∃ pc ∈ (attnRunLast (F := F) c (grid1.coords t) (ms0 t) (hs0 t) (ms1 t) (hs1 t) (ms2 t) (hs2 t) (ms3 t) (hs3 t) scM (Memref.isWhole_whole _) scL (Memref.isWhole_whole _) scA (Memref.isWhole_whole _) h0 h1 (attnBlk V c 0 t) (attnBlk V c 1 t) (attnBlk V c 2 t) p.1 p.2.1 p.2.2).2.2.2.1, y ∈ pc.1.set :=
  View.cover_of_tiledL _ S1x1024x1024.size (by sl_kernel_rfl) y

theorem first_of_mod {t : Fin cfg1.N} (h : t.val % 4 = 0) : attnFirst (grid1.coords t) := (attnFirst_iff t).mpr h
theorem not_first_of_mod {t : Fin cfg1.N} (h : ¬t.val % 4 = 0) : ¬attnFirst (grid1.coords t) := fun hh => h ((attnFirst_iff t).mp hh)
theorem last_of_mod {t : Fin cfg1.N} (h : t.val % 4 = 3) : attnLast (grid1.coords t) := (attnLast_iff t).mpr h
theorem not_last_of_mod {t : Fin cfg1.N} (h : ¬t.val % 4 = 3) : ¬attnLast (grid1.coords t) := fun hh => h ((attnLast_iff t).mp hh)
theorem not_last_of_first {n : ℕ} (h : n % 4 = 0) : ¬n % 4 = 3 := by omega

/-- The scratch buffers after point n, by recursion on the point. -/
def attnSt (c : Dev nD) : (n : ℕ) → n < cfg1.N → Scr F
  | 0, h => scrFirst V c ⟨0, h⟩ (first_of_mod (Nat.zero_mod 4)) (not_last_of_mod (not_last_of_first (Nat.zero_mod 4)))
  | n + 1, h =>
    if h0 : (n + 1) % 4 = 0 then scrFirst V c ⟨n + 1, h⟩ (first_of_mod h0) (not_last_of_mod (not_last_of_first h0))
    else if h1 : (n + 1) % 4 = 3 then scrLast V c ⟨n + 1, h⟩ (not_first_of_mod h0) (last_of_mod h1) (attnSt c n (Nat.lt_of_succ_lt h))
    else scrMid V c ⟨n + 1, h⟩ (not_first_of_mod h0) (not_last_of_mod h1) (attnSt c n (Nat.lt_of_succ_lt h))

theorem attnSt_first (c : Dev nD) (t : Fin cfg1.N) (h0 : t.val % 4 = 0) :
    attnSt V c t.val t.isLt = scrFirst V c t (first_of_mod h0) (not_last_of_mod (not_last_of_first h0)) := by
  obtain ⟨n, hn⟩ := t
  cases n with
  | zero => rfl
  | succ n => exact dif_pos h0

theorem attnSt_mid (c : Dev nD) (t : Fin cfg1.N) (h0 : ¬t.val % 4 = 0) (h1 : ¬t.val % 4 = 3) :
    attnSt V c t.val t.isLt = scrMid V c t (not_first_of_mod h0) (not_last_of_mod h1)
      (attnSt V c (t.val - 1) (Nat.lt_of_le_of_lt (Nat.sub_le _ _) t.isLt)) := by
  obtain ⟨n, hn⟩ := t
  cases n with
  | zero => exact absurd (Nat.zero_mod _) h0
  | succ n => exact (dif_neg h0).trans (dif_neg h1)

theorem attnSt_last (c : Dev nD) (t : Fin cfg1.N) (h0 : ¬t.val % 4 = 0) (h1 : t.val % 4 = 3) :
    attnSt V c t.val t.isLt = scrLast V c t (not_first_of_mod h0) (last_of_mod h1)
      (attnSt V c (t.val - 1) (Nat.lt_of_le_of_lt (Nat.sub_le _ _) t.isLt)) := by
  obtain ⟨n, hn⟩ := t
  cases n with
  | zero => exact absurd (Nat.zero_mod _) h0
  | succ n => exact (dif_neg h0).trans (dif_pos h1)

/-- The output's buffer after point t: at a last key tile the quotient just stored; elsewhere the window is idle and
    this value is never consulted. -/
def attnOutAt (c : Dev nD) (t : Fin cfg1.N) : Vec F S1x1024x1024 .f32 :=
  if h1 : t.val % 4 = 3 then
    outLast V c t (not_first_of_mod (by omega)) (last_of_mod h1) (attnSt V c (t.val - 1) (Nat.lt_of_le_of_lt (Nat.sub_le _ _) t.isLt))
  else VO.read (Elt F) VO.junk

theorem attnOutAt_last (c : Dev nD) (t : Fin cfg1.N) (h0 : ¬t.val % 4 = 0) (h1 : t.val % 4 = 3) :
    attnOutAt V c t = outLast V c t (not_first_of_mod h0) (last_of_mod h1) (attnSt V c (t.val - 1) (Nat.lt_of_le_of_lt (Nat.sub_le _ _) t.isLt)) :=
  dif_pos h1

/-- The projection kernel's five staging buffers, which the attention kernel never touches, each at some contents. -/
abbrev idleStage (c : Dev nD) : sProp 𝕄 :=
  iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d))

/-- The invariant of the attention kernel with its scratch buffers named as memrefs at some contents. -/
theorem attn_PhiA (c : Dev nD) :
    (Pipeline.ΦA spec1 c : sProp 𝕄)
      = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-- The invariant before position n: at the start whatever the launch hands over; afterwards the scratch buffers at
    what the point before left in them. -/
def attnPhi (c : Dev nD) : (n : ℕ) → n ≤ cfg1.N → sProp 𝕄
  | 0, _ => Pipeline.ΦA spec1 c
  | n + 1, hn => iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c n hn).1 ∗ owns (c : Thread nD τ) scL fullShare (attnSt V c n hn).2.1 ∗ owns (c : Thread nD τ) scA fullShare (attnSt V c n hn).2.2) ∗ (∃ r, prngReg c r))

theorem attnPhi_zero (c : Dev nD) (n : ℕ) (h : n ≤ cfg1.N) (hz : n = 0) : attnPhi V c n h = Pipeline.ΦA spec1 c := by
  subst hz; rfl
theorem attnPhi_succ (c : Dev nD) (n : ℕ) (hn : n < cfg1.N) :
    attnPhi V c (n + 1) hn = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c n hn).1 ∗ owns (c : Thread nD τ) scL fullShare (attnSt V c n hn).2.1 ∗ owns (c : Thread nD τ) scA fullShare (attnSt V c n hn).2.2) ∗ (∃ r, prngReg c r)) := rfl
theorem attnPhi_pos (c : Dev nD) (n : ℕ) (h : n ≤ cfg1.N) (hz : n ≠ 0) :
    attnPhi V c n h = iprop(iprop((∃ d, owns (c : Thread nD τ) (Memref.whole cc0_stg0_0 : Memref sig .tc .vmem S512x1024 .f32) fullShare d) ∗ (∃ d, owns (c : Thread nD τ) (Memref.whole cc0_stg0_1 : Memref sig .tc .vmem S512x1024 .f32) fullShare d) ∗ (∃ d, owns (c : Thread nD τ) (Memref.whole cc0_stg1_0 : Memref sig .tc .vmem S1024x3072 .bf16) fullShare d) ∗ (∃ d, owns (c : Thread nD τ) (Memref.whole cc0_stg2_0 : Memref sig .tc .vmem S512x3072 .bf16) fullShare d) ∗ (∃ d, owns (c : Thread nD τ) (Memref.whole cc0_stg2_1 : Memref sig .tc .vmem S512x3072 .bf16) fullShare d) ∗ owns (c : Thread nD τ) scM fullShare (attnSt V c (n - 1) (by omega)).1 ∗ owns (c : Thread nD τ) scL fullShare (attnSt V c (n - 1) (by omega)).2.1 ∗ owns (c : Thread nD τ) scA fullShare (attnSt V c (n - 1) (by omega)).2.2) ∗ (∃ r, prngReg c r)) := by
  cases n with
  | zero => exact absurd rfl hz
  | succ n => rfl

end Attn

end Cert.Kernel.Hand

end
-- ==== Proof.BitsAttnBody.lean ====
/-
  (For the kernel as printed, at word level: its text is the same as its exact reading's, and so is this module.)
  The attention kernel's proof data and body obligation.

  After the body at point t each input window's buffer holds its block, the output's buffer the quotient stored at a
  last key tile; between two points the scratch buffers hold the recursion's value.  The three query / key / value
  windows read ONE array (the projection's result), each through its own share of it.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import proofs.«178871_j489626272173_2_alg».proof.Proof.BitsAttnState
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- The proof data of the attention kernel on core c. -/
def attnDat (c : Dev nD) : Dat τ (Elt F) Unit ℕ (UR sig nD τ) ℕ cfg1 c where
  A w := V c (Pipeline.arrRef spec1 w)
  after w t := match w with
    | ⟨0, _⟩ => attnBlk V c 0 t
    | ⟨1, _⟩ => attnBlk V c 1 t
    | ⟨2, _⟩ => attnBlk V c 2 t
    | ⟨3, _⟩ => attnOutAt V c t
  Φ t := attnPhi V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem attn_A (c : Dev nD) (w : Fin cfg1.W) : (attnDat V c).A w = V c (Pipeline.arrRef spec1 w) := by
  dsimp only [attnDat]
theorem attn_Phi_castSucc (c : Dev nD) (t : Fin cfg1.N) :
    (attnDat V c).Φ t.castSucc = attnPhi V c t.val (Nat.le_of_lt t.isLt) := by
  dsimp only [attnDat]; simp only [Fin.coe_castSucc]
theorem attn_after_0 (c : Dev nD) (t : Fin cfg1.N) : (attnDat V c).after 0 t = attnBlk V c 0 t := by dsimp only [attnDat]
theorem attn_after_1 (c : Dev nD) (t : Fin cfg1.N) : (attnDat V c).after 1 t = attnBlk V c 1 t := by dsimp only [attnDat]
theorem attn_after_2 (c : Dev nD) (t : Fin cfg1.N) : (attnDat V c).after 2 t = attnBlk V c 2 t := by dsimp only [attnDat]
theorem attn_after_3 (c : Dev nD) (t : Fin cfg1.N) : (attnDat V c).after 3 t = attnOutAt V c t := by dsimp only [attnDat]
theorem attn_before_0 (c : Dev nD) (t : Fin cfg1.N) (d) : (attnDat V c).before 0 t d = attnBlk V c 0 t :=
  attn_found_q V (attnDat V c) (attn_A V c 0) (attn_after_0 V c) t d
theorem attn_before_1 (c : Dev nD) (t : Fin cfg1.N) (d) : (attnDat V c).before 1 t d = attnBlk V c 1 t :=
  attn_found_k V (attnDat V c) (attn_A V c 1) (attn_after_1 V c) t d
theorem attn_before_2 (c : Dev nD) (t : Fin cfg1.N) (d) : (attnDat V c).before 2 t d = attnBlk V c 2 t :=
  attn_found_v V (attnDat V c) (attn_A V c 2) (attn_after_2 V c) t d

/-- What the body is called with at point t, -/
def attnPre (c : Dev nD) (t : Fin cfg1.N) : sProp 𝕄 :=
  iprop((attnDat V c).Φ t.castSucc ∗ (attnDat V c).owesAt () t.castSucc
    ∗ (∃ d, owns (c : Thread nD τ) (ms0 t) fullShare ((attnDat V c).before 0 t d))
    ∗ (∃ d, owns (c : Thread nD τ) (ms1 t) fullShare ((attnDat V c).before 1 t d))
    ∗ (∃ d, owns (c : Thread nD τ) (ms2 t) fullShare ((attnDat V c).before 2 t d))
    ∗ (∃ d, owns (c : Thread nD τ) (ms3 t) fullShare ((attnDat V c).before 3 t d)))

/-- and what it returns. -/
def attnPost (c : Dev nD) (t : Fin cfg1.N) : sProp 𝕄 :=
  iprop((attnDat V c).Φ t.succ ∗ (attnDat V c).owesAt () t.succ
    ∗ (attnDat V c).leavesExact 0 t ∗ (attnDat V c).leavesExact 1 t ∗ (attnDat V c).leavesExact 2 t ∗ (attnDat V c).leavesExact 3 t)

set_option maxHeartbeats 8000000 in
/-- The body at any point, in the point's case. -/
theorem attn_body (c : Dev nD) (t : Fin cfg1.N) :
    attnPre V c t ⊢ wp frame (wpE (defs₀ (F := F)) Variants.none c none) Set.univ (bodyAt1 t) (fun _ => attnPost V c t) := by
  unfold attnPre attnPost bodyAt1
  simp only [attn_before_0, attn_before_1, attn_before_2]
  rw [show (attnDat V c).owesAt () t.succ = (attnDat V c).owesAt () t.castSucc from rfl]
  rw [show (attnDat V c).Φ t.succ = attnPhi V c (t.val + 1) t.isLt from rfl, attnPhi_succ]
  have hN : t.val < 64 := lt_of_lt_of_eq t.isLt (show cfg1.N = 64 from N_1)
  by_cases h0 : t.val % 4 = 0
  · have h1 : ¬t.val % 4 = 3 := not_last_of_first h0
    rw [show (attnDat V c).leavesExact 0 t = owns (c : Thread nD τ) (ms0 t) fullShare ((attnDat V c).after 0 t) from by
      unfold Dat.leavesExact; rw [attn_live_q t], attn_after_0]
    rw [show (attnDat V c).leavesExact 1 t = owns (c : Thread nD τ) (ms1 t) fullShare ((attnDat V c).after 1 t) from by
      unfold Dat.leavesExact; rw [attn_live_k t], attn_after_1]
    rw [show (attnDat V c).leavesExact 2 t = owns (c : Thread nD τ) (ms2 t) fullShare ((attnDat V c).after 2 t) from by
      unfold Dat.leavesExact; rw [attn_live_v t], attn_after_2]
    rw [Dat.leavesExact_idle (attnDat V c) 3 t (attn_idle_out t (not_last_of_mod h1)) (attn_noflush_out t (not_last_of_mod h1))]
    rw [attnSt_first V c t h0]
    unfold scrFirst; (try dsimp only)
    by_cases hz : t.val = 0
    · rw [attn_Phi_castSucc V c t, attnPhi_zero V c _ _ hz, attn_PhiA]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunFirst c (grid1.coords t) _ _ _ _ _ _ _ _ _ _ _ _ _ _ (first_of_mod h0) (not_last_of_mod (not_last_of_first h0)) (attnBlk V c 0 t) (attnBlk V c 1 t) (attnBlk V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_first_m V c t _ _)
        isplitl [HS1]
        · unfold owns; iexists _; isplitr
          swap; · iexact HS1
          ipureintro; exact View.read_writes_of_cover _ _ _ _ _ (cover_first_l V c t _ _)
        unfold owns; iexists _; isplitr
        swap; · iexact HS2
        ipureintro; exact View.read_writes_of_cover _ _ _ _ _ (cover_first_a V c t _ _)
      isplitl [Ho]; · iexact Ho
      isplitl [H0]; · iexact H0
      isplitl [H1]; · iexact H1
      isplitl [H2]; · iexact H2
      iexists _; iexact H3
    · rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunFirst c (grid1.coords t) _ _ _ _ _ _ _ _ _ _ _ _ _ _ (first_of_mod h0) (not_last_of_mod (not_last_of_first h0)) (attnBlk V c 0 t) (attnBlk V c 1 t) (attnBlk V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_first_m V c t _ _)
        isplitl [HS1]
        · unfold owns; iexists _; isplitr
          swap; · iexact HS1
          ipureintro; exact View.read_writes_of_cover _ _ _ _ _ (cover_first_l V c t _ _)
        unfold owns; iexists _; isplitr
        swap; · iexact HS2
        ipureintro; exact View.read_writes_of_cover _ _ _ _ _ (cover_first_a V c t _ _)
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (attnDat V c).leavesExact 0 t = owns (c : Thread nD τ) (ms0 t) fullShare ((attnDat V c).after 0 t) from by
        unfold Dat.leavesExact; rw [attn_live_q t], attn_after_0]
      rw [show (attnDat V c).leavesExact 1 t = owns (c : Thread nD τ) (ms1 t) fullShare ((attnDat V c).after 1 t) from by
        unfold Dat.leavesExact; rw [attn_live_k t], attn_after_1]
      rw [show (attnDat V c).leavesExact 2 t = owns (c : Thread nD τ) (ms2 t) fullShare ((attnDat V c).after 2 t) from by
        unfold Dat.leavesExact; rw [attn_live_v t], attn_after_2]
      rw [show (attnDat V c).leavesExact 3 t = owns (c : Thread nD τ) (ms3 t) fullShare ((attnDat V c).after 3 t) from by
        unfold Dat.leavesExact; rw [attn_live_out t (last_of_mod h1)], attn_after_3]
      rw [attnSt_last V c t h0 h1, attnOutAt_last V c t h0 h1]
      unfold scrLast outLast; (try dsimp only)
      rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunLast c (grid1.coords t) _ _ _ _ _ _ _ _ _ _ _ _ _ _ (not_first_of_mod h0) (last_of_mod h1) (attnBlk V c 0 t) (attnBlk V c 1 t) (attnBlk V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_last_m V c t _ _ _)
        isplitl [HS1]
        · unfold owns; iexists _; isplitr
          swap; · iexact HS1
          ipureintro; exact View.read_writes_of_cover _ _ _ _ _ (cover_last_l V c t _ _ _)
        unfold owns; iexists _; isplitr
        swap; · iexact HS2
        ipureintro; exact View.read_writes_of_cover _ _ _ _ _ (cover_last_a V c t _ _ _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_last_o V c t _ _ _)
    · rw [show (attnDat V c).leavesExact 0 t = owns (c : Thread nD τ) (ms0 t) fullShare ((attnDat V c).after 0 t) from by
        unfold Dat.leavesExact; rw [attn_live_q t], attn_after_0]
      rw [show (attnDat V c).leavesExact 1 t = owns (c : Thread nD τ) (ms1 t) fullShare ((attnDat V c).after 1 t) from by
        unfold Dat.leavesExact; rw [attn_live_k t], attn_after_1]
      rw [show (attnDat V c).leavesExact 2 t = owns (c : Thread nD τ) (ms2 t) fullShare ((attnDat V c).after 2 t) from by
        unfold Dat.leavesExact; rw [attn_live_v t], attn_after_2]
      rw [Dat.leavesExact_idle (attnDat V c) 3 t (attn_idle_out t (not_last_of_mod h1)) (attn_noflush_out t (not_last_of_mod h1))]
      rw [attnSt_mid V c t h0 h1]
      unfold scrMid; (try dsimp only)
      rw [attn_Phi_castSucc V c t, attnPhi_pos V c _ _ hz]
      iintro ⟨⟨⟨Q0, Q1, Q2, Q3, Q4, HS0, HS1, HS2⟩, Hg⟩, Ho, ⟨%d0, H0⟩, ⟨%d1, H1⟩, ⟨%d2, H2⟩, ⟨%d3, H3⟩⟩
      iapply ((attnRunMid c (grid1.coords t) _ _ _ _ _ _ _ _ _ _ _ _ _ _ (not_first_of_mod h0) (not_last_of_mod h1) (attnBlk V c 0 t) (attnBlk V c 1 t) (attnBlk V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [Q0 Q1 Q2 Q3 Q4 HS0 HS1 HS2 Hg]
      · isplitr [Hg]
        swap; · iexact Hg
        isplitl [Q0]; · iexact Q0
        isplitl [Q1]; · iexact Q1
        isplitl [Q2]; · iexact Q2
        isplitl [Q3]; · iexact Q3
        isplitl [Q4]; · iexact Q4
        isplitl [HS0]
        · unfold owns; iexists _; isplitr
          swap; · iexact HS0
          ipureintro; exact View.read_writes_of_cover _ _ _ _ _ (cover_mid_m V c t _ _ _)
        isplitl [HS1]
        · unfold owns; iexists _; isplitr
          swap; · iexact HS1
          ipureintro; exact View.read_writes_of_cover _ _ _ _ _ (cover_mid_l V c t _ _ _)
        unfold owns; iexists _; isplitr
        swap; · iexact HS2
        ipureintro; exact View.read_writes_of_cover _ _ _ _ _ (cover_mid_a V c t _ _ _)
      isplitl [Ho]; · iexact Ho
      isplitl [H0]; · iexact H0
      isplitl [H1]; · iexact H1
      isplitl [H2]; · iexact H2
      iexists _; iexact H3

/-- The body obligation of the attention kernel, at every point. -/
theorem attn_obligation (c : Dev nD) : BodyObligation (attnDat (F := F) V c) (defs₀ (F := F)) Variants.none () Set.univ := fun t => by
  rw [bigSep_W1, bigSep_W1]
  exact attn_body V c t

/-- What the launch hands the kernel is the invariant before the first point. -/
theorem attn_in (c : Dev nD) : Pipeline.ΦA spec1 c ⊢ (attnDat V c).Φ 0 := by
  rw [show (attnDat V c).Φ 0 = attnPhi V c 0 (Nat.zero_le _) from rfl, attnPhi_zero V c 0 _ rfl]
  try exact Idealize.SL.BI.Entails.refl _

/-- After the last point the invariant gives it back, the scratch buffers' contents forgotten. -/
theorem attn_out (c : Dev nD) : (attnDat V c).Φ (Fin.last cfg1.N) ⊢ Pipeline.ΦA spec1 c := by
  rw [show (attnDat V c).Φ (Fin.last cfg1.N) = attnPhi V c (Fin.last cfg1.N).val (Nat.le_of_lt_succ (Fin.last cfg1.N).isLt) from rfl,
    attnPhi_pos V c _ _ (by rw [Fin.val_last]; have : cfg1.N = 64 := N_1; omega), attn_PhiA]
  iintro ⟨⟨Q0, Q1, Q2, Q3, Q4, HS0, HS1, HS2⟩, Hg⟩
  isplitr [Hg]
  swap; · iexact Hg
  isplitl [Q0]; · iexact Q0
  isplitl [Q1]; · iexact Q1
  isplitl [Q2]; · iexact Q2
  isplitl [Q3]; · iexact Q3
  isplitl [Q4]; · iexact Q4
  isplitl [HS0]; · iexists _; iexact HS0
  isplitl [HS1]; · iexists _; iexact HS1
  iexists _; iexact HS2

end Attn

end Cert.Kernel.Hand

end
-- ==== Proof.BitsAttnShares.lean ====
/-
  (For the kernel as printed, at word level: its text is the same as its exact reading's, and so is this module.)
  The one array behind the attention kernel's three input windows.

  The query, key and value windows all read the projection's result; the output window writes the final array.  The
  kernel therefore holds TWO distinct buffers: the projection's result, split three ways among the input windows
  (a left half, and the two halves of the right half), and the output array whole.  At the end the three shares, all
  still at the contents the kernel found, join back into the whole buffer.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import proofs.«178871_j489626272173_2_alg».proof.Proof.BitsAttnBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

/-- The distinct buffers behind the four windows: the projection's result and the output array. -/
theorem attn_arrBufs (c : Dev nD) (U : (b : Ref sig .tc) → Buf (Elt F) ((c : Thread nD τ).loc b)) :
    (Pipeline.arrBufs (Ix := Unit) (Name := ℕ) (U := UR sig nD τ) (Lvl := ℕ) spec1 c U : sProp 𝕄)
      = iprop((((c : Thread nD τ).loc main_v6) ↦{fullShare} U main_v6) ∗ (((c : Thread nD τ).loc main_v7) ↦{fullShare} U main_v7)) := by
  unfold Pipeline.arrBufs; exact bigSep_eq_bigSepL_of_eq [main_v6, main_v7] (by decide) (by decide) _

/-- The four windows' arrays, one by one: three shares of the projection's result and the output array whole. -/
theorem attn_arrays (c : Dev nD) (G : (w : Fin cfg1.W) → Buf (Elt F) ((cfg1.win w).arr.view.loc (c : Thread nD τ))) :
    ((attnDat V c).arrays G : sProp 𝕄)
      = iprop((((c : Thread nD τ).loc main_v6) ↦{fullShare.left} G 0) ∗ (((c : Thread nD τ).loc main_v6) ↦{fullShare.right.left} G 1)
          ∗ (((c : Thread nD τ).loc main_v6) ↦{fullShare.right.right} G 2) ∗ (((c : Thread nD τ).loc main_v7) ↦{fullShare} G 3)) := by
  unfold Dat.arrays; rw [bigSep_W1]
  rw [(arr_whole1 0).set_eq_univ, (arr_whole1 3).set_eq_univ]
  rfl

/-- Entering: the two buffers at the contents the kernel finds make the four windows' arrays. -/
theorem attn_arrays_in (c : Dev nD) :
    (Pipeline.arrBufs (Ix := Unit) (Name := ℕ) (U := UR sig nD τ) (Lvl := ℕ) spec1 c (V c) : sProp 𝕄)
      ⊢ (attnDat V c).arrays ((attnDat V c).arrAt · 0) := by
  rw [attn_arrBufs, attn_arrays]
  iintro ⟨H6, H7⟩
  ihave H6 := (pointsTo_share (PosShare.mem_left_op_right fullShare)).1 $$ H6
  icases H6 with ⟨Hl, Hr⟩
  ihave Hr := (pointsTo_share (PosShare.mem_left_op_right fullShare.right)).1 $$ Hr
  icases Hr with ⟨Hrl, Hrr⟩
  isplitl [Hl]; · iexact Hl
  isplitl [Hrl]; · iexact Hrl
  isplitl [Hrr]; · iexact Hrr
  iexact H7

/-- Leaving: the three shares, still at the contents found, join; the output array holds what the write-backs left. -/
theorem attn_arrays_out (c : Dev nD) :
    ((attnDat V c).arrays ((attnDat V c).arrAt · cfg1.N) : sProp 𝕄)
      ⊢ iprop((((c : Thread nD τ).loc main_v6) ↦{fullShare} V c main_v6) ∗ (((c : Thread nD τ).loc main_v7) ↦{fullShare} (attnDat V c).arrAt 3 cfg1.N)) := by
  rw [attn_arrays]
  rw [show (attnDat V c).arrAt 0 cfg1.N = V c main_v6 from ((attnDat V c).arrAt_in 0 rfl _).trans (attn_A V c 0),
    show (attnDat V c).arrAt 1 cfg1.N = V c main_v6 from ((attnDat V c).arrAt_in 1 rfl _).trans (attn_A V c 1),
    show (attnDat V c).arrAt 2 cfg1.N = V c main_v6 from ((attnDat V c).arrAt_in 2 rfl _).trans (attn_A V c 2)]
  iintro ⟨Hl, Hrl, Hrr, H7⟩
  isplitr [H7]
  swap; · iexact H7
  iapply (pointsTo_share (PosShare.mem_left_op_right fullShare)).2
  isplitl [Hl]; · iexact Hl
  iapply (pointsTo_share (PosShare.mem_left_op_right fullShare.right)).2
  isplitl [Hrl]; · iexact Hrl
  iexact Hrr

/-- Entering the kernel: the core's unscoped buffers at the contents found are the four windows' arrays and the rest. -/
theorem attn_entry (c : Dev nD) :
    (unscopedBufs c (V c) : sProp 𝕄)
      ⊢ iprop((attnDat V c).arrays ((attnDat V c).arrAt · 0) ∗ Pipeline.unscopedRest (Ix := Unit) (Name := ℕ) (U := UR sig nD τ) (Lvl := ℕ) spec1 c (V c)) := by
  have hs : (unscopedBufs c (V c) : sProp 𝕄)
      = iprop(Pipeline.arrBufs (Ix := Unit) (Name := ℕ) (U := UR sig nD τ) (Lvl := ℕ) spec1 c (V c) ∗ Pipeline.unscopedRest spec1 c (V c)) :=
    Pipeline.unscopedBufs_split₀ cfgs (1 : Fin 2) (by decide) c (V c)
  rw [hs]
  exact sep_mono (attn_arrays_in V c) .rfl

/-- Leaving it: the windows' arrays at their final contents and the rest make the unscoped buffers at any contents that
    agree with the found ones except at the output array, which holds what the write-backs left. -/
theorem attn_exit (c : Dev nD) (U' : (b : Ref sig .tc) → Buf (Elt F) ((c : Thread nD τ).loc b)) (h6 : U' main_v6 = V c main_v6)
    (h7 : U' main_v7 = (attnDat V c).arrAt 3 cfg1.N) (hrest : ∀ b, b ∉ Finset.univ.image (Pipeline.arrRef spec1) → U' b = V c b) :
    iprop((attnDat V c).arrays ((attnDat V c).arrAt · cfg1.N) ∗ Pipeline.unscopedRest (Ix := Unit) (Name := ℕ) (U := UR sig nD τ) (Lvl := ℕ) spec1 c (V c))
      ⊢ (unscopedBufs c U' : sProp 𝕄) := by
  have hs : (unscopedBufs c U' : sProp 𝕄)
      = iprop(Pipeline.arrBufs (Ix := Unit) (Name := ℕ) (U := UR sig nD τ) (Lvl := ℕ) spec1 c U' ∗ Pipeline.unscopedRest spec1 c U') :=
    Pipeline.unscopedBufs_split₀ cfgs (1 : Fin 2) (by decide) c U'
  rw [hs, attn_arrBufs, h6, h7]
  refine sep_mono (attn_arrays_out V c) (Entails.of_eq ?_)
  unfold Pipeline.unscopedRest
  exact bigSep_congr fun b hb => by rw [hrest b (Finset.mem_sdiff.mp hb).2]

end Attn

end Cert.Kernel.Hand

end
-- ==== Proof.BitsKernelRun.lean ====
/-
  (For the kernel as printed, at word level: its text is the same as its exact reading's, and so is this module.)
  The whole program, segment by segment: host operations, the projection kernel, a reshape, the attention kernel.

  The contents of the core's buffers at each boundary are a fold from the launch memory: after the first stretch of
  host operations (the scaled and concatenated weights, the flattened input), after the projection kernel (its result
  array at what its write-backs leave), after the reshape, after the attention kernel (the final array at what its
  write-backs leave).  Each kernel is entered from the buffers at the boundary before it and left at the boundary
  after it; no argument array is ever written.  The run's conclusion names the final array's contents and says every
  argument array ends as launched.
-/
import proofs.«178871_j489626272173_2_alg».proof.Proof.Gen.Kernel.Launch
import proofs.«178871_j489626272173_2_alg».proof.Proof.Gen.Kernel.Skeleton
import proofs.«178871_j489626272173_2_alg».proof.Proof.Gen.Kernel.Points
import proofs.«178871_j489626272173_2_alg».proof.Proof.Gen.Kernel.Regions
import proofs.«178871_j489626272173_2_alg».proof.Proof.BitsQkvBody
import proofs.«178871_j489626272173_2_alg».proof.Proof.BitsAttnShares
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core c's buffers at launch, -/
abbrev W0 : Dev nD → Valuation τ sig (Elt F) := fun c b => m (c, b)
/-- after the first host stretch (the projection kernel's entry), -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b
/-- after the projection kernel: its arrays at what the pipeline leaves, -/
def W2 (c : Dev nD) : Valuation τ sig (Elt F) :=
  Pipeline.withArrays spec0 c (W1 m c) fun w => (qkvDat (U1 m) c).arrAt w cfg0.N
theorem W2_arr (c : Dev nD) (w : Fin cfg0.W) :
    W2 m c (Proc.devRef .tc (Pipeline.arrRef spec0 w)) = (qkvDat (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev U2 : (c : Dev nD) → (b : Ref sig .tc) → Buf (Elt F) ((c : Thread nD τ).loc b) := fun c b => W2 m c b
theorem qkv_final (c : Dev nD) (w : Fin cfg0.W) : (qkvDat (U1 m) c).arrAt w cfg0.N = U2 m c (Pipeline.arrRef spec0 w) :=
  (W2_arr m c w).symm
theorem qkv_rest (c : Dev nD) : ∀ b, b ∉ Finset.univ.image (Pipeline.arrRef spec0) → U2 m c b = U1 m c b :=
  fun b hb => W2_of_ne m c b fun w e => hb (Finset.mem_image.mpr ⟨w, Finset.mem_univ _, e⟩)
/-- after the reshape (the attention kernel's entry), -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b
/-- and after the attention kernel: the final array at what its write-backs leave. -/
def W4 (c : Dev nD) : Valuation τ sig (Elt F) :=
  Function.update (W3 m c) (Proc.devRef .tc main_v7) ((attnDat (U3 m) c).arrAt 3 cfg1.N)
abbrev U4 : (c : Dev nD) → (b : Ref sig .tc) → Buf (Elt F) ((c : Thread nD τ).loc b) := fun c b => W4 m c b
theorem W4_out (c : Dev nD) : U4 m c main_v7 = (attnDat (U3 m) c).arrAt 3 cfg1.N := by
  unfold U4 W4; exact Function.update_self _ _ _
theorem W4_of_ne (c : Dev nD) (b : Ref sig .tc) (hb : b ≠ main_v7) : U4 m c b = U3 m c b := by
  unfold U4 W4; exact Function.update_of_ne (StableHlo.devRef_ne_of_ne hb) _ _

/-- No host operation and no kernel writes an argument array. -/
theorem W4_arg (c : Dev nD) (b : Ref sig .tc) (h7 : b ≠ main_v7) (h1 : b ∉ (hostOps1_W : List (Ref sig .tc)))
    (h5 : ∀ w, Pipeline.arrRef spec0 w ≠ b) (h0 : b ∉ (hostOps0_W : List (Ref sig .tc))) :
    U4 m c b = m ((c : Thread nD τ).loc b) :=
  (W4_of_ne m c b h7).trans <| (StableHlo.after_of_writes_sub hostOps1 _ hostOps1_writes h1).trans <|
    (W2_of_ne m c b h5).trans <| (StableHlo.after_of_writes_sub hostOps0 _ hostOps0_writes h0).trans rfl

/-- Both pipelines' proof data, each at its kernel's entry contents. -/
def pdats : (p : Fin 2) → (c : Dev nD) → Dat τ (Elt F) Unit ℕ (UR sig nD τ) ℕ (Pipeline.pin (pcfgs (F := F)) adm p) c
  | ⟨0, _⟩ => fun c => qkvDat (U1 m) c
  | ⟨1, _⟩ => fun c => attnDat (U3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev Rd (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W4 m c) ∗ ∃ r, prngReg c r)

set_option backward.isDefEq.respectTransparency.types false in
/-- The projection kernel as a segment: entered from every unscoped buffer at W1, left at W2. -/
def regQkv : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (qkv_obligation (U1 m) c).loose
  hwaits := Pipeline.hwaits_of_owed_zero _ _ _ _ L lv 0 fun _ _ => rfl
  pre c := iprop(StableHlo.held (c : Thread nD τ) (Pipeline.ucRefs τ sig) (W1 m c) ∗ Rd c)
  post c := iprop(StableHlo.held (c : Thread nD τ) (Pipeline.ucRefs τ sig) (W2 m c) ∗ Rd c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (qkv_final m c) (qkv_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention kernel as a segment: entered from every unscoped buffer at W3, left at W4. Its three input windows
    share the projection's result (each holds a share of it); its invariant keeps the scratch buffers. -/
def regAttn : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (attn_obligation (U3 m) c).loose
  hwaits := Pipeline.hwaits_of_owed_zero _ _ _ _ L lv 1 fun _ _ => rfl
  pre c := iprop(StableHlo.held (c : Thread nD τ) (Pipeline.ucRefs τ sig) (W3 m c) ∗ Rd c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit : (unscopedBufs c (U3 m c) : sProp 𝕄)
        ⊢ iprop((pdats m 1 c).arrays ((pdats m 1 c).arrAt · 0) ∗ Pipeline.unscopedRest (Ix := Unit) (Name := ℕ) (U := UR sig nD τ) (Lvl := ℕ) spec1 c (U3 m c)) :=
      attn_entry (U3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (attn_out (U3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (U3 m c))
        ⊢ (unscopedBufs c (U4 m c) : sProp 𝕄) :=
      attn_exit (U3 m) c (U4 m c) (W4_of_ne m c main_v6 (by decide)) (W4_out m c)
        (fun b hb => W4_of_ne m c b fun e => hb (Finset.mem_image.mpr ⟨3, Finset.mem_univ _, e.symm⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's four segments in order. -/
abbrev segs : List (Pipeline.Seg (pcfgs (F := F)) adm (pdats m) () defs₀ 𝒱₀ L lv) :=
  [ .host (hseg hostOps0 hostOps0_sub hostOps0_fresh (W0 m)),
    .region (regQkv m),
    .host (hseg hostOps1 hostOps1_sub hostOps1_fresh (W2 m)),
    .region (regAttn m) ]
theorem main_run (c : Dev nD) : main (F := F) c = Pipeline.Seg.run (segs m) := (main_chain c).trans (by chain_rfl)

set_option backward.isDefEq.respectTransparency.types false in
/-- THE RUN, at any F: every weakly fair execution of @main from memory m with zero counters terminates, nothing
    faulting, and every final memory holds the final array at W4's value and each argument array as launched. -/
theorem run_main : θ_run defs (onTc (τ := τ) (main (F := F))) ⟨m, fun _ => 0, ρ⟩ (fun r => ∀ c : Dev nD,
      r.2.mem ((c.tc : Thread nD τ).loc main_v7) = U4 m c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tend m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨h c _ (mem_uc main_v7 (by decide)),
       (h c _ (mem_uc main_arg0 (by decide))).trans (W4_arg m c main_arg0 (by decide) (by decide) (by decide) (by decide)),
       (h c _ (mem_uc main_arg1 (by decide))).trans (W4_arg m c main_arg1 (by decide) (by decide) (by decide) (by decide)),
       (h c _ (mem_uc main_arg2 (by decide))).trans (W4_arg m c main_arg2 (by decide) (by decide) (by decide) (by decide)),
       (h c _ (mem_uc main_arg3 (by decide))).trans (W4_arg m c main_arg3 (by decide) (by decide) (by decide) (by decide))⟩)

end Cert.Kernel.Hand

end
-- ==== Proof.PayAt.lean ====
/-
  The two kernel bodies' arithmetic, read entry by entry over the extended reals.

  The projection kernel's body is one matrix product of a block of 512 rows of x with the fused weight matrix
  [1024, 3072]. The attention kernel's body, for one block of 1024 query rows q and one tile of 512 key rows k and
  value rows v, with the running row maximum m, row sum l and accumulator acc:
    s[r, j]    = Σ_d q[r, d] · k[j, d]                       the scores of the tile
    m'[r]      = max (m[r]) (max_j s[r, j])                   the new running maximum
    α[r]       = exp (m[r] − m'[r])                           the rescaling of what was accumulated
    p[r, j]    = exp (s[r, j] − m'[r])                        the tile's unnormalised weights
    l'[r]      = α[r] · l[r] + Σ_j p[r, j]                    the new running sum
    acc'[r, e] = α[r] · acc[r, e] + Σ_j p[r, j] · v[j, e]     the new accumulator
  and at the last tile the result acc[r, e] / l[r]. Over the extended reals a narrowing or widening of the float
  format and a recast to the same shape change nothing, so each of these is a plain expression in the entries.
-/
import proofs.«178871_j489626272173_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayAt

open Idealize.ShloMosaic Idealize.ShloMosaic.ValueIdx Cert.KernelIdeal.Gen

/-! ## The three matrix products -/

/-- The projection: entry (r, c) of a block of 512 rows of x times the fused weights is Σ_k x[r, k] · w[k, c]. -/
theorem k0_pay1_at (x : FVec Ideal S512x1024 .f32) (w : FVec Ideal S1024x3072 .bf16) (r : Fin 512) (c : Fin 3072) :
    k0_pay1 (F := Ideal) x w (ix2 r c) = ∑ k : Fin 1024, x (ix2 r k) * w (ix2 k c) := by
  unfold k0_pay1
  simp only [shapeCast_self]
  show FloatOps.matmul dot_S512x1024_S1024x3072_S512x3072_1_0_0_1_n_n none x w
      (constant (F := Ideal) S512x3072 .f32 0x00000000#32) (ix2 r c) = _
  rw [Ideal.matmul_constant_zero_apply,
    ← Equiv.sum_comp (contrEquiv1 dot_S512x1024_S1024x3072_S512x3072_1_0_0_1_n_n 1024 rfl rfl).symm]
  refine Finset.sum_congr rfl fun k _ => ?_
  have hk := contrEquiv1_symm_val dot_S512x1024_S1024x3072_S512x3072_1_0_0_1_n_n 1024 rfl rfl k
  have el : dot_S512x1024_S1024x3072_S512x3072_1_0_0_1_n_n.lhsIdx (ix2 r c)
      ((contrEquiv1 dot_S512x1024_S1024x3072_S512x3072_1_0_0_1_n_n 1024 rfl rfl).symm k) = ix2 r k :=
    funext fun a => Fin.ext (by
      match a with
      | ⟨0, _⟩ => rfl
      | ⟨1, _⟩ => exact (dot_S512x1024_S1024x3072_S512x3072_1_0_0_1_n_n.lhsIdx_val_of_single rfl _ _).trans hk)
  have er : dot_S512x1024_S1024x3072_S512x3072_1_0_0_1_n_n.rhsIdx (ix2 r c)
      ((contrEquiv1 dot_S512x1024_S1024x3072_S512x3072_1_0_0_1_n_n 1024 rfl rfl).symm k) = ix2 k c :=
    funext fun a => Fin.ext (by
      match a with
      | ⟨0, _⟩ => exact (dot_S512x1024_S1024x3072_S512x3072_1_0_0_1_n_n.rhsIdx_val_of_single rfl _ _).trans hk
      | ⟨1, _⟩ => rfl)
  rw [el, er]

/-- The scores: entry (0, r, j) of q times the transpose of k is Σ_d q[r, d] · k[j, d]. -/
theorem k1_pay7_at (q : FVec Ideal S1x1024x1024 .bf16) (k : FVec Ideal S1x512x1024 .bf16) (r : Fin 1024) (j : Fin 512) :
    k1_pay7 (F := Ideal) q k (ix3 (0 : Fin 1) r j)
      = ∑ d : Fin 1024, q (ix3 (0 : Fin 1) r d) * k (ix3 (0 : Fin 1) j d) := by
  unfold k1_pay7
  simp only [shapeCast_self]
  show FloatOps.matmul dot_S1x1024x1024_S1x512x1024_S1x1024x512_2_2_1_1_0_0 none q k
      (constant (F := Ideal) S1x1024x512 .f32 0x00000000#32) (ix3 (0 : Fin 1) r j) = _
  rw [Ideal.matmul_constant_zero_apply,
    ← Equiv.sum_comp (contrEquiv1 dot_S1x1024x1024_S1x512x1024_S1x1024x512_2_2_1_1_0_0 1024 rfl rfl).symm]
  refine Finset.sum_congr rfl fun d _ => ?_
  have hd := contrEquiv1_symm_val dot_S1x1024x1024_S1x512x1024_S1x1024x512_2_2_1_1_0_0 1024 rfl rfl d
  have el : dot_S1x1024x1024_S1x512x1024_S1x1024x512_2_2_1_1_0_0.lhsIdx (ix3 (0 : Fin 1) r j)
      ((contrEquiv1 dot_S1x1024x1024_S1x512x1024_S1x1024x512_2_2_1_1_0_0 1024 rfl rfl).symm d) = ix3 (0 : Fin 1) r d :=
    funext fun a => Fin.ext (by
      match a with
      | ⟨0, _⟩ => rfl
      | ⟨1, _⟩ => rfl
      | ⟨2, _⟩ => exact (dot_S1x1024x1024_S1x512x1024_S1x1024x512_2_2_1_1_0_0.lhsIdx_val_of_single rfl _ _).trans hd)
  have er : dot_S1x1024x1024_S1x512x1024_S1x1024x512_2_2_1_1_0_0.rhsIdx (ix3 (0 : Fin 1) r j)
      ((contrEquiv1 dot_S1x1024x1024_S1x512x1024_S1x1024x512_2_2_1_1_0_0 1024 rfl rfl).symm d) = ix3 (0 : Fin 1) j d :=
    funext fun a => Fin.ext (by
      match a with
      | ⟨0, _⟩ => rfl
      | ⟨1, _⟩ => rfl
      | ⟨2, _⟩ => exact (dot_S1x1024x1024_S1x512x1024_S1x1024x512_2_2_1_1_0_0.rhsIdx_val_of_single rfl _ _).trans hd)
  rw [el, er]

/-- The accumulator's update: entry (0, r, e) is a[r, e] + Σ_j p[r, j] · v[j, e]. -/
theorem k1_pay1_at (p : FVec Ideal S1x1024x512 .f32) (a : FVec Ideal S1x1024x1024 .f32) (v : FVec Ideal S1x512x1024 .bf16)
    (r : Fin 1024) (e : Fin 1024) :
    k1_pay1 (F := Ideal) p a v (ix3 (0 : Fin 1) r e)
      = a (ix3 (0 : Fin 1) r e) + ∑ j : Fin 512, p (ix3 (0 : Fin 1) r j) * v (ix3 (0 : Fin 1) j e) := by
  unfold k1_pay1
  simp only [shapeCast_self]
  show a (ix3 (0 : Fin 1) r e) + FloatOps.matmul dot_S1x1024x512_S1x512x1024_S1x1024x1024_2_1_1_2_0_0 none p v
      (constant (F := Ideal) S1x1024x1024 .f32 0x00000000#32) (ix3 (0 : Fin 1) r e) = _
  refine congrArg (a (ix3 (0 : Fin 1) r e) + ·) ?_
  rw [Ideal.matmul_constant_zero_apply,
    ← Equiv.sum_comp (contrEquiv1 dot_S1x1024x512_S1x512x1024_S1x1024x1024_2_1_1_2_0_0 512 rfl rfl).symm]
  refine Finset.sum_congr rfl fun j _ => ?_
  have hj := contrEquiv1_symm_val dot_S1x1024x512_S1x512x1024_S1x1024x1024_2_1_1_2_0_0 512 rfl rfl j
  have el : dot_S1x1024x512_S1x512x1024_S1x1024x1024_2_1_1_2_0_0.lhsIdx (ix3 (0 : Fin 1) r e)
      ((contrEquiv1 dot_S1x1024x512_S1x512x1024_S1x1024x1024_2_1_1_2_0_0 512 rfl rfl).symm j) = ix3 (0 : Fin 1) r j :=
    funext fun a => Fin.ext (by
      match a with
      | ⟨0, _⟩ => rfl
      | ⟨1, _⟩ => rfl
      | ⟨2, _⟩ => exact (dot_S1x1024x512_S1x512x1024_S1x1024x1024_2_1_1_2_0_0.lhsIdx_val_of_single rfl _ _).trans hj)
  have er : dot_S1x1024x512_S1x512x1024_S1x1024x1024_2_1_1_2_0_0.rhsIdx (ix3 (0 : Fin 1) r e)
      ((contrEquiv1 dot_S1x1024x512_S1x512x1024_S1x1024x1024_2_1_1_2_0_0 512 rfl rfl).symm j) = ix3 (0 : Fin 1) j e :=
    funext fun a => Fin.ext (by
      match a with
      | ⟨0, _⟩ => rfl
      | ⟨1, _⟩ => exact (dot_S1x1024x512_S1x512x1024_S1x1024x1024_2_1_1_2_0_0.rhsIdx_val_of_single rfl _ _).trans hj
      | ⟨2, _⟩ => rfl)
  rw [el, er]

/-! ## Layout steps and lane reductions of a block [1, A, C], read at an index -/

/-- The f32 word `0xFF800000` is −∞. -/
theorem ofBits_negInf : Ideal.ofBits .f32 0xFF800000#32 = ⊥ := by simp [Ideal.ofBits, Ideal.ieee]

/-- The reduced index (0, r) with lane j put back on the last axis is (0, r, j). -/
theorem lift_last {A C : Nat} (h : (⟨3, ![1, A, C]⟩ : Shape).Reduces [2] (⟨2, ![1, A]⟩ : Shape)) (r : Fin A)
    (j : Fin ((⟨3, ![1, A, C]⟩ : Shape).size 2)) :
    h.lift (ix2 (0 : Fin 1) r) j = ix3 (0 : Fin 1) r (⟨j.val, j.isLt⟩ : Fin C) := by
  funext c; apply Fin.ext
  fin_cases c <;> rfl

/-- The lane maximum of a block [1, A, C] from −∞, at row r: the largest of the row's C entries. -/
theorem max_last_apply {A C : Nat} (src : FVec Ideal ⟨3, ![1, A, C]⟩ .f32)
    (h : (⟨3, ![1, A, C]⟩ : Shape).Reduces [2] (⟨2, ![1, A]⟩ : Shape)) (hφ : FKind.Formats .f32)
    (hacc : (0xFF800000#32 : BitVec 32) = FKind.maximumf.neutral .f32 hφ) (r : Fin A) :
    multiReduction .maximumf [2] (⟨2, ![1, A]⟩ : Shape) src 0xFF800000#32 h hφ hacc (ix2 (0 : Fin 1) r)
      = (Finset.univ : Finset (Fin C)).fold max ⊥ fun j => src (ix3 (0 : Fin 1) r j) := by
  refine (Ideal.multiReduction_maximumf_single src _ h hφ hacc (ix2 (0 : Fin 1) r)).trans ?_
  have hf : (src ∘ h.lift (ix2 (0 : Fin 1) r)) = fun j : Fin C => src (ix3 (0 : Fin 1) r j) :=
    funext fun j => congrArg src (lift_last h r j)
  exact (congrArg (fun b => Finset.fold max b (src ∘ h.lift (ix2 (0 : Fin 1) r)) (Finset.univ : Finset (Fin C)))
      ofBits_negInf).trans
    (congrArg (fun f => Finset.fold max ⊥ f (Finset.univ : Finset (Fin C))) hf)

/-- The lane sum of a block [1, A, C], at row r: the sum of the row's C entries. -/
theorem sum_last_apply {A C : Nat} (src : FVec Ideal ⟨3, ![1, A, C]⟩ .f32)
    (h : (⟨3, ![1, A, C]⟩ : Shape).Reduces [2] (⟨2, ![1, A]⟩ : Shape)) (hφ : FKind.Formats .f32)
    (hacc : (0x00000000#32 : BitVec 32) = FKind.add.neutral .f32 hφ) (r : Fin A) :
    multiReduction .add [2] (⟨2, ![1, A]⟩ : Shape) src 0x00000000#32 h hφ hacc (ix2 (0 : Fin 1) r)
      = ∑ j : Fin C, src (ix3 (0 : Fin 1) r j) := by
  refine (Ideal.multiReduction_add_single src _ h hφ hacc (ix2 (0 : Fin 1) r)).trans ?_
  exact Finset.sum_congr rfl fun j _ => congrArg src (lift_last h r j)

/-- A row vector [1, A] recast as a column block [1, A, 1] reads (0, r) at (0, r, 0). -/
theorem cast_col_apply {A : Nat} {α : Type} (v : (⟨2, ![1, A]⟩ : Shape).Idx → α)
    (h : (⟨2, ![1, A]⟩ : Shape).ShapeCasts ⟨3, ![1, A, 1]⟩) (r : Fin A) :
    shapeCast ⟨3, ![1, A, 1]⟩ v h (ix3 (0 : Fin 1) r (0 : Fin 1)) = v (ix2 (0 : Fin 1) r) := by
  refine shapeCast_apply v h _ _ ?_
  rw [Shape.rowMajor_val_two, Shape.rowMajor_val_three]
  show 0 * A + r.val = (0 * A + r.val) * 1 + 0
  omega

/-- A column block [1, A, 1] broadcast along its last axis to [1, A, C] reads (0, r, 0) at every (0, r, c). -/
theorem broadcast_col_apply {A C : Nat} {α : Type} (v : (⟨3, ![1, A, 1]⟩ : Shape).Idx → α)
    (h : (⟨3, ![1, A, 1]⟩ : Shape).Broadcasts ⟨3, ![1, A, C]⟩) (r : Fin A) (c : Fin C) :
    broadcastTo ⟨3, ![1, A, C]⟩ v h (ix3 (0 : Fin 1) r c) = v (ix3 (0 : Fin 1) r (0 : Fin 1)) := by
  refine broadcastTo_apply v h _ _ fun k => ?_
  match k with
  | ⟨0, _⟩ =>
    show 0 = if (1 : Nat) = 1 then 0 else 0
    rw [if_pos rfl]
  | ⟨1, _⟩ =>
    show r.val = if A = 1 then 0 else r.val
    split
    · have := r.isLt; omega
    · rfl
  | ⟨2, _⟩ =>
    show 0 = if (1 : Nat) = 1 then 0 else c.val
    rw [if_pos rfl]

/-! ## One tile's step of the running softmax -/

/-- The new running maximum of row r: the larger of the old one and the largest score of the tile. -/
theorem k1_pay8_at (q : FVec Ideal S1x1024x1024 .bf16) (k : FVec Ideal S1x512x1024 .bf16) (m : FVec Ideal S1x1024x1 .f32)
    (r : Fin 1024) :
    k1_pay8 (F := Ideal) q k m (ix3 (0 : Fin 1) r (0 : Fin 1))
      = max (m (ix3 (0 : Fin 1) r (0 : Fin 1)))
          ((Finset.univ : Finset (Fin 512)).fold max ⊥ fun j => k1_pay7 (F := Ideal) q k (ix3 (0 : Fin 1) r j)) := by
  unfold k1_pay8
  simp only [maximumf_apply]
  refine congrArg (max (m (ix3 (0 : Fin 1) r (0 : Fin 1)))) ?_
  exact (cast_col_apply _ _ r).trans (max_last_apply (k1_pay7 (F := Ideal) q k) _ _ _ r)

/-- The rescaling of what row r had accumulated: exp (old maximum − new maximum). -/
theorem k1_pay9_at (q : FVec Ideal S1x1024x1024 .bf16) (k : FVec Ideal S1x512x1024 .bf16) (m m' : FVec Ideal S1x1024x1 .f32)
    (r : Fin 1024) :
    k1_pay9 (F := Ideal) q k m m' (ix3 (0 : Fin 1) r (0 : Fin 1))
      = Ideal.exp (m' (ix3 (0 : Fin 1) r (0 : Fin 1)) - k1_pay8 (F := Ideal) q k m (ix3 (0 : Fin 1) r (0 : Fin 1))) := by
  unfold k1_pay9
  rfl

/-- The tile's unnormalised weights: exp (score − new maximum of the row). -/
theorem k1_pay10_at (q : FVec Ideal S1x1024x1024 .bf16) (k : FVec Ideal S1x512x1024 .bf16) (m : FVec Ideal S1x1024x1 .f32)
    (r : Fin 1024) (j : Fin 512) :
    k1_pay10 (F := Ideal) q k m (ix3 (0 : Fin 1) r j)
      = Ideal.exp (k1_pay7 (F := Ideal) q k (ix3 (0 : Fin 1) r j)
          - k1_pay8 (F := Ideal) q k m (ix3 (0 : Fin 1) r (0 : Fin 1))) := by
  unfold k1_pay10
  exact congrArg (fun t => Ideal.exp (k1_pay7 (F := Ideal) q k (ix3 (0 : Fin 1) r j) - t)) (broadcast_col_apply _ _ r j)

/-- The new running sum of row r: the rescaled old sum plus the sum of the tile's weights. -/
theorem k1_pay11_at (q : FVec Ideal S1x1024x1024 .bf16) (k : FVec Ideal S1x512x1024 .bf16)
    (m m' l : FVec Ideal S1x1024x1 .f32) (r : Fin 1024) :
    k1_pay11 (F := Ideal) q k m m' l (ix3 (0 : Fin 1) r (0 : Fin 1))
      = k1_pay9 (F := Ideal) q k m m' (ix3 (0 : Fin 1) r (0 : Fin 1)) * l (ix3 (0 : Fin 1) r (0 : Fin 1))
        + ∑ j : Fin 512, k1_pay10 (F := Ideal) q k m (ix3 (0 : Fin 1) r j) := by
  unfold k1_pay11
  simp only [shapeCast_self, addf_apply, mulf_apply]
  refine congrArg (k1_pay9 (F := Ideal) q k m m' (ix3 (0 : Fin 1) r (0 : Fin 1)) * l (ix3 (0 : Fin 1) r (0 : Fin 1)) + ·) ?_
  exact (cast_col_apply _ _ r).trans (sum_last_apply (k1_pay10 (F := Ideal) q k m) _ _ _ r)

/-- The rescaled accumulator: entry (r, e) times the row's rescaling. -/
theorem k1_pay12_at (q : FVec Ideal S1x1024x1024 .bf16) (k : FVec Ideal S1x512x1024 .bf16) (m m' : FVec Ideal S1x1024x1 .f32)
    (acc : FVec Ideal S1x1024x1024 .f32) (r e : Fin 1024) :
    k1_pay12 (F := Ideal) q k m m' acc (ix3 (0 : Fin 1) r e)
      = k1_pay9 (F := Ideal) q k m m' (ix3 (0 : Fin 1) r (0 : Fin 1)) * acc (ix3 (0 : Fin 1) r e) := by
  unfold k1_pay12
  exact congrArg (· * acc (ix3 (0 : Fin 1) r e)) (broadcast_col_apply _ _ r e)

/-! ## The stored maximum, the final division, and the three starting values -/

/-- The running maximum is stored as it is. -/
theorem k1_pay2_eq (m : FVec Ideal S1x1024x1 .f32) : k1_pay2 (F := Ideal) m = m := by
  unfold k1_pay2
  exact shapeCast_self _ _

/-- The result at the last tile: the accumulator's entry (r, e) over the row's sum. -/
theorem k1_pay3_at (acc : FVec Ideal S1x1024x1024 .f32) (l : FVec Ideal S1x1024x1 .f32) (r e : Fin 1024) :
    k1_pay3 (F := Ideal) acc l (ix3 (0 : Fin 1) r e)
      = Ideal.div (acc (ix3 (0 : Fin 1) r e)) (l (ix3 (0 : Fin 1) r (0 : Fin 1))) := by
  unfold k1_pay3
  exact congrArg (Ideal.div (acc (ix3 (0 : Fin 1) r e))) (broadcast_col_apply _ _ r e)

/-- The running maximum starts at −∞. -/
theorem k1_pay4_eq : k1_pay4 (F := Ideal) = fun _ : S1x1024x1.Idx => (⊥ : EReal) := by
  unfold k1_pay4
  simp only [shapeCast_self]
  funext i
  exact ofBits_negInf

/-- The running sum starts at 0. -/
theorem k1_pay5_eq : k1_pay5 (F := Ideal) = fun _ : S1x1024x1.Idx => (0 : EReal) := by
  unfold k1_pay5
  simp only [shapeCast_self]
  funext i
  exact Ideal.ofBits_zero_f32

/-- The accumulator starts at 0. -/
theorem k1_pay6_eq : k1_pay6 (F := Ideal) = fun _ : S1x1024x1024.Idx => (0 : EReal) := by
  unfold k1_pay6
  simp only [shapeCast_self]
  funext i
  exact Ideal.ofBits_zero_f32

end Cert.KernelIdeal.PayAt

end
-- ==== Proof.QkvValue.lean ====
/-
  The projection kernel's result array as one function of what it reads.

  Grid point t writes rows 512·t … 512·t + 511, all 3072 columns; the 32 points tile the result.  Entry (row, col) of
  the block written at point t is the product of that row of the input block with that column of the weights, so the
  whole array holds, at (row, col), Σ_k rows[row, k] · weights[k, col].
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.QkvBody
import proofs.«178871_j489626272173_2_alg».proof.Proof.PayAt
import Idealize.ShloMosaic.Lib.Pipeline.Value
import Idealize.ShloMosaic.Lib.ValueIdx
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

section QkvValue

variable (U : (c : Dev nD) → (b : Ref sig .tc) → Buf (Elt Ideal) ((c : Thread nD τ).loc b))

/-- Rows times weights, entry by entry. -/
def rowsTimes (x2 : S16384x1024.Idx → EReal) (w : S1024x3072.Idx → EReal) : S16384x3072.Idx → EReal :=
  fun i => ∑ k : Fin 1024, x2 (ix2 (i 0) k) * w (ix2 k (i 1))

theorem qkv_hz : (![0, 0] : Fin 2 → Nat) = fun _ => 0 := funext fun a => by fin_cases a <;> rfl

/-- The printed index maps over the grid: point t takes block row t of the rows and of the result, the weights whole. -/
theorem qkv_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of rows times weights. -/
theorem qkv_flushed (c : Dev nD) (t : Fin cfg0.N) :
    (qkvDat (F := Ideal) U c).flushed 2 t
      = ((cfg0.win 2).blk t).view.read (Elt Ideal) (rowsTimes (U c main_v4) (U c main_v3)) := by
  show (cfg0.win 2).cut (grid0.coords t) ((qkvDat (F := Ideal) U c).after 2 t) = _
  rw [qkv_after_out]
  unfold qkvOut
  rw [View.canon_unit_zero qkv_hz]
  simp only [View.ld_unit_zero (S := S512x1024) qkv_hz, View.ld_unit_zero (S := S1024x3072) qkv_hz]
  obtain ⟨e0, e1, e2, e3, e4, e5⟩ := qkv_idx t
  funext j
  obtain ⟨p, q, rfl⟩ : ∃ (p : Fin 512) (q : Fin 3072), j = ix2 p q := ⟨j 0, j 1, eq_ix2 j⟩
  refine (PayAt.k0_pay1_at (qkvBlk U c 0 t) (qkvBlk U c 1 t) p q).trans ?_
  let x2 : S16384x1024.Idx → EReal := U c main_v4
  let w3 : S1024x3072.Idx → EReal := U c main_v3
  show (∑ k : Fin 1024, x2 (((cfg0.win 0).blk t).view.emb (ix2 p k)) * w3 (((cfg0.win 1).blk t).view.emb (ix2 k q)))
    = ∑ k : Fin 1024, x2 (ix2 ((((cfg0.win 2).blk t).view.emb (ix2 p q)) 0) k) * w3 (ix2 k ((((cfg0.win 2).blk t).view.emb (ix2 p q)) 1))
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 512 + 1 * p.val = win0_2.index t (0 : Fin 2) * 512 + 1 * p.val; omega
    | ⟨1, _⟩ => show win0_0.index t (1 : Fin 2) * 1024 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 1024 + 1 * k.val = k.val; omega
    | ⟨1, _⟩ => show win0_1.index t (1 : Fin 2) * 3072 + 1 * q.val = win0_2.index t (1 : Fin 2) * 3072 + 1 * q.val; omega
  exact congrArg₂ (· * ·) (congrArg x2 h0) (congrArg w3 h1)

/-- An index of the result is in point t's block iff each coordinate is in the block's range. -/
theorem qkv_mem_blk (t : Fin cfg0.N) (i : S16384x3072.Idx) :
    i ∈ ((cfg0.win 2).blk t).view.set ↔ ∀ a : Fin 2, win0_2.index t a * S512x3072.size a ≤ (i a).val ∧ (i a).val < win0_2.index t a * S512x3072.size a + S512x3072.size a := by
  show i ∈ ((View.whole main_v5).slice (win0_2.rect t)).set ↔ _
  rw [View.set_slice_whole, Rect.mem_set_unit]
  exact Iff.rfl

/-- Every index of the result is in the block of the point its row falls in. -/
theorem qkv_covered (i : S16384x3072.Idx) : ∃ t : Fin cfg0.N, (cfg0.win 2).flush t = true ∧ i ∈ ((cfg0.win 2).blk t).view.set := by
  have hi0 : (i 0).val < 16384 := (i 0).isLt
  have hi1 : (i 1).val < 3072 := (i 1).isLt
  refine ⟨⟨(i 0).val / 512, lt_of_lt_of_eq (by omega : (i 0).val / 512 < 32) N_0.symm⟩, flush0_2 _, ?_⟩
  rw [qkv_mem_blk]
  obtain ⟨e0, e1, e2, e3, e4, e5⟩ := qkv_idx ⟨(i 0).val / 512, lt_of_lt_of_eq (by omega : (i 0).val / 512 < 32) N_0.symm⟩
  intro a
  match a with
  | ⟨0, _⟩ =>
    show win0_2.index _ (0 : Fin 2) * 512 ≤ (i 0).val ∧ (i 0).val < win0_2.index _ (0 : Fin 2) * 512 + 512
    rw [e4]; show (i 0).val / 512 * 512 ≤ (i 0).val ∧ (i 0).val < (i 0).val / 512 * 512 + 512; omega
  | ⟨1, _⟩ =>
    show win0_2.index _ (1 : Fin 2) * 3072 ≤ (i 1).val ∧ (i 1).val < win0_2.index _ (1 : Fin 2) * 3072 + 3072
    rw [e5]; omega

/-- The result array after the kernel: rows times weights. -/
theorem qkv_final_value (c : Dev nD) :
    (qkvDat (F := Ideal) U c).arrAt 2 cfg0.N = rowsTimes (U c main_v4) (U c main_v3) :=
  (qkvDat (F := Ideal) U c).arrAt_eq_of_cover 2 (rowsTimes (U c main_v4) (U c main_v3)) (fun t _ => qkv_flushed U c t) (qkv_covered)

end QkvValue

end Cert.KernelIdeal.Hand

end
-- ==== Proof.LibConcat3.lean ====
/-
  Three arrays of one shape [R, n] laid side by side along the lanes, read at an index.

  The concatenation of three [R, n] arrays along axis 1 is an [R, w] array with w = n + n + n. Its entry in row r
  and lane l comes from the piece whose span of lanes holds l: the first at lane l when l < n, the second at lane
  l - n when n ≤ l < n + n, the third at lane l - (n + n) otherwise; the row is the same in every case.
-/
import Idealize.ShloMosaic.Lib.Pipeline.Value
import Idealize.ShloMosaic.Lib.ValueIdx

namespace Cert.LibConcat3

open Idealize.ShloMosaic Idealize.ShloMosaic.ValueIdx

/-- Row `r`, lane `l` of three [R, n] arrays laid side by side: the piece whose lanes hold `l`, at `l` less the
    lanes of the pieces before it. -/
def side3 {α : Type} {R n w : Nat} (hw : w = n + n + n) (a b c : (⟨2, ![R, n]⟩ : Shape).Idx → α)
    (r : Fin R) (l : Fin w) : α :=
  if h0 : l.val < n then a (ix2 r ⟨l.val, h0⟩)
  else if h1 : l.val < n + n then b (ix2 r ⟨l.val - n, by omega⟩)
  else c (ix2 r ⟨l.val - (n + n), by have := l.isLt; omega⟩)

/-- `side3` reads one row of each piece: pieces that agree on the rows read give the same row of 3 n lanes. -/
theorem side3_congr {α : Type} {R R' n w : Nat} (hw : w = n + n + n)
    {a b c : (⟨2, ![R, n]⟩ : Shape).Idx → α} {a' b' c' : (⟨2, ![R', n]⟩ : Shape).Idx → α} {r : Fin R} {r' : Fin R'}
    (ha : ∀ q : Fin n, a (ix2 r q) = a' (ix2 r' q)) (hb : ∀ q : Fin n, b (ix2 r q) = b' (ix2 r' q))
    (hc : ∀ q : Fin n, c (ix2 r q) = c' (ix2 r' q)) :
    side3 hw a b c r = side3 hw a' b' c' r' := by
  funext l
  unfold side3
  by_cases h0 : l.val < n
  · rw [dif_pos h0, dif_pos h0]; exact ha _
  · rw [dif_neg h0, dif_neg h0]
    by_cases h1 : l.val < n + n
    · rw [dif_pos h1, dif_pos h1]; exact hb _
    · rw [dif_neg h1, dif_neg h1]; exact hc _

/-- **The concatenation of three [R, n] arrays along the lanes, read at row `r` and lane `l`**, is `side3`. -/
theorem concatenate3_lanes_apply {α : Type} {R n w : Nat} (hw : w = n + n + n)
    (a b c : (⟨2, ![R, n]⟩ : Shape).Idx → α)
    (h : Shape.Concatenates ([(⟨⟨2, ![R, n]⟩, a⟩ : (s : Shape) × (s.Idx → α)), ⟨⟨2, ![R, n]⟩, b⟩, ⟨⟨2, ![R, n]⟩, c⟩].map (·.1))
      ⟨2, ![R, w]⟩ (1 : Fin 2))
    (r : Fin R) (l : Fin w) :
    concatenate ⟨2, ![R, w]⟩ (1 : Fin 2) [⟨⟨2, ![R, n]⟩, a⟩, ⟨⟨2, ![R, n]⟩, b⟩, ⟨⟨2, ![R, n]⟩, c⟩] h (ix2 r l)
      = side3 hw a b c r l := by
  unfold side3
  have hoff : ∀ (i : (⟨2, ![R, n]⟩ : Shape).Idx), (i 0).val = r.val →
      ∀ bb : Fin (⟨2, ![R, n]⟩ : Shape).rank, bb.cast (rfl : (⟨2, ![R, n]⟩ : Shape).rank = (⟨2, ![R, w]⟩ : Shape).rank) ≠ (1 : Fin 2) →
        (i bb).val = ((ix2 r l : (⟨2, ![R, w]⟩ : Shape).Idx) (bb.cast rfl)).val := by
    intro i hi bb hbb
    match bb with
    | ⟨0, _⟩ => exact hi
    | ⟨1, _⟩ => exact absurd rfl hbb
  by_cases h0 : l.val < n
  · rw [dif_pos h0]
    exact concatenate_apply_piece (1 : Fin 2) _ h (ix2 r l) 0 (by simp) ⟨2, ![R, n]⟩ a rfl rfl 0 rfl
      (ix2 r ⟨l.val, h0⟩) (hoff _ rfl) (by show 0 + l.val = l.val; omega)
  · rw [dif_neg h0]
    by_cases h1 : l.val < n + n
    · rw [dif_pos h1]
      exact concatenate_apply_piece (1 : Fin 2) _ h (ix2 r l) 1 (by simp) ⟨2, ![R, n]⟩ b rfl rfl n (by simp)
        (ix2 r ⟨l.val - n, by omega⟩) (hoff _ rfl) (by show n + (l.val - n) = l.val; omega)
    · rw [dif_neg h1]
      exact concatenate_apply_piece (1 : Fin 2) _ h (ix2 r l) 2 (by simp) ⟨2, ![R, n]⟩ c rfl rfl (n + n) (by simp)
        (ix2 r ⟨l.val - (n + n), by have := l.isLt; omega⟩) (hoff _ rfl)
        (by show n + n + (l.val - (n + n)) = l.val; omega)

end Cert.LibConcat3
-- ==== Proof.LibRealSum.lean ====
/-
  Sums of real numbers inside the extended reals.

  The coercion of a finite sum of reals is the sum of the coercions. Consequently, when every factor is a real
  number, a weighted double sum may be taken in either order:
      Σ_e (Σ_k x e k · W k) · r e  =  Σ_k (Σ_e x e k · r e) · W k .
  (Over the extended reals in general this fails: multiplication does not distribute over a sum that mixes +∞ and −∞.)
-/
import Mathlib

noncomputable section

open scoped BigOperators

namespace Cert.LibRealSum

/-- An extended real that is (the coercion of) a real number. -/
def IsReal (x : EReal) : Prop := ∃ a : ℝ, x = (a : EReal)

theorem isReal_coe (a : ℝ) : IsReal (a : EReal) := ⟨a, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert j s hj ih => rw [Finset.sum_insert hj, Finset.sum_insert hj, EReal.coe_add, ih]

theorem isReal_sum {ι : Type*} (s : Finset ι) (f : ι → EReal) (h : ∀ i ∈ s, IsReal (f i)) : IsReal (∑ i ∈ s, f i) := by
  classical
  induction s using Finset.induction_on with
  | empty => simpa using isReal_zero
  | insert j s hj ih =>
    rw [Finset.sum_insert hj]
    exact (h j (Finset.mem_insert_self j s)).add (ih fun i hi => h i (Finset.mem_insert_of_mem hi))

/-- THE LAW: with real factors, the weighted double sum in either order. -/
theorem sum_mul_sum_swap {ι κ : Type*} [Fintype κ] (s : Finset ι) (x : ι → κ → EReal) (r : ι → EReal) (W : κ → EReal)
    (hx : ∀ e k, IsReal (x e k)) (hr : ∀ e, IsReal (r e)) (hW : ∀ k, IsReal (W k)) :
    ∑ e ∈ s, (∑ k, x e k * W k) * r e = ∑ k, (∑ e ∈ s, x e k * r e) * W k := by
  classical
  choose x' hx' using hx
  choose r' hr' using hr
  choose W' hW' using hW
  simp only [hx', hr', hW', ← EReal.coe_mul, ← coe_finset_sum]
  refine congrArg _ ?_
  simp only [Finset.sum_mul]
  rw [Finset.sum_comm]
  exact Finset.sum_congr rfl fun k _ => Finset.sum_congr rfl fun e _ => by ring

end Cert.LibRealSum

end
-- ==== Proof.AttnSpec.lean ====
/-
  Self-attention over the extended reals, index by index.

  For x : [8, 2048, 1024] and three weight matrices wq, wk, wv : [1024, 1024]:
    proj x w b s e   = Σ_j x[b,s,j] · w[j,e]                      (a row of x through a weight matrix)
    score b s t      = (Σ_d proj x wq b s d · proj x wk b t d) / 32   (32 = sqrt 1024)
    rowMax b s       = the largest score of query row (b, s) over all 2048 keys
    attnOut b s e    = Σ_t (exp (score b s t − rowMax b s) / Σ_u exp (score b s u − rowMax b s)) · proj x wv b t e
  `attention` is that value as a whole array [8, 2048, 1024].
-/
import Mathlib
import Idealize.ShloMosaic.PureOps.Ideal
import Idealize.ShloMosaic.Lib.ValueIdx

noncomputable section

namespace Cert.Attn

open Idealize.ShloMosaic Idealize.ShloMosaic.ValueIdx

abbrev SX : Shape := ⟨3, ![8, 2048, 1024]⟩
abbrev SW : Shape := ⟨2, ![1024, 1024]⟩

variable (x : SX.Idx → EReal) (wq wk wv : SW.Idx → EReal)

/-- Row (b, s) of x through the weight matrix w, at output column e. -/
def proj (w : SW.Idx → EReal) (b : Fin 8) (s : Fin 2048) (e : Fin 1024) : EReal :=
  ∑ j : Fin 1024, x (ix3 b s j) * w (ix2 j e)

/-- The scaled score of query row s against key row t in batch b. -/
def score (b : Fin 8) (s t : Fin 2048) : EReal :=
  Ideal.div (∑ d : Fin 1024, proj x wq b s d * proj x wk b t d) ((32 : ℝ) : EReal)

/-- The largest score of query row (b, s). -/
def rowMax (b : Fin 8) (s : Fin 2048) : EReal :=
  Finset.univ.fold max ⊥ fun t : Fin 2048 => score x wq wk b s t

/-- The softmax-weighted average of the value rows, at output column e. -/
def attnOut (b : Fin 8) (s : Fin 2048) (e : Fin 1024) : EReal :=
  ∑ t : Fin 2048,
    Ideal.div (Ideal.exp (score x wq wk b s t - rowMax x wq wk b s))
        (∑ u : Fin 2048, Ideal.exp (score x wq wk b s u - rowMax x wq wk b s))
      * proj x wv b t e

/-- Self-attention as one function of the four argument arrays. -/
def attention : SX.Idx → EReal := fun i => attnOut x wq wk wv (i 0) (i 1) (i 2)

theorem attention_apply (b : Fin 8) (s : Fin 2048) (e : Fin 1024) :
    attention x wq wk wv (ix3 b s e) = attnOut x wq wk wv b s e := rfl

end Cert.Attn

end
-- ==== Proof.LibFiniteAll.lean ====
/-
  An array every entry of which passes the test |x| < +∞ consists of real numbers.

  On the extended reals the absolute value is max x (−x), the pattern 0x7F800000 of the 32-bit format denotes
  +∞, and the comparison "less than" is the order's. An extended real x with max x (−x) < +∞ is neither +∞ nor
  −∞ (at either infinity the maximum is +∞), so it is a real number. A conjunction over a whole array of such
  tests, computed as a reduction by "and" from the constant 1 down to a single word, equals 1 only if every
  test does; hence every entry of the array is a real number.
-/
import Mathlib
import Idealize.ShloMosaic.PureOps.Ideal
import Idealize.ShloMosaic.PureOps.Ideal.Laws
import Idealize.ShloMosaic.Lib.ReduceAll
import Idealize.ShloMosaic.Lib.ValueIdx
import proofs.«178871_j489626272173_2_alg».proof.Proof.LibRealSum

noncomputable section

open Idealize.ShloMosaic
open Cert.LibRealSum

namespace Cert.Lib.FiniteAll

/-- The pattern of the positive infinity denotes +∞. -/
theorem ofBits_inf_f32 : Ideal.ofBits .f32 0x7F800000#32 = ⊤ := by simp [Ideal.ofBits, Ideal.ieee]

/-- An extended real whose absolute value is below +∞ is a real number. -/
theorem isReal_of_abs_lt_top (x : EReal) (h : max x (-x) < ⊤) : IsReal x := by
  induction x using EReal.rec with
  | bot => simp at h
  | coe a => exact ⟨a, rfl⟩
  | top => simp at h

/-- The same, with the test as the comparison word it is computed as. -/
theorem isReal_of_cmp (x : EReal)
    (h : Ideal.cmp .olt (max x (-x)) (Ideal.ofBits .f32 0x7F800000#32) = 1#1) : IsReal x := by
  rw [ofBits_inf_f32] at h
  refine isReal_of_abs_lt_top x ?_
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests |x i| < +∞ is 1, every entry is a real number. -/
theorem all_real {s : Shape} {axes : List (Fin s.rank)} (x : FVec Ideal s .f32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .olt (Host.absf x) (broadcastInDim s ![] hb (constant (F := Ideal) ⟨0, ![]⟩ .f32 0x7F800000#32)))
          init hr hu ValueIdx.ix0 = 1#1)
    (i : s.Idx) : IsReal (x i) := by
  have h := Host.reduce_andi_all _ init hr hu ValueIdx.ix0 e i
  exact isReal_of_cmp (x i) h

end Cert.Lib.FiniteAll

end
-- ==== Proof.FiniteReal.lean ====
/-
  Finite inputs are arrays of real numbers, and so are the projections and the scores.

  The precondition is the conjunction, over the four argument arrays, of "every entry has absolute value below +∞",
  each computed as a reduction by "and" down to one word. When the conjunction is 1 each of the four is, so every entry
  of every argument is a real number. A projection entry is a finite sum of products of such entries, and a score is a
  finite sum of products of projection entries divided by 32; both are therefore real numbers.
-/
import proofs.«178871_j489626272173_2_alg».proof.Pre_finite_inputs
import proofs.«178871_j489626272173_2_alg».proof.Proof.LibFiniteAll
import proofs.«178871_j489626272173_2_alg».proof.Proof.AttnSpec

noncomputable section

namespace Cert.Attn.Finite

open Idealize.ShloMosaic Idealize.ShloMosaic.ValueIdx Cert.LibRealSum

section Inputs

variable [Cert.Pre_finite_inputs.Facts]

/-- Under the precondition every entry of each of the four arguments is a real number. -/
theorem inputs_real (x : FVec Ideal Cert.Pre_finite_inputs.S8x2048x1024 .f32)
    (wq wk wv : FVec Ideal Cert.Pre_finite_inputs.S1024x1024 .f32)
    (h : Cert.Pre_finite_inputs.fn (F := Ideal) x wq wk wv = fun _ => 1#1) :
    (∀ i, IsReal (x i)) ∧ (∀ i, IsReal (wq i)) ∧ (∀ i, IsReal (wk i)) ∧ (∀ i, IsReal (wv i)) := by
  have h0 := congrFun h ValueIdx.ix0
  dsimp only [Cert.Pre_finite_inputs.fn, Cert.Pre_finite_inputs.fn_part1, Idealize.ShloMosaic.andi] at h0
  obtain ⟨h123, h4⟩ := IntOp.andi_eq_one.1 h0
  obtain ⟨h12, h3⟩ := IntOp.andi_eq_one.1 h123
  obtain ⟨h1, h2⟩ := IntOp.andi_eq_one.1 h12
  exact ⟨Cert.Lib.FiniteAll.all_real x _ _ _ _ h1, Cert.Lib.FiniteAll.all_real wq _ _ _ _ h2,
    Cert.Lib.FiniteAll.all_real wk _ _ _ _ h3, Cert.Lib.FiniteAll.all_real wv _ _ _ _ h4⟩

end Inputs

/-! ## Projections and scores of real arrays -/

variable (x : Cert.Attn.SX.Idx → EReal) (wq wk w : Cert.Attn.SW.Idx → EReal)

/-- A projection entry of real arrays is a real number. -/
theorem isReal_proj (hx : ∀ i, IsReal (x i)) (hw : ∀ i, IsReal (w i)) (b : Fin 8) (s : Fin 2048) (e : Fin 1024) :
    IsReal (Cert.Attn.proj x w b s e) := by
  unfold Cert.Attn.proj
  exact isReal_sum _ _ fun j _ => (hx _).mul (hw _)

/-- A score of real arrays is a real number. -/
theorem isReal_score (hx : ∀ i, IsReal (x i)) (hq : ∀ i, IsReal (wq i)) (hk : ∀ i, IsReal (wk i))
    (b : Fin 8) (s t : Fin 2048) : IsReal (Cert.Attn.score x wq wk b s t) := by
  unfold Cert.Attn.score
  rw [Ideal.div_coe (by norm_num : (32 : ℝ) ≠ 0)]
  exact (isReal_sum _ _ fun d _ => (isReal_proj x wq hx hq b s d).mul (isReal_proj x wk hx hk b t d)).mul (isReal_coe _)

end Cert.Attn.Finite

end
-- ==== Proof.AttnScale.lean ====
/-
  Scaling the query weights by 1/32 is dividing the scores by 32.

  The f32 word `0x3D000000` denotes 1/32. For real numbers,
      Σ_d (Σ_j x_j · (W[j, d] · (1/32))) · K_d  =  (Σ_d (Σ_j x_j · W[j, d]) · K_d) / 32 ,
  because the factor 1/32 comes out of both finite sums; and over the extended reals the quotient by the real 32 is the
  product with the real 1/32. So a score computed from queries projected through the scaled weight matrix is the
  specification's score, the product of the unscaled projections divided by 32.
-/
import Mathlib
import Idealize.ShloMosaic.PureOps.Ideal
import Idealize.ShloMosaic.Lib.ValueIdx
import proofs.«178871_j489626272173_2_alg».proof.Proof.LibRealSum
import proofs.«178871_j489626272173_2_alg».proof.Proof.AttnSpec
import proofs.«178871_j489626272173_2_alg».proof.Proof.FiniteReal

noncomputable section

open scoped BigOperators

namespace Cert.Attn.Scale

open Idealize.ShloMosaic Idealize.ShloMosaic.ValueIdx Cert.LibRealSum

/-- The f32 word `0x3D000000` denotes 1/32. -/
theorem ofBits_inv32 : Ideal.ofBits .f32 0x3D000000#32 = ((1 / 32 : ℝ) : EReal) := by
  simp [Ideal.ofBits, Ideal.ieee, -EReal.coe_mul]; norm_num

/-- **The scale law.** With real entries, projecting through the weights scaled by 1/32 and then pairing with K is
    pairing the unscaled projection with K and dividing by 32. -/
theorem scale_law (xr : Fin 1024 → EReal) (wq : Cert.Attn.SW.Idx → EReal) (K : Fin 1024 → EReal)
    (hx : ∀ j, IsReal (xr j)) (hw : ∀ i, IsReal (wq i)) (hK : ∀ d, IsReal (K d)) :
    ∑ d : Fin 1024, (∑ j : Fin 1024, xr j * (wq (ix2 j d) * Ideal.ofBits .f32 0x3D000000#32)) * K d
      = Ideal.div (∑ d : Fin 1024, (∑ j : Fin 1024, xr j * wq (ix2 j d)) * K d) ((32 : ℝ) : EReal) := by
  choose a ha using hx
  choose w' hw' using hw
  choose k hk using hK
  rw [ofBits_inv32, Ideal.div_coe (by norm_num : (32 : ℝ) ≠ 0)]
  simp only [ha, hw', hk, ← EReal.coe_mul, ← coe_finset_sum]
  refine congrArg _ ?_
  simp only [Finset.sum_mul]
  exact Finset.sum_congr rfl fun d _ => Finset.sum_congr rfl fun j _ => by ring

/-- The same for the specification's projections and score: the score of query row (b, s) against key row (b, t)
    computed from the scaled query weights is `Cert.Attn.score`. -/
theorem scaled_score (x : Cert.Attn.SX.Idx → EReal) (wq wk : Cert.Attn.SW.Idx → EReal)
    (hx : ∀ i, IsReal (x i)) (hq : ∀ i, IsReal (wq i)) (hk : ∀ i, IsReal (wk i)) (b : Fin 8) (s t : Fin 2048) :
    ∑ d : Fin 1024, (∑ j : Fin 1024, x (ix3 b s j) * (wq (ix2 j d) * Ideal.ofBits .f32 0x3D000000#32))
        * Cert.Attn.proj x wk b t d
      = Cert.Attn.score x wq wk b s t :=
  scale_law (fun j => x (ix3 b s j)) wq (fun d => Cert.Attn.proj x wk b t d) (fun j => hx _) hq
    (fun d => Cert.Attn.Finite.isReal_proj x wk hx hk b t d)

end Cert.Attn.Scale

end
-- ==== Proof.HostValues.lean ====
/-
  What the host operations leave in the buffers the two kernels read.

  Before the projection kernel the host scales the query weights by the constant 1/32 (the f32 word `0x3D000000`), lays
  the scaled query weights, the key weights and the value weights side by side into one [1024, 3072] matrix (narrowed to
  bf16, which changes nothing over the extended reals), and recasts x : [8, 2048, 1024] as [16384, 1024]: row
  b·2048 + s of the recast array is row (b, s) of x. Between the two kernels the host recasts the projection kernel's
  result [16384, 3072] as [8, 2048, 3072] in the same way.
-/
import proofs.«178871_j489626272173_2_alg».proof.Proof.Gen.KernelIdeal.Launch
import Idealize.ShloMosaic.Lib.StableHlo.Run
import Idealize.ShloMosaic.Lib.ValueIdx
import Idealize.ShloMosaic.Lib.Pipeline.Value
import Idealize.ShloMosaic.Lib.ValueLayout
import proofs.«178871_j489626272173_2_alg».proof.Proof.LibConcat3
import proofs.«178871_j489626272173_2_alg».proof.Proof.AttnScale

noncomputable section

namespace Cert.KernelIdeal.HostValues

open Idealize.ShloMosaic Idealize.ShloMosaic.TcCoe Idealize.ShloMosaic.ValueIdx Idealize.SL.Sem Idealize.ShloMosaic.StableHlo
  Cert.KernelIdeal Cert.KernelIdeal.Gen Cert.LibConcat3

/-! ## Three arrays side by side, read in each of the three spans -/

section Side3

variable {α : Type} {R n w : Nat} (hw : w = n + n + n) (a b c : (⟨2, ![R, n]⟩ : Shape).Idx → α) (r : Fin R) (d : Fin n)

theorem side3_first (hl : d.val < w) : side3 hw a b c r ⟨d.val, hl⟩ = a (ix2 r d) := by
  unfold side3
  rw [dif_pos (show (⟨d.val, hl⟩ : Fin w).val < n from d.isLt)]

theorem side3_second (hl : n + d.val < w) : side3 hw a b c r ⟨n + d.val, hl⟩ = b (ix2 r d) := by
  unfold side3
  have h0 : ¬ (⟨n + d.val, hl⟩ : Fin w).val < n := by show ¬ n + d.val < n; omega
  have h1 : (⟨n + d.val, hl⟩ : Fin w).val < n + n := by show n + d.val < n + n; have := d.isLt; omega
  rw [dif_neg h0, dif_pos h1]
  exact congrArg (fun q => b (ix2 r q)) (Fin.ext (by show n + d.val - n = d.val; omega))

theorem side3_third (hl : n + n + d.val < w) : side3 hw a b c r ⟨n + n + d.val, hl⟩ = c (ix2 r d) := by
  unfold side3
  have h0 : ¬ (⟨n + n + d.val, hl⟩ : Fin w).val < n := by show ¬ n + n + d.val < n; omega
  have h1 : ¬ (⟨n + n + d.val, hl⟩ : Fin w).val < n + n := by show ¬ n + n + d.val < n + n; omega
  rw [dif_neg h0, dif_neg h1]
  exact congrArg (fun q => c (ix2 r q)) (Fin.ext (by show n + n + d.val - (n + n) = d.val; omega))

end Side3

variable (m : (ℓ : Loc nD τ sig) → Buf (Elt Ideal) ℓ) (c : Dev nD)

/-! ## x recast as [16384, 1024] -/

/-- The recast x as one term of the launch contents. -/
theorem v4_term :
    (StableHlo.after hostOps0 (fun b => m (c, b)) (Proc.devRef .tc main_v4) : S16384x1024.Idx → EReal)
      = shapeCast S16384x1024 (m (c, Proc.devRef .tc main_arg0) : S8x2048x1024.Idx → EReal)
          shapeCasts_S8x2048x1024_S16384x1024 := by
  dsimp only [hostOps0]
  after_results
  rfl

/-- Row b·2048 + s of the recast array is row (b, s) of x. -/
theorem v4_apply (b : Fin 8) (s : Fin 2048) (k : Fin 1024) (hrow : b.val * 2048 + s.val < 16384) :
    (StableHlo.after hostOps0 (fun b => m (c, b)) (Proc.devRef .tc main_v4) : S16384x1024.Idx → EReal)
        (ix2 ⟨b.val * 2048 + s.val, hrow⟩ k)
      = (m (c, Proc.devRef .tc main_arg0) : S8x2048x1024.Idx → EReal) (ix3 b s k) := by
  rw [v4_term]
  refine shapeCast_apply _ _ _ (ix3 b s k) ?_
  rw [Shape.rowMajor_val_three, Shape.rowMajor_val_two]
  rfl

/-! ## The fused weight matrix -/

/-- The fused weights as one term of the launch contents. -/
theorem v3_term :
    (StableHlo.after hostOps0 (fun b => m (c, b)) (Proc.devRef .tc main_v3) : S1024x3072.Idx → EReal)
      = truncf .bf16
          (concatenate S1024x3072 1
            [⟨S1024x1024, mulf (m (c, Proc.devRef .tc main_arg1) : S1024x1024.Idx → EReal)
                (broadcastInDim S1024x1024 ![] bcast_S_S1024x1024 (constant (F := Ideal) S_ .f32 0x3D000000#32))⟩,
              ⟨S1024x1024, (m (c, Proc.devRef .tc main_arg2) : S1024x1024.Idx → EReal)⟩,
              ⟨S1024x1024, (m (c, Proc.devRef .tc main_arg3) : S1024x1024.Idx → EReal)⟩]
            concatenates_S1024x1024_S1024x1024_S1024x1024_S1024x3072_d1)
          bitsLt_bf16_f32 := by
  dsimp only [hostOps0]
  after_results
  rfl

/-- The scaling matrix: every entry is the constant. -/
theorem scale_apply (i : S1024x1024.Idx) :
    broadcastInDim S1024x1024 ![] bcast_S_S1024x1024 (constant (F := Ideal) S_ .f32 0x3D000000#32) i
      = Ideal.ofBits .f32 0x3D000000#32 :=
  (broadcastInDim_apply _ bcast_S_S1024x1024 _ i ix0 (fun a => a.elim0)).trans (constant_apply _ _)

/-- Row k of the fused weights at any lane: the piece whose span holds the lane. -/
theorem v3_apply (k : Fin 1024) (col : Fin 3072) :
    (StableHlo.after hostOps0 (fun b => m (c, b)) (Proc.devRef .tc main_v3) : S1024x3072.Idx → EReal) (ix2 k col)
      = side3 (show 3072 = 1024 + 1024 + 1024 from rfl)
          (mulf (m (c, Proc.devRef .tc main_arg1) : S1024x1024.Idx → EReal)
            (broadcastInDim S1024x1024 ![] bcast_S_S1024x1024 (constant (F := Ideal) S_ .f32 0x3D000000#32)))
          (m (c, Proc.devRef .tc main_arg2) : S1024x1024.Idx → EReal)
          (m (c, Proc.devRef .tc main_arg3) : S1024x1024.Idx → EReal) k col := by
  rw [v3_term]
  exact concatenate3_lanes_apply (show 3072 = 1024 + 1024 + 1024 from rfl) _ _ _
    concatenates_S1024x1024_S1024x1024_S1024x1024_S1024x3072_d1 k col

/-- Lanes 0 … 1023 of the fused weights: the query weights times 1/32. -/
theorem v3_q (k d : Fin 1024) (hcol : d.val < 3072) :
    (StableHlo.after hostOps0 (fun b => m (c, b)) (Proc.devRef .tc main_v3) : S1024x3072.Idx → EReal) (ix2 k ⟨d.val, hcol⟩)
      = @HMul.hMul EReal EReal EReal _ ((m (c, Proc.devRef .tc main_arg1) : S1024x1024.Idx → EReal) (ix2 k d))
          (Ideal.ofBits .f32 0x3D000000#32) := by
  rw [v3_apply, side3_first, mulf_apply, scale_apply]

/-- Lanes 1024 … 2047 of the fused weights: the key weights. -/
theorem v3_k (k d : Fin 1024) (hcol : 1024 + d.val < 3072) :
    (StableHlo.after hostOps0 (fun b => m (c, b)) (Proc.devRef .tc main_v3) : S1024x3072.Idx → EReal)
        (ix2 k ⟨1024 + d.val, hcol⟩)
      = (m (c, Proc.devRef .tc main_arg2) : S1024x1024.Idx → EReal) (ix2 k d) := by
  rw [v3_apply, side3_second]

/-- Lanes 2048 … 3071 of the fused weights: the value weights. -/
theorem v3_v (k d : Fin 1024) (hcol : 2048 + d.val < 3072) :
    (StableHlo.after hostOps0 (fun b => m (c, b)) (Proc.devRef .tc main_v3) : S1024x3072.Idx → EReal)
        (ix2 k ⟨2048 + d.val, hcol⟩)
      = (m (c, Proc.devRef .tc main_arg3) : S1024x1024.Idx → EReal) (ix2 k d) := by
  rw [v3_apply]
  exact side3_third (show 3072 = 1024 + 1024 + 1024 from rfl) _ _ _ k d hcol

/-! ## The projection kernel's result recast as [8, 2048, 3072] -/

variable (Wa : Valuation τ sig (Elt Ideal))

/-- The recast result as one term of what was there before. -/
theorem v6_term :
    (StableHlo.after hostOps1 Wa (Proc.devRef .tc main_v6) : S8x2048x3072.Idx → EReal)
      = shapeCast S8x2048x3072 (Wa (Proc.devRef .tc main_v5) : S16384x3072.Idx → EReal)
          shapeCasts_S16384x3072_S8x2048x3072 := by
  dsimp only [hostOps1]
  after_results
  rfl

/-- Entry (b, s, col) of the recast result is entry (b·2048 + s, col) of the projection kernel's result. -/
theorem v6_apply (b : Fin 8) (s : Fin 2048) (col : Fin 3072) (hrow : b.val * 2048 + s.val < 16384) :
    (StableHlo.after hostOps1 Wa (Proc.devRef .tc main_v6) : S8x2048x3072.Idx → EReal) (ix3 b s col)
      = (Wa (Proc.devRef .tc main_v5) : S16384x3072.Idx → EReal) (ix2 ⟨b.val * 2048 + s.val, hrow⟩ col) := by
  rw [v6_term]
  refine shapeCast_apply _ _ _ (ix2 ⟨b.val * 2048 + s.val, hrow⟩ col) ?_
  rw [Shape.rowMajor_val_three, Shape.rowMajor_val_two]
  rfl

end Cert.KernelIdeal.HostValues

end
-- ==== Proof.MainV6.lean ====
/-
  What the attention kernel reads: the three projections, side by side.

  The attention kernel's one input array [8, 2048, 3072] is the projection kernel's result recast, and the projection
  kernel's result is the recast input times the fused weights.  Reading the two recasts and the fused weights back to
  the argument arrays: at (b, s, d) it holds Σ_j x[b, s, j] · (wq[j, d] · 1/32), the scaled query projection; at
  (b, s, 1024 + d) it holds Σ_j x[b, s, j] · wk[j, d], the key projection; at (b, s, 2048 + d) it holds
  Σ_j x[b, s, j] · wv[j, d], the value projection.
-/
import proofs.«178871_j489626272173_2_alg».proof.Proof.KernelRun
import proofs.«178871_j489626272173_2_alg».proof.Proof.QkvValue
import proofs.«178871_j489626272173_2_alg».proof.Proof.HostValues
import proofs.«178871_j489626272173_2_alg».proof.Proof.AttnSpec
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

section MainV6

variable (m : (ℓ : Loc nD τ sig) → Buf (Elt Ideal) ℓ) (c : Dev nD)

/-- The argument arrays, the recast input, the fused weights and the attention kernel's input, as arrays of extended
    reals. -/
abbrev argX : S8x2048x1024.Idx → EReal := m (c, Proc.devRef .tc main_arg0)
abbrev argWq : S1024x1024.Idx → EReal := m (c, Proc.devRef .tc main_arg1)
abbrev argWk : S1024x1024.Idx → EReal := m (c, Proc.devRef .tc main_arg2)
abbrev argWv : S1024x1024.Idx → EReal := m (c, Proc.devRef .tc main_arg3)
abbrev rowsIn : S16384x1024.Idx → EReal := U1 m c main_v4
abbrev fusedW : S1024x3072.Idx → EReal := U1 m c main_v3
abbrev attnIn : S8x2048x3072.Idx → EReal := U3 m c main_v6

/-- Row b·2048 + s is a row of the recast arrays. -/
theorem row_lt (b : Fin 8) (s : Fin 2048) : b.val * 2048 + s.val < 16384 := by
  have := b.isLt; have := s.isLt; omega

/-- Entry (b, s, col) of the attention kernel's input: row b·2048 + s of the recast input times column col of the
    fused weights. -/
theorem mainV6_apply (b : Fin 8) (s : Fin 2048) (col : Fin 3072) :
    attnIn m c (ix3 b s col)
      = ∑ k : Fin 1024, rowsIn m c (ix2 ⟨b.val * 2048 + s.val, row_lt b s⟩ k) * fusedW m c (ix2 k col) := by
  refine (HostValues.v6_apply (W2 m c) b s col (row_lt b s)).trans ?_
  have e5 : (W2 m c (Proc.devRef .tc main_v5) : S16384x3072.Idx → EReal)
      = rowsTimes (U1 m c main_v4) (U1 m c main_v3) :=
    (W2_arr m c 2).trans (qkv_final_value (U1 m) c)
  exact congrFun e5 (ix2 ⟨b.val * 2048 + s.val, row_lt b s⟩ col)

/-- Columns 0 … 1023: the query projection with its weights scaled by 1/32. -/
theorem mainV6_q (b : Fin 8) (s : Fin 2048) (d : Fin 1024) :
    attnIn m c (ix3 b s (⟨d.val, by have := d.isLt; omega⟩ : Fin 3072))
      = ∑ j : Fin 1024, argX m c (ix3 b s j) * (argWq m c (ix2 j d) * Ideal.ofBits .f32 0x3D000000#32) := by
  refine (mainV6_apply m c b s _).trans ?_
  refine Finset.sum_congr rfl fun k _ => ?_
  exact congrArg₂ (fun p q : EReal => p * q) (HostValues.v4_apply m c b s k (row_lt b s)) (HostValues.v3_q m c k d _)

/-- Columns 1024 … 2047: the key projection. -/
theorem mainV6_k (b : Fin 8) (s : Fin 2048) (d : Fin 1024) :
    attnIn m c (ix3 b s (⟨1024 + d.val, by have := d.isLt; omega⟩ : Fin 3072))
      = Cert.Attn.proj (argX m c) (argWk m c) b s d := by
  refine (mainV6_apply m c b s _).trans ?_
  unfold Cert.Attn.proj
  refine Finset.sum_congr rfl fun k _ => ?_
  exact congrArg₂ (fun p q : EReal => p * q) (HostValues.v4_apply m c b s k (row_lt b s)) (HostValues.v3_k m c k d _)

/-- Columns 2048 … 3071: the value projection. -/
theorem mainV6_v (b : Fin 8) (s : Fin 2048) (d : Fin 1024) :
    attnIn m c (ix3 b s (⟨2048 + d.val, by have := d.isLt; omega⟩ : Fin 3072))
      = Cert.Attn.proj (argX m c) (argWv m c) b s d := by
  refine (mainV6_apply m c b s _).trans ?_
  unfold Cert.Attn.proj
  refine Finset.sum_congr rfl fun k _ => ?_
  exact congrArg₂ (fun p q : EReal => p * q) (HostValues.v4_apply m c b s k (row_lt b s)) (HostValues.v3_v m c k d _)

end MainV6

end Cert.KernelIdeal.Hand

end
-- ==== Proof.AttnBlocks.lean ====
/-
  The attention kernel's blocks at coordinates, and its result array from the blocks written back.

  The grid is 8 × 2 × 4 (batch b, query tile qi, key tile ki, the key tile moving fastest), so point
  t = (b·2 + qi)·4 + ki has b = t / 8, qi = t / 4 % 2, ki = t % 4.  The three inputs are windows of the one array of
  fused projections [8, 2048, 3072]: the query block is rows qi·1024 … qi·1024 + 1023 of columns 0 … 1023, the key
  tile rows ki·512 … ki·512 + 511 of columns 1024 … 2047, the value tile the same rows of columns 2048 … 3071.  The
  output block is rows qi·1024 … qi·1024 + 1023 of the result [8, 2048, 1024]; it is written back at the last key
  tile of each row of tiles, and those 16 blocks tile the result.
-/
import proofs.«178871_j489626272173_2_alg».proof.Proof.AttnState
import proofs.«178871_j489626272173_2_alg».proof.Proof.Gen.KernelIdeal.Launch
import proofs.«178871_j489626272173_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

section Blocks

variable (V : (c : Dev nD) → (b : Ref sig .tc) → Buf (Elt F) ((c : Thread nD τ).loc b))

/-- The attention kernel runs over 64 grid points. -/
theorem attn_t_lt (t : Fin cfg1.N) : t.val < 64 := lt_of_lt_of_eq t.isLt N_1

/-- The printed index maps over the grid. Point t = (b·2 + qi)·4 + ki takes the query block (b, qi) out of columns
    0 … 1023 of the fused projections, the key tile (b, ki) out of columns 1024 … 2047, the value tile (b, ki) out of
    columns 2048 … 3071, and the output block (b, qi). -/
theorem attn_idx : ∀ t : Fin cfg1.N,
    win1_0.index t (0 : Fin 3) = t.val / 8 ∧ win1_0.index t (1 : Fin 3) = t.val / 4 % 2 ∧ win1_0.index t (2 : Fin 3) = 0
    ∧ win1_1.index t (0 : Fin 3) = t.val / 8 ∧ win1_1.index t (1 : Fin 3) = t.val % 4 ∧ win1_1.index t (2 : Fin 3) = 1
    ∧ win1_2.index t (0 : Fin 3) = t.val / 8 ∧ win1_2.index t (1 : Fin 3) = t.val % 4 ∧ win1_2.index t (2 : Fin 3) = 2
    ∧ win1_3.index t (0 : Fin 3) = t.val / 8 ∧ win1_3.index t (1 : Fin 3) = t.val / 4 % 2 ∧ win1_3.index t (2 : Fin 3) = 0 :=
  (by decide +kernel : ∀ t : Fin grid1.N, _)

/-- The query block at point t: row r, column d of the block is row qi·1024 + r, column d of batch b. -/
theorem attnBlk_q_at (c : Dev nD) (t : Fin cfg1.N) (r d : Fin 1024) :
    (attnBlk V c 0 t : Vec F S1x1024x1024 .bf16) (ix3 (0 : Fin 1) r d)
      = V c main_v6 (ix3 (⟨t.val / 8, by have := attn_t_lt t; omega⟩ : Fin 8)
          (⟨t.val / 4 % 2 * 1024 + r.val, by have := r.isLt; omega⟩ : Fin 2048)
          (⟨d.val, by have := d.isLt; omega⟩ : Fin 3072)) := by
  show V c main_v6 (((cfg1.win 0).blk t).view.emb (ix3 (0 : Fin 1) r d)) = _
  refine congrArg (V c main_v6) ?_
  obtain ⟨e00, e01, e02, -⟩ := attn_idx t
  funext a; apply Fin.ext
  match a with
  | ⟨0, _⟩ => show win1_0.index t (0 : Fin 3) * 1 + 1 * (0 : Fin 1).val = t.val / 8; rw [e00]; simp
  | ⟨1, _⟩ => show win1_0.index t (1 : Fin 3) * 1024 + 1 * r.val = t.val / 4 % 2 * 1024 + r.val; omega
  | ⟨2, _⟩ => show win1_0.index t (2 : Fin 3) * 1024 + 1 * d.val = d.val; omega

/-- The key tile at point t: row j, column d of the tile is row ki·512 + j, column 1024 + d of batch b. -/
theorem attnBlk_k_at (c : Dev nD) (t : Fin cfg1.N) (j : Fin 512) (d : Fin 1024) :
    (attnBlk V c 1 t : Vec F S1x512x1024 .bf16) (ix3 (0 : Fin 1) j d)
      = V c main_v6 (ix3 (⟨t.val / 8, by have := attn_t_lt t; omega⟩ : Fin 8)
          (⟨t.val % 4 * 512 + j.val, by have := j.isLt; omega⟩ : Fin 2048)
          (⟨1024 + d.val, by have := d.isLt; omega⟩ : Fin 3072)) := by
  show V c main_v6 (((cfg1.win 1).blk t).view.emb (ix3 (0 : Fin 1) j d)) = _
  refine congrArg (V c main_v6) ?_
  obtain ⟨-, -, -, e10, e11, e12, -⟩ := attn_idx t
  funext a; apply Fin.ext
  match a with
  | ⟨0, _⟩ => show win1_1.index t (0 : Fin 3) * 1 + 1 * (0 : Fin 1).val = t.val / 8; rw [e10]; simp
  | ⟨1, _⟩ => show win1_1.index t (1 : Fin 3) * 512 + 1 * j.val = t.val % 4 * 512 + j.val; omega
  | ⟨2, _⟩ => show win1_1.index t (2 : Fin 3) * 1024 + 1 * d.val = 1024 + d.val; omega

/-- The value tile at point t: row j, column e of the tile is row ki·512 + j, column 2048 + e of batch b. -/
theorem attnBlk_v_at (c : Dev nD) (t : Fin cfg1.N) (j : Fin 512) (e : Fin 1024) :
    (attnBlk V c 2 t : Vec F S1x512x1024 .bf16) (ix3 (0 : Fin 1) j e)
      = V c main_v6 (ix3 (⟨t.val / 8, by have := attn_t_lt t; omega⟩ : Fin 8)
          (⟨t.val % 4 * 512 + j.val, by have := j.isLt; omega⟩ : Fin 2048)
          (⟨2048 + e.val, by have := e.isLt; omega⟩ : Fin 3072)) := by
  show V c main_v6 (((cfg1.win 2).blk t).view.emb (ix3 (0 : Fin 1) j e)) = _
  refine congrArg (V c main_v6) ?_
  obtain ⟨-, -, -, -, -, -, e20, e21, e22, -⟩ := attn_idx t
  funext a; apply Fin.ext
  match a with
  | ⟨0, _⟩ => show win1_2.index t (0 : Fin 3) * 1 + 1 * (0 : Fin 1).val = t.val / 8; rw [e20]; simp
  | ⟨1, _⟩ => show win1_2.index t (1 : Fin 3) * 512 + 1 * j.val = t.val % 4 * 512 + j.val; omega
  | ⟨2, _⟩ => show win1_2.index t (2 : Fin 3) * 1024 + 1 * e.val = 2048 + e.val; omega

/-- An index of the result is in point t's output block iff each coordinate is in the block's range. -/
theorem attn_mem_blk (t : Fin cfg1.N) (i : S8x2048x1024.Idx) :
    i ∈ ((cfg1.win 3).blk t).view.set ↔ ∀ a : Fin 3, win1_3.index t a * S1x1024x1024.size a ≤ (i a).val
      ∧ (i a).val < win1_3.index t a * S1x1024x1024.size a + S1x1024x1024.size a := by
  show i ∈ ((View.whole main_v7).slice (win1_3.rect t)).set ↔ _
  rw [View.set_slice_whole, Rect.mem_set_unit]
  exact Iff.rfl

/-- Every index (b, s, e) of the result is in the block written back at the last key tile of its row of tiles,
    the point (b·2 + s / 1024)·4 + 3. -/
theorem attn_covered (i : S8x2048x1024.Idx) :
    ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 1024 := (i 2).isLt
  have hlt : ((i 0).val * 2 + (i 1).val / 1024) * 4 + 3 < 64 := by omega
  refine ⟨⟨((i 0).val * 2 + (i 1).val / 1024) * 4 + 3, lt_of_lt_of_eq hlt N_1.symm⟩, (flush1_3 _).mpr ?_, ?_⟩
  · show (((i 0).val * 2 + (i 1).val / 1024) * 4 + 3) % 4 = 3
    omega
  rw [attn_mem_blk]
  obtain ⟨-, -, -, -, -, -, -, -, -, e30, e31, e32⟩ :=
    attn_idx ⟨((i 0).val * 2 + (i 1).val / 1024) * 4 + 3, lt_of_lt_of_eq hlt N_1.symm⟩
  intro a
  match a with
  | ⟨0, _⟩ =>
    show win1_3.index _ (0 : Fin 3) * 1 ≤ (i 0).val ∧ (i 0).val < win1_3.index _ (0 : Fin 3) * 1 + 1
    rw [e30]
    show (((i 0).val * 2 + (i 1).val / 1024) * 4 + 3) / 8 * 1 ≤ (i 0).val
      ∧ (i 0).val < (((i 0).val * 2 + (i 1).val / 1024) * 4 + 3) / 8 * 1 + 1
    omega
  | ⟨1, _⟩ =>
    show win1_3.index _ (1 : Fin 3) * 1024 ≤ (i 1).val ∧ (i 1).val < win1_3.index _ (1 : Fin 3) * 1024 + 1024
    rw [e31]
    show (((i 0).val * 2 + (i 1).val / 1024) * 4 + 3) / 4 % 2 * 1024 ≤ (i 1).val
      ∧ (i 1).val < (((i 0).val * 2 + (i 1).val / 1024) * 4 + 3) / 4 % 2 * 1024 + 1024
    omega
  | ⟨2, _⟩ =>
    show win1_3.index _ (2 : Fin 3) * 1024 ≤ (i 2).val ∧ (i 2).val < win1_3.index _ (2 : Fin 3) * 1024 + 1024
    rw [e32]
    omega

/-- Block t of an array G of the result's shape, entry by entry: row r, column e of the block is row qi·1024 + r,
    column e of batch b. -/
theorem attn_outBlk_at (G : S8x2048x1024.Idx → Elt F .f32) (t : Fin cfg1.N) (r e : Fin 1024) :
    (((cfg1.win 3).blk t).view.read (Elt F) G : Vec F S1x1024x1024 .f32) (ix3 (0 : Fin 1) r e)
      = G (ix3 (⟨t.val / 8, by have := attn_t_lt t; omega⟩ : Fin 8)
          (⟨t.val / 4 % 2 * 1024 + r.val, by have := r.isLt; omega⟩ : Fin 2048) e) := by
  show G (((cfg1.win 3).blk t).view.emb (ix3 (0 : Fin 1) r e)) = _
  refine congrArg G ?_
  obtain ⟨-, -, -, -, -, -, -, -, -, e30, e31, e32⟩ := attn_idx t
  funext a; apply Fin.ext
  match a with
  | ⟨0, _⟩ => show win1_3.index t (0 : Fin 3) * 1 + 1 * (0 : Fin 1).val = t.val / 8; rw [e30]; simp
  | ⟨1, _⟩ => show win1_3.index t (1 : Fin 3) * 1024 + 1 * r.val = t.val / 4 % 2 * 1024 + r.val; omega
  | ⟨2, _⟩ => show win1_3.index t (2 : Fin 3) * 1024 + 1 * e.val = e.val; omega

/-- The result array after the kernel. If the output's buffer after every last key tile is block t of one array G,
    the result array ends holding G: the blocks written back at the last key tiles tile it. Stated for any proof data
    of the attention kernel whose output buffer after point t is the recursion's value. -/
theorem attn_final_of (c : Dev nD) (dat : Dat τ (Elt F) Unit ℕ (UR sig nD τ) ℕ cfg1 c)
    (hafter : ∀ t, dat.after 3 t = attnOutAt V c t) (G : S8x2048x1024.Idx → Elt F .f32)
    (hG : ∀ t : Fin cfg1.N, t.val % 4 = 3 → attnOutAt V c t = ((cfg1.win 3).blk t).view.read (Elt F) G) :
    dat.arrAt 3 cfg1.N = G :=
  dat.arrAt_eq_of_cover 3 G (fun t hf => by
    show (cfg1.win 3).cut (grid1.coords t) (dat.after 3 t) = _
    rw [hafter]
    exact hG t ((flush1_3 t).mp hf)) attn_covered

end Blocks

end Cert.KernelIdeal.Hand

end
-- ==== Proof.AttnStep.lean ====
/-
  One key tile folded into the running maximum, denominator and numerator, as a pure function.

  From the query block q, the key tile k, the value tile v and the three running quantities (m, l, a) the body computes
    m' = max m (row maxima of q·kᵀ),   l' = exp (m − m') · l + row sums of exp (q·kᵀ − m'),
    a' = exp (m − m') · a + exp (q·kᵀ − m') · v;
  the first key tile of a row starts from (−∞, 0, 0); after the last one the output block is a' / l'.
-/
import proofs.«178871_j489626272173_2_alg».proof.Proof.Gen.KernelIdeal.Skeleton

noncomputable section

namespace Cert.KernelIdeal.Hand

open Idealize.ShloMosaic Cert.KernelIdeal Cert.KernelIdeal.Gen

variable {F : FTy → Type} [FloatOps F]

/-- Running maximum, running denominator, running numerator. -/
abbrev Scr3 (F : FTy → Type) [FloatOps F] : Type := Vec F S1x1024x1 .f32 × Vec F S1x1024x1 .f32 × Vec F S1x1024x1024 .f32

/-- The reset values: −∞, 0, 0. -/
def scrInit : Scr3 F := (k1_pay4, k1_pay5, k1_pay6)

/-- One key tile folded in. -/
def scrStep (q : Vec F S1x1024x1024 .bf16) (k v : Vec F S1x512x1024 .bf16) (p : Scr3 F) : Scr3 F :=
  (k1_pay2 (k1_pay8 q k p.1), k1_pay11 q k p.1 p.1 p.2.1, k1_pay1 (k1_pay10 q k p.1) (k1_pay12 q k p.1 p.1 p.2.2) v)

/-- The output block from the running quantities: numerator / denominator. -/
def scrOut (p : Scr3 F) : Vec F S1x1024x1024 .f32 := k1_pay3 p.2.2 p.2.1

end Cert.KernelIdeal.Hand

end
-- ==== Proof.AttnPieces.lean ====
/-
  What the attention kernel's body leaves behind, case by case, is one fold of the key tile.

  At a middle key tile each scratch buffer (running maximum, running denominator, running numerator) receives one
  store over its whole extent, whose value is computed from the query block, the key tile, the value tile and what
  the buffers held: the three components of one fold step.  At a last key tile the same three stores happen and then
  the numerator and the denominator are read back after their stores and their quotient is stored over the whole
  output block.  At a first key tile each scratch buffer is first reset (to −∞, 0, 0), the reset values are read back,
  and the fold step of those values is stored on top.  In every case a store over the whole buffer, coming last,
  decides the contents, and a read of the whole buffer after one such store returns what was stored.
-/
import proofs.«178871_j489626272173_2_alg».proof.Proof.AttnState
import proofs.«178871_j489626272173_2_alg».proof.Proof.AttnStep
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Pieces

variable (V : (c : Dev nD) → (b : Ref sig .tc) → Buf (Elt F) ((c : Thread nD τ).loc b))

theorem hz3 : (![0, 0, 0] : Fin 3 → Nat) = fun _ => 0 := funext fun a => by fin_cases a <;> rfl

/-- Reading a scratch buffer back from the contents that read as X gives X. -/
theorem read_scM (X : Vec F S1x1024x1 .f32) (h : scM.IsWhole) :
    View.read (Elt F) (View.whole cc1_scratch0) (h.unread X) = X := h.read_unread X
theorem read_scL (X : Vec F S1x1024x1 .f32) (h : scL.IsWhole) :
    View.read (Elt F) (View.whole cc1_scratch1) (h.unread X) = X := h.read_unread X
theorem read_scA (X : Vec F S1x1024x1024 .f32) (h : scA.IsWhole) :
    View.read (Elt F) (View.whole cc1_scratch2) (h.unread X) = X := h.read_unread X

/-! ## A middle key tile -/

theorem scrMid_m (c : Dev nD) (t : Fin cfg1.N) (h0 : ¬attnFirst (grid1.coords t)) (h1 : ¬attnLast (grid1.coords t)) (p : Scr F) :
    (scrMid V c t h0 h1 p).1 = k1_pay2 (k1_pay8 (attnBlk V c 0 t) (attnBlk V c 1 t) p.1) := by
  unfold scrMid
  dsimp only
  rw [View.read_writes_eq_canon _ _ _ (cover_mid_m V c t h0 h1 p)]
  unfold attnRunMid
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrMid_l (c : Dev nD) (t : Fin cfg1.N) (h0 : ¬attnFirst (grid1.coords t)) (h1 : ¬attnLast (grid1.coords t)) (p : Scr F) :
    (scrMid V c t h0 h1 p).2.1 = k1_pay11 (attnBlk V c 0 t) (attnBlk V c 1 t) p.1 p.1 p.2.1 := by
  unfold scrMid
  dsimp only
  rw [View.read_writes_eq_canon _ _ _ (cover_mid_l V c t h0 h1 p)]
  unfold attnRunMid
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrMid_a (c : Dev nD) (t : Fin cfg1.N) (h0 : ¬attnFirst (grid1.coords t)) (h1 : ¬attnLast (grid1.coords t)) (p : Scr F) :
    (scrMid V c t h0 h1 p).2.2
      = k1_pay1 (k1_pay10 (attnBlk V c 0 t) (attnBlk V c 1 t) p.1) (k1_pay12 (attnBlk V c 0 t) (attnBlk V c 1 t) p.1 p.1 p.2.2)
          (attnBlk V c 2 t) := by
  unfold scrMid
  dsimp only
  rw [View.read_writes_eq_canon _ _ _ (cover_mid_a V c t h0 h1 p)]
  unfold attnRunMid
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

/-- A middle key tile leaves the scratch buffers at one fold of the tile into what the point before left. -/
theorem scrMid_eq (c : Dev nD) (t : Fin cfg1.N) (h0 : ¬attnFirst (grid1.coords t)) (h1 : ¬attnLast (grid1.coords t)) (p : Scr F) :
    scrMid V c t h0 h1 p = scrStep (attnBlk V c 0 t) (attnBlk V c 1 t) (attnBlk V c 2 t) p :=
  Prod.ext (scrMid_m V c t h0 h1 p) (Prod.ext (scrMid_l V c t h0 h1 p) (scrMid_a V c t h0 h1 p))

/-! ## A last key tile -/

theorem scrLast_m (c : Dev nD) (t : Fin cfg1.N) (h0 : ¬attnFirst (grid1.coords t)) (h1 : attnLast (grid1.coords t)) (p : Scr F) :
    (scrLast V c t h0 h1 p).1 = k1_pay2 (k1_pay8 (attnBlk V c 0 t) (attnBlk V c 1 t) p.1) := by
  unfold scrLast
  dsimp only
  rw [View.read_writes_eq_canon _ _ _ (cover_last_m V c t h0 h1 p)]
  unfold attnRunLast
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrLast_l (c : Dev nD) (t : Fin cfg1.N) (h0 : ¬attnFirst (grid1.coords t)) (h1 : attnLast (grid1.coords t)) (p : Scr F) :
    (scrLast V c t h0 h1 p).2.1 = k1_pay11 (attnBlk V c 0 t) (attnBlk V c 1 t) p.1 p.1 p.2.1 := by
  unfold scrLast
  dsimp only
  rw [View.read_writes_eq_canon _ _ _ (cover_last_l V c t h0 h1 p)]
  unfold attnRunLast
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrLast_a (c : Dev nD) (t : Fin cfg1.N) (h0 : ¬attnFirst (grid1.coords t)) (h1 : attnLast (grid1.coords t)) (p : Scr F) :
    (scrLast V c t h0 h1 p).2.2
      = k1_pay1 (k1_pay10 (attnBlk V c 0 t) (attnBlk V c 1 t) p.1) (k1_pay12 (attnBlk V c 0 t) (attnBlk V c 1 t) p.1 p.1 p.2.2)
          (attnBlk V c 2 t) := by
  unfold scrLast
  dsimp only
  rw [View.read_writes_eq_canon _ _ _ (cover_last_a V c t h0 h1 p)]
  unfold attnRunLast
  dsimp only
  sl_unfold_words
  rw [View.canon_unit_zero hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

/-- A last key tile leaves the scratch buffers at one fold of the tile into what the point before left. -/
theorem scrLast_eq (c : Dev nD) (t : Fin cfg1.N) (h0 : ¬attnFirst (grid1.coords t)) (h1 : attnLast (grid1.coords t)) (p : Scr F) :
    scrLast V c t h0 h1 p = scrStep (attnBlk V c 0 t) (attnBlk V c 1 t) (attnBlk V c 2 t) p :=
  Prod.ext (scrLast_m V c t h0 h1 p) (Prod.ext (scrLast_l V c t h0 h1 p) (scrLast_a V c t h0 h1 p))

/-- and the output's buffer at the folded numerator over the folded denominator, both read back after their stores. -/
theorem outLast_eq (c : Dev nD) (t : Fin cfg1.N) (h0 : ¬attnFirst (grid1.coords t)) (h1 : attnLast (grid1.coords t)) (p : Scr F) :
    outLast V c t h0 h1 p = scrOut (scrStep (attnBlk V c 0 t) (attnBlk V c 1 t) (attnBlk V c 2 t) p) := by
  show _ = k1_pay3 (k1_pay1 (k1_pay10 (attnBlk V c 0 t) (attnBlk V c 1 t) p.1) (k1_pay12 (attnBlk V c 0 t) (attnBlk V c 1 t) p.1 p.1 p.2.2)
          (attnBlk V c 2 t)) (k1_pay11 (attnBlk V c 0 t) (attnBlk V c 1 t) p.1 p.1 p.2.1)
  unfold outLast
  rw [View.read_writes_eq_canon _ _ _ (cover_last_o V c t h0 h1 p)]
  unfold attnRunLast
  dsimp only
  sl_unfold_words
  rw [View.canon_unit_zero hz3, View.readCov_unit_zero (S := S1x1024x1024) _ hz3, View.readCov_unit_zero (S := S1x1024x1) _ hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

/-! ## A first key tile -/

theorem scrFirst_m (c : Dev nD) (t : Fin cfg1.N) (h0 : attnFirst (grid1.coords t)) (h1 : ¬attnLast (grid1.coords t)) :
    (scrFirst V c t h0 h1).1 = k1_pay2 (k1_pay8 (attnBlk V c 0 t) (attnBlk V c 1 t) k1_pay4) := by
  unfold scrFirst
  dsimp only
  rw [View.read_writes_eq_canon _ _ _ (cover_first_m V c t h0 h1)]
  unfold attnRunFirst
  dsimp only
  sl_unfold_words
  rw [View.canon_cons_unit_zero (S := S1x1024x1) hz3, View.readCov_unit_zero (S := S1x1024x1) scM.view hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrFirst_l (c : Dev nD) (t : Fin cfg1.N) (h0 : attnFirst (grid1.coords t)) (h1 : ¬attnLast (grid1.coords t)) :
    (scrFirst V c t h0 h1).2.1 = k1_pay11 (attnBlk V c 0 t) (attnBlk V c 1 t) k1_pay4 k1_pay4 k1_pay5 := by
  unfold scrFirst
  dsimp only
  rw [View.read_writes_eq_canon _ _ _ (cover_first_l V c t h0 h1)]
  unfold attnRunFirst
  dsimp only
  sl_unfold_words
  rw [View.canon_cons_unit_zero (S := S1x1024x1) hz3, View.readCov_unit_zero (S := S1x1024x1) scM.view hz3,
    View.readCov_unit_zero (S := S1x1024x1) scL.view hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

theorem scrFirst_a (c : Dev nD) (t : Fin cfg1.N) (h0 : attnFirst (grid1.coords t)) (h1 : ¬attnLast (grid1.coords t)) :
    (scrFirst V c t h0 h1).2.2
      = k1_pay1 (k1_pay10 (attnBlk V c 0 t) (attnBlk V c 1 t) k1_pay4)
          (k1_pay12 (attnBlk V c 0 t) (attnBlk V c 1 t) k1_pay4 k1_pay4 k1_pay6) (attnBlk V c 2 t) := by
  unfold scrFirst
  dsimp only
  rw [View.read_writes_eq_canon _ _ _ (cover_first_a V c t h0 h1)]
  unfold attnRunFirst
  dsimp only
  sl_unfold_words
  rw [View.canon_cons_unit_zero (S := S1x1024x1024) hz3, View.readCov_unit_zero (S := S1x1024x1) scM.view hz3,
    View.readCov_unit_zero (S := S1x1024x1024) scA.view hz3]
  simp only [View.readAt_eq_ld, Memref.IsWhole.read_unread, read_scM, read_scL, read_scA,
    View.ld_unit_zero (S := S1x1024x1) hz3, View.ld_unit_zero (S := S1x1024x1024) hz3, View.ld_unit_zero (S := S1x512x1024) hz3]

/-- A first key tile leaves the scratch buffers at one fold of the tile into the reset values. -/
theorem scrFirst_eq (c : Dev nD) (t : Fin cfg1.N) (h0 : attnFirst (grid1.coords t)) (h1 : ¬attnLast (grid1.coords t)) :
    scrFirst V c t h0 h1 = scrStep (attnBlk V c 0 t) (attnBlk V c 1 t) (attnBlk V c 2 t) scrInit :=
  Prod.ext (scrFirst_m V c t h0 h1) (Prod.ext (scrFirst_l V c t h0 h1) (scrFirst_a V c t h0 h1))

end Pieces

end Cert.KernelIdeal.Hand

end
-- ==== Proof.AttnRow.lean ====
/-
  A row of four key tiles, unrolled.

  At every point after a first key tile the scratch buffers hold one more tile folded into what the point before
  left; at a first key tile, one tile folded into the reset values.  So at the last key tile t of a row the output
  block is numerator / denominator after the four tiles t − 3, t − 2, t − 1, t have been folded in, in that order,
  from (−∞, 0, 0).
-/
import proofs.«178871_j489626272173_2_alg».proof.Proof.Gen.KernelIdeal.Launch
import proofs.«178871_j489626272173_2_alg».proof.Proof.Gen.KernelIdeal.Skeleton
import proofs.«178871_j489626272173_2_alg».proof.Proof.Gen.KernelIdeal.Points
import proofs.«178871_j489626272173_2_alg».proof.Proof.AttnBody
import proofs.«178871_j489626272173_2_alg».proof.Proof.AttnPieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Attn

variable (V : (c : Dev nD) → (b : Ref sig .tc) → Buf (Elt F) ((c : Thread nD τ).loc b))

theorem attnSt_congr (c : Dev nD) {n n' : ℕ} (e : n = n') (h : n < cfg1.N) (h' : n' < cfg1.N) :
    attnSt V c n h = attnSt V c n' h' := by subst e; rfl

/-- After a first key tile: that tile folded into the reset values. -/
theorem attnSt_start (c : Dev nD) (t : Fin cfg1.N) (h0 : t.val % 4 = 0) :
    attnSt V c t.val t.isLt = scrStep (attnBlk V c 0 t) (attnBlk V c 1 t) (attnBlk V c 2 t) scrInit := by
  rw [attnSt_first V c t h0, scrFirst_eq]

/-- After any other point: its tile folded into what the point before left. -/
theorem attnSt_step (c : Dev nD) (t : Fin cfg1.N) (h0 : ¬t.val % 4 = 0) :
    attnSt V c t.val t.isLt = scrStep (attnBlk V c 0 t) (attnBlk V c 1 t) (attnBlk V c 2 t) (attnSt V c (t.val - 1) (Nat.lt_of_le_of_lt (Nat.sub_le _ _) t.isLt)) := by
  by_cases h1 : t.val % 4 = 3
  · rw [attnSt_last V c t h0 h1, scrLast_eq]
  · rw [attnSt_mid V c t h0 h1, scrMid_eq]

/-- The point k places before t. -/
abbrev before (t : Fin cfg1.N) (k : ℕ) : Fin cfg1.N := ⟨t.val - k, Nat.lt_of_le_of_lt (Nat.sub_le _ _) t.isLt⟩

/-- The output block written at a last key tile: the four tiles of its row folded in, then the quotient. -/
theorem attnOut_row (c : Dev nD) (t : Fin cfg1.N) (h3 : t.val % 4 = 3) :
    attnOutAt V c t = scrOut (scrStep (attnBlk V c 0 t) (attnBlk V c 1 t) (attnBlk V c 2 t)
      (scrStep (attnBlk V c 0 (before t 1)) (attnBlk V c 1 (before t 1)) (attnBlk V c 2 (before t 1))
        (scrStep (attnBlk V c 0 (before t 2)) (attnBlk V c 1 (before t 2)) (attnBlk V c 2 (before t 2))
          (scrStep (attnBlk V c 0 (before t 3)) (attnBlk V c 1 (before t 3)) (attnBlk V c 2 (before t 3)) scrInit)))) := by
  have hN : t.val < 64 := lt_of_lt_of_eq t.isLt (show cfg1.N = 64 from N_1)
  rw [attnOutAt_last V c t (by omega) h3, outLast_eq]
  have e1 : attnSt V c (t.val - 1) (Nat.lt_of_le_of_lt (Nat.sub_le _ _) t.isLt)
      = scrStep (attnBlk V c 0 (before t 1)) (attnBlk V c 1 (before t 1)) (attnBlk V c 2 (before t 1)) (attnSt V c ((before t 1).val - 1) (Nat.lt_of_le_of_lt (Nat.sub_le _ _) (before t 1).isLt)) :=
    attnSt_step V c (before t 1) (by show ¬(t.val - 1) % 4 = 0; omega)
  have e2 : attnSt V c ((before t 1).val - 1) (Nat.lt_of_le_of_lt (Nat.sub_le _ _) (before t 1).isLt)
      = scrStep (attnBlk V c 0 (before t 2)) (attnBlk V c 1 (before t 2)) (attnBlk V c 2 (before t 2)) (attnSt V c ((before t 2).val - 1) (Nat.lt_of_le_of_lt (Nat.sub_le _ _) (before t 2).isLt)) :=
    (attnSt_congr V c (by show t.val - 1 - 1 = t.val - 2; omega) _ (before t 2).isLt).trans
      (attnSt_step V c (before t 2) (by show ¬(t.val - 2) % 4 = 0; omega))
  have e3 : attnSt V c ((before t 2).val - 1) (Nat.lt_of_le_of_lt (Nat.sub_le _ _) (before t 2).isLt)
      = scrStep (attnBlk V c 0 (before t 3)) (attnBlk V c 1 (before t 3)) (attnBlk V c 2 (before t 3)) scrInit :=
    (attnSt_congr V c (by show t.val - 2 - 1 = t.val - 3; omega) _ (before t 3).isLt).trans
      (attnSt_start V c (before t 3) (by show (t.val - 3) % 4 = 0; omega))
  rw [e1, e2, e3]

end Attn

end Cert.KernelIdeal.Hand

end
-- ==== Proof.LibOnlineSoftmax.lean ====
import Mathlib
import Idealize.ShloMosaic.PureOps.Ideal

/-!
# The online softmax recurrence

A softmax-weighted average `(∑ₖ exp (sₖ - M) · vₖ) / (∑ₖ exp (sₖ - M))` over keys `k` can be computed
tile by tile.  The keys are split into tiles `t = 0, 1, …` of `n` positions each; a running reference
point `m t`, a running denominator and a running numerator are kept, and on meeting tile `t` the two
running sums are rescaled from the old reference point to the new one:

* `den (t+1) = exp (m t - m (t+1)) · den t + ∑ⱼ exp (s t j - m (t+1))`
* `num (t+1) = exp (m t - m (t+1)) · num t + ∑ⱼ exp (s t j - m (t+1)) · v t j`

starting from `den 0 = num 0 = 0`.  Because `exp x · exp y = exp (x + y)`, after `t` tiles
`den t = ∑_{t' < t} ∑ⱼ exp (s t' j - m t)` and likewise for `num`; the quotient `num T / den T` does
not depend on the reference points at all, and equals the softmax-weighted average taken with ANY real
reference point `M` (the common factor `exp (M - m T)` cancels).  Nothing here uses that `m` is a
running maximum: that choice only keeps the exponentials small.

The first part is over `ℝ`.  The second part transfers the statement to extended reals: sequences of
extended reals that satisfy the same recurrences written with the exact operations on `EReal` (`+`, `*`,
`-`, the exponential `Ideal.exp`, the division `Ideal.div`) and whose inputs are real numbers.  There
every step needs finiteness (on `EReal`, distributivity and cancellation fail at `±∞`), which is why the
inputs carry real witnesses.
-/

open Finset
open Idealize.ShloMosaic

namespace OnlineSoftmax

variable {n : ℕ}

/-! ## Over the reals -/

/-- The running numerator: rescale by `exp (old point - new point)`, then add the new tile's weighted terms. -/
noncomputable def num (s v : ℕ → Fin n → ℝ) (m : ℕ → ℝ) : ℕ → ℝ
  | 0 => 0
  | t + 1 => Real.exp (m t - m (t + 1)) * num s v m t + ∑ j, Real.exp (s t j - m (t + 1)) * v t j

/-- The running denominator: the same with every weight `1`. -/
noncomputable def den (s : ℕ → Fin n → ℝ) (m : ℕ → ℝ) : ℕ → ℝ
  | 0 => 0
  | t + 1 => Real.exp (m t - m (t + 1)) * den s m t + ∑ j, Real.exp (s t j - m (t + 1))

/-- Moving the reference point of a sum of exponentials from `a` to `b` costs the factor `exp (b - a)`. -/
theorem sum_exp_shift (s v : ℕ → Fin n → ℝ) (a b : ℝ) (T : ℕ) :
    ∑ t ∈ range T, ∑ j, Real.exp (s t j - a) * v t j
      = Real.exp (b - a) * ∑ t ∈ range T, ∑ j, Real.exp (s t j - b) * v t j := by
  rw [mul_sum]
  refine sum_congr rfl fun t _ => ?_
  rw [mul_sum]
  refine sum_congr rfl fun j _ => ?_
  rw [← mul_assoc, ← Real.exp_add]
  congr 2
  ring

/-- After `t` tiles the running numerator is the sum over all keys met so far, at the current reference point. -/
theorem num_eq (s v : ℕ → Fin n → ℝ) (m : ℕ → ℝ) (t : ℕ) :
    num s v m t = ∑ t' ∈ range t, ∑ j, Real.exp (s t' j - m t) * v t' j := by
  induction t with
  | zero => simp [num]
  | succ t ih => rw [num, ih, sum_range_succ, ← sum_exp_shift s v (m (t + 1)) (m t) t]

theorem den_eq_num (s : ℕ → Fin n → ℝ) (m : ℕ → ℝ) (t : ℕ) : den s m t = num s (fun _ _ => 1) m t := by
  induction t with
  | zero => rfl
  | succ t ih => simp only [den, num, ih, mul_one]

/-- After `t` tiles the running denominator is the sum of the exponentials of all keys met so far. -/
theorem den_eq (s : ℕ → Fin n → ℝ) (m : ℕ → ℝ) (t : ℕ) :
    den s m t = ∑ t' ∈ range t, ∑ j, Real.exp (s t' j - m t) := by
  rw [den_eq_num, num_eq]; simp only [mul_one]

/-- A sum of exponentials over a nonempty set of keys is positive. -/
theorem sum_exp_pos (hn : 0 < n) (s : ℕ → Fin n → ℝ) (a : ℝ) {T : ℕ} (hT : 0 < T) :
    0 < ∑ t ∈ range T, ∑ j, Real.exp (s t j - a) := by
  haveI : NeZero n := ⟨hn.ne'⟩
  exact sum_pos (fun _ _ => sum_pos (fun _ _ => Real.exp_pos _) univ_nonempty) (nonempty_range_iff.mpr hT.ne')

theorem den_pos (hn : 0 < n) (s : ℕ → Fin n → ℝ) (m : ℕ → ℝ) {T : ℕ} (hT : 0 < T) : 0 < den s m T := by
  rw [den_eq]; exact sum_exp_pos hn s _ hT

/-- **Online softmax, over the reals.**  The running numerator times the reciprocal of the running
    denominator is the softmax-weighted average with any reference point `M`, in the form
    `∑ₖ (exp (sₖ - M) / ∑ᵢ exp (sᵢ - M)) · vₖ`. -/
theorem num_mul_inv_den (s v : ℕ → Fin n → ℝ) (m : ℕ → ℝ) (T : ℕ) (M : ℝ) :
    num s v m T * (1 / den s m T)
      = ∑ t ∈ range T, ∑ j, Real.exp (s t j - M) / (∑ t' ∈ range T, ∑ i, Real.exp (s t' i - M)) * v t j := by
  rw [num_eq, den_eq_num, num_eq, sum_exp_shift s v (m T) M, sum_exp_shift s (fun _ _ => 1) (m T) M]
  simp only [mul_one]
  rw [mul_one_div, mul_div_mul_left _ _ (Real.exp_pos _).ne', sum_div]
  refine sum_congr rfl fun t _ => ?_
  rw [sum_div]
  refine sum_congr rfl fun j _ => ?_
  ring

/-! ## Over the extended reals, with real inputs -/

/-- The inclusion of the reals in the extended reals commutes with finite sums. -/
theorem coe_sum {ι : Type*} (A : Finset ι) (f : ι → ℝ) :
    ((∑ i ∈ A, f i : ℝ) : EReal) = ∑ i ∈ A, (f i : EReal) := by
  classical
  induction A using Finset.induction_on with
  | empty => simp
  | insert a A ha ih => rw [sum_insert ha, sum_insert ha, EReal.coe_add, ih]

/-- The exact exponential of a difference of two reals. -/
theorem exp_coe_sub_coe (a b : ℝ) : Ideal.exp ((a : EReal) - (b : EReal)) = ((Real.exp (a - b) : ℝ) : EReal) := by
  rw [← EReal.coe_sub, Ideal.exp_coe]

/-- The exact quotient by a nonzero real is the product with the reciprocal. -/
theorem div_coe_coe (a : ℝ) {b : ℝ} (hb : b ≠ 0) : Ideal.div (a : EReal) (b : EReal) = ((a * (1 / b) : ℝ) : EReal) := by
  rw [Ideal.div_coe hb, EReal.coe_mul]

/-- A maximum, taken from a seed below `+∞`, of finitely many reals is below `+∞`. -/
theorem fold_max_coe_ne_top {b : EReal} (hb : b ≠ ⊤) (f : Fin n → ℝ) :
    (univ.fold max b fun j => (f j : EReal)) ≠ ⊤ := by
  rw [← lt_top_iff_ne_top, Finset.fold_max_lt]
  exact ⟨lt_top_iff_ne_top.mpr hb, fun j _ => EReal.coe_lt_top _⟩

/-- A maximum of a nonempty family of reals is above `-∞`, whatever the seed. -/
theorem fold_max_coe_ne_bot (hn : 0 < n) (b : EReal) (f : Fin n → ℝ) :
    (univ.fold max b fun j => (f j : EReal)) ≠ ⊥ := by
  rw [← bot_lt_iff_ne_bot, Finset.lt_fold_max]
  exact Or.inr ⟨⟨0, hn⟩, mem_univ _, EReal.bot_lt_coe _⟩

/-- The running maximum stays real: starting at a real seed, taking at each tile the larger of the old
    value and the tile's maximum (itself seeded below `+∞`, e.g. at `-∞`) never leaves the reals. -/
theorem running_max_real {T : ℕ} (S : ℕ → Fin n → EReal) (s : ℕ → Fin n → ℝ)
    (hS : ∀ t < T, ∀ j, S t j = (s t j : ℝ)) {b : EReal} (hb : b ≠ ⊤)
    (mE : ℕ → EReal) (m₀ : ℝ) (hm0 : mE 0 = (m₀ : ℝ))
    (hm : ∀ t < T, mE (t + 1) = max (mE t) (univ.fold max b (S t))) :
    ∀ t ≤ T, mE t = (((mE t).toReal : ℝ) : EReal) := by
  have key : ∀ t ≤ T, mE t ≠ ⊥ ∧ mE t ≠ ⊤ := by
    intro t
    induction t with
    | zero => intro _; rw [hm0]; exact ⟨EReal.coe_ne_bot _, EReal.coe_ne_top _⟩
    | succ t ih =>
      intro ht
      have ht' : t < T := ht
      obtain ⟨h1, h2⟩ := ih ht'.le
      have hX : univ.fold max b (S t) = univ.fold max b fun j => ((s t j : ℝ) : EReal) :=
        Finset.fold_congr fun j _ => hS t ht' j
      rw [hm t ht', hX]
      refine ⟨ne_bot_of_le_ne_bot h1 (le_max_left _ _), ne_of_lt (max_lt (lt_top_iff_ne_top.mpr h2) ?_)⟩
      exact lt_top_iff_ne_top.mpr (fold_max_coe_ne_top hb _)
  intro t ht
  exact (EReal.coe_toReal (key t ht).2 (key t ht).1).symm

/-- The running numerator over the extended reals is the real one, when every input is real. -/
theorem ereal_num {T : ℕ} (S V : ℕ → Fin n → EReal) (s v : ℕ → Fin n → ℝ)
    (hS : ∀ t < T, ∀ j, S t j = (s t j : ℝ)) (hV : ∀ t < T, ∀ j, V t j = (v t j : ℝ))
    (mE aE : ℕ → EReal) (m : ℕ → ℝ) (hm : ∀ t ≤ T, mE t = (m t : ℝ)) (ha0 : aE 0 = 0)
    (ha : ∀ t < T, aE (t + 1)
      = Ideal.exp (mE t - mE (t + 1)) * aE t + ∑ j, Ideal.exp (S t j - mE (t + 1)) * V t j) :
    ∀ t ≤ T, aE t = ((num s v m t : ℝ) : EReal) := by
  intro t
  induction t with
  | zero => intro _; rw [ha0]; rfl
  | succ t ih =>
    intro ht
    have ht' : t < T := ht
    rw [ha t ht', ih ht'.le, hm t ht'.le, hm (t + 1) ht, num, EReal.coe_add, EReal.coe_mul, coe_sum,
      exp_coe_sub_coe]
    congr 1
    refine sum_congr rfl fun j _ => ?_
    rw [hS t ht' j, hV t ht' j, exp_coe_sub_coe, EReal.coe_mul]

/-- The running denominator over the extended reals is the real one, when every input is real. -/
theorem ereal_den {T : ℕ} (S : ℕ → Fin n → EReal) (s : ℕ → Fin n → ℝ)
    (hS : ∀ t < T, ∀ j, S t j = (s t j : ℝ))
    (mE lE : ℕ → EReal) (m : ℕ → ℝ) (hm : ∀ t ≤ T, mE t = (m t : ℝ)) (hl0 : lE 0 = 0)
    (hl : ∀ t < T, lE (t + 1)
      = Ideal.exp (mE t - mE (t + 1)) * lE t + ∑ j, Ideal.exp (S t j - mE (t + 1))) :
    ∀ t ≤ T, lE t = ((den s m t : ℝ) : EReal) := by
  intro t
  induction t with
  | zero => intro _; rw [hl0]; rfl
  | succ t ih =>
    intro ht
    have ht' : t < T := ht
    rw [hl t ht', ih ht'.le, hm t ht'.le, hm (t + 1) ht, den, EReal.coe_add, EReal.coe_mul, coe_sum,
      exp_coe_sub_coe]
    congr 1
    refine sum_congr rfl fun j _ => ?_
    rw [hS t ht' j, exp_coe_sub_coe]

/-- The value of the online softmax over the extended reals is the real one. -/
theorem online_softmax_value {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j) :
    aE T * Ideal.div 1 (lE T) = ((num s v m T * (1 / den s m T) : ℝ) : EReal) := by
  rw [ereal_num S V s v hS hV mE aE m hm ha0 ha T le_rfl, ereal_den S s hS mE lE m hm hl0 hl T le_rfl,
    ← EReal.coe_one, div_coe_coe 1 (den_pos hn s m hT).ne', one_mul, ← EReal.coe_mul]

/-- **Online softmax, over the extended reals.**  Let the scores `S` and the values `V` of `T ≥ 1` tiles of
    `n ≥ 1` keys be real numbers, let `mE` be any sequence of real reference points, and let `lE`, `aE` start
    at `0` and satisfy the rescaling recurrences written with the exact operations.  Then the final numerator
    times the exact quotient `1 / (final denominator)` is the softmax-weighted average of the values in
    the normalised form `∑ₖ (exp (Sₖ - M) / ∑ᵢ exp (Sᵢ - M)) · Vₖ`, for any real `M`. -/
theorem online_softmax {T : ℕ} (hn : 0 < n) (hT : 0 < T)
    (S V : ℕ → Fin n → EReal) (s v : ℕ → Fin n → ℝ)
    (hS : ∀ t < T, ∀ j, S t j = (s t j : ℝ)) (hV : ∀ t < T, ∀ j, V t j = (v t j : ℝ))
    (mE lE aE : ℕ → EReal) (m : ℕ → ℝ) (hm : ∀ t ≤ T, mE t = (m t : ℝ))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : ℝ) :
    aE T * Ideal.div 1 (lE T)
      = ∑ t ∈ range T, ∑ j,
          Ideal.div (Ideal.exp (S t j - (M : EReal))) (∑ t' ∈ range T, ∑ i, Ideal.exp (S t' i - (M : EReal)))
            * V t j := by
  have hZ : 0 < ∑ t' ∈ range T, ∑ i, Real.exp (s t' i - M) := sum_exp_pos hn s M hT
  have hZE : (∑ t' ∈ range T, ∑ i, Ideal.exp (S t' i - (M : EReal)))
      = ((∑ t' ∈ range T, ∑ i, Real.exp (s t' i - M) : ℝ) : EReal) := by
    rw [coe_sum]
    refine sum_congr rfl fun t ht => ?_
    rw [coe_sum]
    refine sum_congr rfl fun j _ => ?_
    rw [hS t (mem_range.mp ht) j, exp_coe_sub_coe]
  rw [online_softmax_value hn hT S V s v hS hV mE lE aE m hm hl0 ha0 hl ha, num_mul_inv_den s v m T M,
    hZE, coe_sum]
  refine sum_congr rfl fun t ht => ?_
  rw [coe_sum]
  refine sum_congr rfl fun j _ => ?_
  rw [hS t (mem_range.mp ht) j, hV t (mem_range.mp ht) j, exp_coe_sub_coe, div_coe_coe _ hZ.ne', ← EReal.coe_mul]
  congr 1
  ring

/-! ### The same, with finiteness stated as the existence of a real value -/

/-- An extended real that is some real number is its own real part. -/
theorem eq_coe_toReal {x : EReal} (h : ∃ r : ℝ, x = (r : EReal)) : x = ((x.toReal : ℝ) : EReal) := by
  obtain ⟨r, rfl⟩ := h
  rw [EReal.toReal_coe]

/-- The running maximum of real scores from a real seed is real at every tile. -/
theorem running_max_of_real {T : ℕ} (S : ℕ → Fin n → EReal)
    (hS : ∀ t < T, ∀ j, ∃ r : ℝ, S t j = (r : EReal)) {b : EReal} (hb : b ≠ ⊤)
    (mE : ℕ → EReal) (hm0 : ∃ r : ℝ, mE 0 = (r : EReal))
    (hm : ∀ t < T, mE (t + 1) = max (mE t) (univ.fold max b (S t))) :
    ∀ t ≤ T, ∃ r : ℝ, mE t = (r : EReal) := by
  obtain ⟨m₀, hm0⟩ := hm0
  intro t ht
  exact ⟨_, running_max_real S (fun t j => (S t j).toReal) (fun t ht j => eq_coe_toReal (hS t ht j)) hb mE m₀ hm0 hm
    t ht⟩

/-- **Online softmax, over the extended reals, inputs known to be real.**  As `online_softmax`, with the
    finiteness of the scores, the values, the reference points and `M` stated as `∃ r : ℝ, _ = r`; the
    result is moreover a real number. -/
theorem online_softmax_of_real {T : ℕ} (hn : 0 < n) (hT : 0 < T)
    (S V : ℕ → Fin n → EReal)
    (hS : ∀ t < T, ∀ j, ∃ r : ℝ, S t j = (r : EReal)) (hV : ∀ t < T, ∀ j, ∃ r : ℝ, V t j = (r : EReal))
    (mE lE aE : ℕ → EReal) (hm : ∀ t ≤ T, ∃ r : ℝ, mE t = (r : EReal))
    (hl0 : lE 0 = 0) (ha0 : aE 0 = 0)
    (hl : ∀ t < T, lE (t + 1)
      = Ideal.exp (mE t - mE (t + 1)) * lE t + ∑ j, Ideal.exp (S t j - mE (t + 1)))
    (ha : ∀ t < T, aE (t + 1)
      = Ideal.exp (mE t - mE (t + 1)) * aE t + ∑ j, Ideal.exp (S t j - mE (t + 1)) * V t j)
    (M : EReal) (hM : ∃ r : ℝ, M = (r : EReal)) :
    aE T * Ideal.div 1 (lE T)
        = ∑ t ∈ range T, ∑ j,
            Ideal.div (Ideal.exp (S t j - M)) (∑ t' ∈ range T, ∑ i, Ideal.exp (S t' i - M)) * V t j
      ∧ ∃ r : ℝ, aE T * Ideal.div 1 (lE T) = (r : EReal) := by
  obtain ⟨Mr, rfl⟩ := hM
  have hS' : ∀ t < T, ∀ j, S t j = (((S t j).toReal : ℝ) : EReal) := fun t ht j => eq_coe_toReal (hS t ht j)
  have hV' : ∀ t < T, ∀ j, V t j = (((V t j).toReal : ℝ) : EReal) := fun t ht j => eq_coe_toReal (hV t ht j)
  have hm' : ∀ t ≤ T, mE t = (((mE t).toReal : ℝ) : EReal) := fun t ht => eq_coe_toReal (hm t ht)
  exact ⟨online_softmax hn hT S V _ _ hS' hV' mE lE aE _ hm' hl0 ha0 hl ha Mr,
    _, online_softmax_value hn hT S V _ _ hS' hV' mE lE aE _ hm' hl0 ha0 hl ha⟩

/-! ## Splitting a key index into (tile, position) -/

/-- A sum over `T · n` consecutive keys is the sum over `T` tiles of the sums over the `n` positions of a tile. -/
theorem sum_fin_mul {α : Type*} [AddCommMonoid α] (T n : ℕ) (f : ℕ → α) :
    ∑ k : Fin (T * n), f k.val = ∑ t ∈ range T, ∑ j : Fin n, f (t * n + j.val) := by
  rw [← Fin.sum_univ_eq_sum_range (fun t => ∑ j : Fin n, f (t * n + j.val)) T, ← Fintype.sum_prod_type']
  refine (Fintype.sum_equiv finProdFinEquiv _ _ fun p => ?_).symm
  simp [finProdFinEquiv, mul_comm, add_comm]

end OnlineSoftmax
-- ==== Proof.OnlineRow.lean ====
/-
  One query row of a tiled softmax-weighted average.

  The 2048 keys of a row are met in 4 tiles of 512 consecutive keys: position j of tile t is key t·512 + j.
  A running maximum m, a running denominator l and a running numerator a start at -∞, 0, 0 and are updated tile by tile,
      m' = max m (max of the tile's scores),
      l' = exp (m − m') · l + Σ_j exp (S_j − m'),
      a' = exp (m − m') · a + Σ_j exp (S_j − m') · V_j .
  When every score and every value is a real number, the final quotient a / l is the softmax-weighted average
      Σ_k (exp (S_k − M) / Σ_u exp (S_u − M)) · V_k
  for any real reference point M, in particular for M the maximum of the row.

  The start at -∞ does no harm: the first rescaling factor exp (−∞ − m₁) multiplies l = a = 0, so the first reference
  point may be replaced by any real number; from the first tile on, the running maximum is a maximum of real numbers,
  hence real, and the general recurrence applies.
-/
import Mathlib
import Idealize.ShloMosaic.PureOps.Ideal
import proofs.«178871_j489626272173_2_alg».proof.Proof.LibOnlineSoftmax
import proofs.«178871_j489626272173_2_alg».proof.Proof.LibRealSum

noncomputable section

open Finset
open Idealize.ShloMosaic Cert.LibRealSum

namespace Cert.Attn.OnlineRow

/-- The key met at position `j` of tile `t`. -/
def key (t : Fin 4) (j : Fin 512) : Fin 2048 := ⟨t.val * 512 + j.val, by omega⟩

@[simp] theorem key_val (t : Fin 4) (j : Fin 512) : (key t j).val = t.val * 512 + j.val := rfl

/-- A family over the 2048 keys, continued by zero to all natural numbers. -/
def cont (S : Fin 2048 → EReal) (k : ℕ) : EReal := if h : k < 2048 then S ⟨k, h⟩ else 0

theorem cont_val (S : Fin 2048 → EReal) (k : Fin 2048) : cont S k.val = S k := by
  unfold cont; rw [dif_pos k.isLt]

theorem cont_key (S : Fin 2048 → EReal) (t : Fin 4) (j : Fin 512) :
    cont S (t.val * 512 + j.val) = S (key t j) := cont_val S (key t j)

theorem isReal_cont (S : Fin 2048 → EReal) (hS : ∀ k, IsReal (S k)) (k : ℕ) : IsReal (cont S k) := by
  unfold cont; split
  · exact hS _
  · exact isReal_zero

/-- A sum over the 2048 keys, taken tile by tile. -/
theorem sum_keys {α : Type*} [AddCommMonoid α] (f : Fin 2048 → α) :
    ∑ k : Fin 2048, f k = ∑ t : Fin 4, ∑ j : Fin 512, f (key t j) := by
  rw [← Fintype.sum_prod_type']
  refine (Fintype.sum_equiv (finProdFinEquiv (m := 4) (n := 512)) _ _ fun p => ?_).symm
  congr 1
  apply Fin.ext
  simp [finProdFinEquiv, key, mul_comm, add_comm]

/-- The maximum of the 2048 real scores of a row is a real number. -/
theorem isReal_fold_max (S : Fin 2048 → EReal) (hS : ∀ k, IsReal (S k)) : IsReal (univ.fold max ⊥ S) := by
  choose s hs using hS
  have e : S = fun k => ((s k : ℝ) : EReal) := funext hs
  rw [e]
  exact ⟨_, (EReal.coe_toReal (OnlineSoftmax.fold_max_coe_ne_top bot_ne_top s)
    (OnlineSoftmax.fold_max_coe_ne_bot (by norm_num) ⊥ s)).symm⟩

/-- **One row of the tiled recurrence, any real reference point.** -/
theorem online_row (S V : Fin 2048 → EReal) (hS : ∀ k, IsReal (S k)) (hV : ∀ k, IsReal (V k))
    (mE lE aE : ℕ → EReal) (hm0 : mE 0 = ⊥) (hl0 : lE 0 = 0) (ha0 : aE 0 = 0)
    (hm : ∀ t : Fin 4, mE (t.val + 1) = max (mE t.val) (univ.fold max ⊥ fun j : Fin 512 => S (key t j)))
    (hl : ∀ t : Fin 4, lE (t.val + 1) = Ideal.exp (mE t.val - mE (t.val + 1)) * lE t.val
        + ∑ j : Fin 512, Ideal.exp (S (key t j) - mE (t.val + 1)))
    (ha : ∀ t : Fin 4, aE (t.val + 1) = Ideal.exp (mE t.val - mE (t.val + 1)) * aE t.val
        + ∑ j : Fin 512, Ideal.exp (S (key t j) - mE (t.val + 1)) * V (key t j))
    (M : EReal) (hM : IsReal M) :
    Ideal.div (aE 4) (lE 4)
      = ∑ t : Fin 2048, Ideal.div (Ideal.exp (S t - M)) (∑ u : Fin 2048, Ideal.exp (S u - M)) * V t := by
  -- every running maximum is below +∞
  have hlt : ∀ t, t ≤ 4 → mE t < ⊤ := by
    intro t
    induction t with
    | zero => intro _; rw [hm0]; exact bot_lt_top
    | succ t ih =>
      intro ht
      have ht' : t < 4 := ht
      have e : mE (t + 1) = max (mE t) (univ.fold max ⊥ fun j : Fin 512 => S (key ⟨t, ht'⟩ j)) := hm ⟨t, ht'⟩
      rw [e]
      refine max_lt (ih ht'.le) ?_
      rw [Finset.fold_max_lt]
      refine ⟨bot_lt_top, fun j _ => ?_⟩
      obtain ⟨a, ha'⟩ := hS (key ⟨t, ht'⟩ j)
      rw [ha']; exact EReal.coe_lt_top a
  -- after at least one tile it is above -∞
  have hgt : ∀ t : Fin 4, ⊥ < mE (t.val + 1) := by
    intro t
    rw [hm t]
    refine lt_of_lt_of_le ?_ (le_max_right _ _)
    rw [Finset.lt_fold_max]
    refine Or.inr ⟨0, mem_univ _, ?_⟩
    obtain ⟨a, ha'⟩ := hS (key t 0)
    rw [ha']; exact EReal.bot_lt_coe a
  have hreal : ∀ t : Fin 4, IsReal (mE (t.val + 1)) := fun t =>
    ⟨_, (EReal.coe_toReal (hlt _ (by have := t.isLt; omega)).ne (hgt t).ne').symm⟩
  -- the reference points with the first one replaced by a real number
  let mE' : ℕ → EReal := fun t => if t = 0 then mE 1 else mE t
  have hm'S : ∀ t, mE' (t + 1) = mE (t + 1) := fun t => if_neg (Nat.succ_ne_zero t)
  have hm' : ∀ t ≤ 4, ∃ r : ℝ, mE' t = (r : EReal) := by
    intro t ht
    rcases t with _ | t
    · exact hreal 0
    · rw [hm'S]; exact hreal ⟨t, ht⟩
  have hscale : ∀ (xE : ℕ → EReal), xE 0 = 0 → ∀ t,
      Ideal.exp (mE' t - mE' (t + 1)) * xE t = Ideal.exp (mE t - mE (t + 1)) * xE t := by
    intro xE h0 t
    rcases t with _ | t
    · rw [h0, mul_zero, mul_zero]
    · rw [hm'S, hm'S]
  have hl' : ∀ t < 4, lE (t + 1) = Ideal.exp (mE' t - mE' (t + 1)) * lE t
      + ∑ j : Fin 512, Ideal.exp (cont S (t * 512 + j.val) - mE' (t + 1)) := by
    intro t ht
    have ek : ∀ j : Fin 512, cont S (t * 512 + j.val) = S (key ⟨t, ht⟩ j) := fun j => cont_key S ⟨t, ht⟩ j
    rw [hscale lE hl0 t, hm'S]
    simp only [ek]
    exact hl ⟨t, ht⟩
  have ha' : ∀ t < 4, aE (t + 1) = Ideal.exp (mE' t - mE' (t + 1)) * aE t
      + ∑ j : Fin 512, Ideal.exp (cont S (t * 512 + j.val) - mE' (t + 1)) * cont V (t * 512 + j.val) := by
    intro t ht
    have ek : ∀ j : Fin 512, cont S (t * 512 + j.val) = S (key ⟨t, ht⟩ j) := fun j => cont_key S ⟨t, ht⟩ j
    have ev : ∀ j : Fin 512, cont V (t * 512 + j.val) = V (key ⟨t, ht⟩ j) := fun j => cont_key V ⟨t, ht⟩ j
    rw [hscale aE ha0 t, hm'S]
    simp only [ek, ev]
    exact ha ⟨t, ht⟩
  -- the general recurrence over 4 tiles of 512 keys
  have main := (OnlineSoftmax.online_softmax_of_real (n := 512) (T := 4) (by norm_num) (by norm_num)
    (fun t j => cont S (t * 512 + j.val)) (fun t j => cont V (t * 512 + j.val))
    (fun t _ j => isReal_cont S hS _) (fun t _ j => isReal_cont V hV _)
    mE' lE aE hm' hl0 ha0 hl' ha' M hM).1
  -- the final denominator is a positive real
  have hl4 : lE 4 ≠ 0 := by
    have hS' : ∀ t < 4, ∀ j : Fin 512,
        cont S (t * 512 + j.val) = (((cont S (t * 512 + j.val)).toReal : ℝ) : EReal) :=
      fun t _ j => OnlineSoftmax.eq_coe_toReal (isReal_cont S hS _)
    have hmr : ∀ t ≤ 4, mE' t = (((mE' t).toReal : ℝ) : EReal) :=
      fun t ht => OnlineSoftmax.eq_coe_toReal (hm' t ht)
    rw [OnlineSoftmax.ereal_den (n := 512) (T := 4) (fun t j => cont S (t * 512 + j.val))
      (fun t j => (cont S (t * 512 + j.val)).toReal) hS' mE' lE (fun t => (mE' t).toReal) hmr hl0 hl' 4 le_rfl]
    have hpos := OnlineSoftmax.den_pos (n := 512) (by norm_num) (fun t j => (cont S (t * 512 + j.val)).toReal)
      (fun t => (mE' t).toReal) (T := 4) (by norm_num)
    exact_mod_cast hpos.ne'
  have hdiv : Ideal.div (aE 4) (lE 4) = aE 4 * Ideal.div 1 (lE 4) := by
    simp only [Ideal.div, if_neg hl4, one_mul]
  have hZ : (∑ t' ∈ range 4, ∑ i : Fin 512, Ideal.exp (cont S (t' * 512 + i.val) - M))
      = ∑ u : Fin 2048, Ideal.exp (S u - M) := by
    rw [← OnlineSoftmax.sum_fin_mul 4 512 (fun k => Ideal.exp (cont S k - M))]
    exact Finset.sum_congr rfl fun u _ => by rw [cont_val]
  rw [hdiv, main, hZ, ← OnlineSoftmax.sum_fin_mul 4 512
    (fun k => Ideal.div (Ideal.exp (cont S k - M)) (∑ u : Fin 2048, Ideal.exp (S u - M)) * cont V k)]
  exact Finset.sum_congr rfl fun u _ => by rw [cont_val, cont_val]

/-- **One row of the tiled recurrence, at the row's maximum**: the final quotient is the softmax-weighted average
    written with the maximum of the row's scores as the reference point. -/
theorem online_row_max (S V : Fin 2048 → EReal) (hS : ∀ k, IsReal (S k)) (hV : ∀ k, IsReal (V k))
    (mE lE aE : ℕ → EReal) (hm0 : mE 0 = ⊥) (hl0 : lE 0 = 0) (ha0 : aE 0 = 0)
    (hm : ∀ t : Fin 4, mE (t.val + 1) = max (mE t.val) (univ.fold max ⊥ fun j : Fin 512 => S (key t j)))
    (hl : ∀ t : Fin 4, lE (t.val + 1) = Ideal.exp (mE t.val - mE (t.val + 1)) * lE t.val
        + ∑ j : Fin 512, Ideal.exp (S (key t j) - mE (t.val + 1)))
    (ha : ∀ t : Fin 4, aE (t.val + 1) = Ideal.exp (mE t.val - mE (t.val + 1)) * aE t.val
        + ∑ j : Fin 512, Ideal.exp (S (key t j) - mE (t.val + 1)) * V (key t j)) :
    Ideal.div (aE 4) (lE 4)
      = ∑ t : Fin 2048, Ideal.div (Ideal.exp (S t - univ.fold max ⊥ S))
          (∑ u : Fin 2048, Ideal.exp (S u - univ.fold max ⊥ S)) * V t :=
  online_row S V hS hV mE lE aE hm0 hl0 ha0 hm hl ha _ (isReal_fold_max S hS)

end Cert.Attn.OnlineRow

end
-- ==== Proof.RowValue.lean ====
/-
  One query row through the four key tiles of the attention body.

  Starting from (-∞, 0, 0) and folding in the four key tiles one after the other, the body keeps, for query row r, a
  running maximum, a running denominator and (for each output column e) a running numerator; the output entry is the
  final numerator over the final denominator. Entry by entry these obey the tiled recurrence of the online softmax with
      score of key t·512 + j     = Σ_d q[r, d] · (key tile t)[j, d],
      value of key t·512 + j     = (value tile t)[j, e],
  so, when every entry of the query block and of the tiles is a real number, the output entry is the softmax-weighted
  average of the 2048 values with the row's 2048 scores.
-/
import proofs.«178871_j489626272173_2_alg».proof.Proof.AttnStep
import proofs.«178871_j489626272173_2_alg».proof.Proof.PayAt
import proofs.«178871_j489626272173_2_alg».proof.Proof.OnlineRow
import proofs.«178871_j489626272173_2_alg».proof.Proof.LibRealSum

noncomputable section

open scoped BigOperators

namespace Cert.KernelIdeal.RowValue

open Idealize.ShloMosaic Idealize.ShloMosaic.ValueIdx Cert.KernelIdeal Cert.KernelIdeal.Gen Cert.KernelIdeal.Hand
  Cert.KernelIdeal.PayAt Cert.LibRealSum Cert.Attn.OnlineRow

/-! ## Keys, tiles and positions -/

/-- The tile a key lies in. -/
def tileOf (k : Fin 2048) : Fin 4 := ⟨k.val / 512, by have := k.isLt; omega⟩

/-- A key's position inside its tile. -/
def posOf (k : Fin 2048) : Fin 512 := ⟨k.val % 512, Nat.mod_lt _ (by norm_num)⟩

theorem tileOf_key (t : Fin 4) (j : Fin 512) : tileOf (key t j) = t := by
  apply Fin.ext
  show (t.val * 512 + j.val) / 512 = t.val
  have := j.isLt; omega

theorem posOf_key (t : Fin 4) (j : Fin 512) : posOf (key t j) = j := by
  apply Fin.ext
  show (t.val * 512 + j.val) % 512 = j.val
  have := j.isLt; omega

variable (q : FVec Ideal S1x1024x1024 .bf16) (ks vs : Fin 4 → FVec Ideal S1x512x1024 .bf16)

/-- The score of query row `r` against key `k`: the row of q times the key's row in its tile. -/
def rowScore (r : Fin 1024) (k : Fin 2048) : EReal :=
  ∑ d : Fin 1024, q (ix3 (0 : Fin 1) r d) * ks (tileOf k) (ix3 (0 : Fin 1) (posOf k) d)

/-- The value of key `k` at output column `e`. -/
def rowVal (e : Fin 1024) (k : Fin 2048) : EReal := vs (tileOf k) (ix3 (0 : Fin 1) (posOf k) e)

theorem rowScore_key (r : Fin 1024) (t : Fin 4) (j : Fin 512) :
    rowScore q ks r (key t j) = ∑ d : Fin 1024, q (ix3 (0 : Fin 1) r d) * ks t (ix3 (0 : Fin 1) j d) := by
  unfold rowScore
  rw [tileOf_key, posOf_key]

theorem rowVal_key (e : Fin 1024) (t : Fin 4) (j : Fin 512) :
    rowVal vs e (key t j) = vs t (ix3 (0 : Fin 1) j e) := by
  unfold rowVal
  rw [tileOf_key, posOf_key]

/-! ## The running quantities after n tiles -/

/-- Tile number `n`, counted around the four tiles. -/
def tileAt (n : ℕ) : Fin 4 := ⟨n % 4, Nat.mod_lt _ (by norm_num)⟩

theorem tileAt_val (t : Fin 4) : tileAt t.val = t := Fin.ext (Nat.mod_eq_of_lt t.isLt)

/-- The running maximum, denominator and numerator after the first `n` key tiles. -/
def iter : ℕ → Scr3 Ideal
  | 0 => scrInit
  | n + 1 => scrStep q (ks (tileAt n)) (vs (tileAt n)) (iter n)

theorem iter_succ (t : Fin 4) :
    iter q ks vs (t.val + 1) = scrStep q (ks t) (vs t) (iter q ks vs t.val) := by
  rw [iter, tileAt_val]

theorem iter_four :
    iter q ks vs 4
      = scrStep q (ks 3) (vs 3) (scrStep q (ks 2) (vs 2) (scrStep q (ks 1) (vs 1) (scrStep q (ks 0) (vs 0) scrInit))) :=
  rfl

/-! ## The start -/

theorem m_zero (r : Fin 1024) : (iter q ks vs 0).1 (ix3 (0 : Fin 1) r (0 : Fin 1)) = ⊥ :=
  congrFun k1_pay4_eq (ix3 (0 : Fin 1) r (0 : Fin 1))

theorem l_zero (r : Fin 1024) : (iter q ks vs 0).2.1 (ix3 (0 : Fin 1) r (0 : Fin 1)) = 0 :=
  congrFun k1_pay5_eq (ix3 (0 : Fin 1) r (0 : Fin 1))

theorem a_zero (r e : Fin 1024) : (iter q ks vs 0).2.2 (ix3 (0 : Fin 1) r e) = 0 :=
  congrFun k1_pay6_eq (ix3 (0 : Fin 1) r e)

/-! ## One tile -/

/-- The new maximum computed in the step is the one stored. -/
theorem pay8_eq (r : Fin 1024) (t : Fin 4) :
    k1_pay8 (F := Ideal) q (ks t) (iter q ks vs t.val).1 (ix3 (0 : Fin 1) r (0 : Fin 1))
      = (iter q ks vs (t.val + 1)).1 (ix3 (0 : Fin 1) r (0 : Fin 1)) := by
  rw [iter_succ]
  show _ = k1_pay2 (F := Ideal) (k1_pay8 (F := Ideal) q (ks t) (iter q ks vs t.val).1) (ix3 (0 : Fin 1) r (0 : Fin 1))
  rw [k1_pay2_eq]

theorem m_succ (r : Fin 1024) (t : Fin 4) :
    (iter q ks vs (t.val + 1)).1 (ix3 (0 : Fin 1) r (0 : Fin 1))
      = max ((iter q ks vs t.val).1 (ix3 (0 : Fin 1) r (0 : Fin 1)))
          (Finset.univ.fold max ⊥ fun j : Fin 512 => rowScore q ks r (key t j)) := by
  rw [← pay8_eq, k1_pay8_at]
  refine congrArg (max _) ?_
  exact congrArg (fun f => Finset.fold max ⊥ f (Finset.univ : Finset (Fin 512)))
    (funext fun j => (k1_pay7_at q (ks t) r j).trans (rowScore_key q ks r t j).symm)

theorem l_succ (r : Fin 1024) (t : Fin 4) :
    (iter q ks vs (t.val + 1)).2.1 (ix3 (0 : Fin 1) r (0 : Fin 1))
      = Ideal.exp ((iter q ks vs t.val).1 (ix3 (0 : Fin 1) r (0 : Fin 1))
            - (iter q ks vs (t.val + 1)).1 (ix3 (0 : Fin 1) r (0 : Fin 1)))
          * (iter q ks vs t.val).2.1 (ix3 (0 : Fin 1) r (0 : Fin 1))
        + ∑ j : Fin 512, Ideal.exp (rowScore q ks r (key t j)
            - (iter q ks vs (t.val + 1)).1 (ix3 (0 : Fin 1) r (0 : Fin 1))) := by
  rw [← pay8_eq q ks vs r t, iter_succ]
  show k1_pay11 (F := Ideal) q (ks t) (iter q ks vs t.val).1 (iter q ks vs t.val).1 (iter q ks vs t.val).2.1
      (ix3 (0 : Fin 1) r (0 : Fin 1)) = _
  rw [k1_pay11_at, k1_pay9_at]
  congr 1
  exact Finset.sum_congr rfl fun j _ => by rw [k1_pay10_at, k1_pay7_at, rowScore_key]

theorem a_succ (r e : Fin 1024) (t : Fin 4) :
    (iter q ks vs (t.val + 1)).2.2 (ix3 (0 : Fin 1) r e)
      = Ideal.exp ((iter q ks vs t.val).1 (ix3 (0 : Fin 1) r (0 : Fin 1))
            - (iter q ks vs (t.val + 1)).1 (ix3 (0 : Fin 1) r (0 : Fin 1)))
          * (iter q ks vs t.val).2.2 (ix3 (0 : Fin 1) r e)
        + ∑ j : Fin 512, Ideal.exp (rowScore q ks r (key t j)
            - (iter q ks vs (t.val + 1)).1 (ix3 (0 : Fin 1) r (0 : Fin 1))) * rowVal vs e (key t j) := by
  rw [← pay8_eq q ks vs r t, iter_succ]
  show k1_pay1 (F := Ideal) (k1_pay10 (F := Ideal) q (ks t) (iter q ks vs t.val).1)
      (k1_pay12 (F := Ideal) q (ks t) (iter q ks vs t.val).1 (iter q ks vs t.val).1 (iter q ks vs t.val).2.2) (vs t)
      (ix3 (0 : Fin 1) r e) = _
  rw [k1_pay1_at, k1_pay12_at, k1_pay9_at]
  congr 1
  exact Finset.sum_congr rfl fun j _ => by rw [k1_pay10_at, k1_pay7_at, rowScore_key, rowVal_key]

/-! ## The output entry -/

/-- **The body's output entry (r, e) after the four key tiles** is the softmax-weighted average of the 2048 values
    of column e with the 2048 scores of row r, when every entry of the query block and of the tiles is a real number. -/
theorem row_value (hq : ∀ i, IsReal (q i)) (hk : ∀ t i, IsReal (ks t i)) (hv : ∀ t i, IsReal (vs t i))
    (r e : Fin 1024) :
    scrOut (F := Ideal)
        (scrStep q (ks 3) (vs 3) (scrStep q (ks 2) (vs 2) (scrStep q (ks 1) (vs 1) (scrStep q (ks 0) (vs 0) scrInit))))
        (ix3 (0 : Fin 1) r e)
      = ∑ k : Fin 2048,
          Ideal.div (Ideal.exp (rowScore q ks r k - Finset.univ.fold max ⊥ (rowScore q ks r)))
              (∑ u : Fin 2048, Ideal.exp (rowScore q ks r u - Finset.univ.fold max ⊥ (rowScore q ks r)))
            * rowVal vs e k := by
  rw [← iter_four q ks vs]
  show k1_pay3 (F := Ideal) (iter q ks vs 4).2.2 (iter q ks vs 4).2.1 (ix3 (0 : Fin 1) r e) = _
  rw [k1_pay3_at]
  exact online_row_max (rowScore q ks r) (rowVal vs e)
    (fun k => isReal_sum _ _ fun d _ => (hq _).mul (hk _ _)) (fun k => hv _ _)
    (fun n => (iter q ks vs n).1 (ix3 (0 : Fin 1) r (0 : Fin 1)))
    (fun n => (iter q ks vs n).2.1 (ix3 (0 : Fin 1) r (0 : Fin 1)))
    (fun n => (iter q ks vs n).2.2 (ix3 (0 : Fin 1) r e))
    (m_zero q ks vs r) (l_zero q ks vs r) (a_zero q ks vs r e)
    (m_succ q ks vs r) (l_succ q ks vs r) (a_succ q ks vs r e)

end Cert.KernelIdeal.RowValue

end
-- ==== Proof.AttnPointValue.lean ====
/-
  The output block written at the last key tile of a row of tiles is a block of self-attention.

  Suppose the attention kernel's input array [8, 2048, 3072] holds, side by side, the query projection with its weights
  scaled by 1/32, the key projection and the value projection of real arrays x, wq, wk, wv. At the last key tile of a
  row of tiles (a grid point t with t mod 4 = 3) the output block is numerator / denominator after the four key tiles
  of the row have been folded in. The query block is the same at the four points; key tile i of the row is the tile at
  point t − 3 + i and holds keys i·512 … i·512 + 511 of the batch. So, by the tiled recurrence, entry (r, e) of the
  block is the softmax-weighted average over all 2048 keys, with scores (query row)·(key row) — which, the factor 1/32
  taken out, is the specification's score — and values the value projection's column e: the specification's entry at
  batch t / 8, query row (t / 4 mod 2)·1024 + r, column e.
-/
import proofs.«178871_j489626272173_2_alg».proof.Proof.AttnBlocks
import proofs.«178871_j489626272173_2_alg».proof.Proof.AttnRow
import proofs.«178871_j489626272173_2_alg».proof.Proof.RowValue
import proofs.«178871_j489626272173_2_alg».proof.Proof.AttnScale
import proofs.«178871_j489626272173_2_alg».proof.Proof.FiniteReal
import proofs.«178871_j489626272173_2_alg».proof.Proof.AttnSpec

set_option maxRecDepth 16384

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen Cert.LibRealSum Cert.KernelIdeal.RowValue

/-- An index of a block [1, A, B] is (0, its row, its column). -/
theorem eq_ix3_zero {A B : Nat} (y : (⟨3, ![1, A, B]⟩ : Shape).Idx) : y = ix3 (0 : Fin 1) (y 1) (y 2) :=
  (eq_ix3 y).trans (congrArg (fun a : Fin 1 => ix3 a (y 1) (y 2)) (Subsingleton.elim (α := Fin 1) (y 0) 0))

/-- Two rank-3 indices with equal coordinates are equal. -/
theorem ix3_congr {n0 n1 n2 : Nat} {a a' : Fin n0} {b b' : Fin n1} {c c' : Fin n2}
    (ha : a.val = a'.val) (hb : b.val = b'.val) (hc : c.val = c'.val) : ix3 a b c = ix3 a' b' c' := by
  rw [Fin.ext ha, Fin.ext hb, Fin.ext hc]

/-- The batch of grid point t. -/
abbrev batchOf (t : Fin cfg1.N) : Fin 8 := ⟨t.val / 8, by have := attn_t_lt t; omega⟩

/-- Row r of point t's query block, as a row of the whole array. -/
abbrev qrowOf (t : Fin cfg1.N) (r : Fin 1024) : Fin 2048 :=
  ⟨t.val / 4 % 2 * 1024 + r.val, by have := r.isLt; omega⟩

section PointValue

variable (V : (c : Dev nD) → (b : Ref sig .tc) → Buf (Elt Ideal) ((c : Thread nD τ).loc b)) (c : Dev nD)
variable (x : Cert.Attn.SX.Idx → EReal) (wq wk wv : Cert.Attn.SW.Idx → EReal)

/-- The attention kernel's input array holds the scaled query projection, the key projection and the value projection
    side by side. -/
structure Fused : Prop where
  q : ∀ (b : Fin 8) (s : Fin 2048) (d : Fin 1024) (h : d.val < 3072),
    (V c main_v6 : S8x2048x3072.Idx → EReal) (ix3 b s ⟨d.val, h⟩)
      = ∑ j : Fin 1024, x (ix3 b s j) * (wq (ix2 j d) * Ideal.ofBits .f32 0x3D000000#32)
  k : ∀ (b : Fin 8) (s : Fin 2048) (d : Fin 1024) (h : 1024 + d.val < 3072),
    (V c main_v6 : S8x2048x3072.Idx → EReal) (ix3 b s ⟨1024 + d.val, h⟩) = Cert.Attn.proj x wk b s d
  v : ∀ (b : Fin 8) (s : Fin 2048) (d : Fin 1024) (h : 2048 + d.val < 3072),
    (V c main_v6 : S8x2048x3072.Idx → EReal) (ix3 b s ⟨2048 + d.val, h⟩) = Cert.Attn.proj x wv b s d

variable {V c x wq wk wv}

/-! ## The blocks hold real numbers -/

theorem isReal_qblk (hF : Fused V c x wq wk wv) (hx : ∀ i, IsReal (x i)) (hq : ∀ i, IsReal (wq i))
    (t : Fin cfg1.N) (i : S1x1024x1024.Idx) : IsReal ((attnBlk V c 0 t : Vec Ideal S1x1024x1024 .bf16) i) := by
  obtain ⟨r, d, rfl⟩ : ∃ r d : Fin 1024, i = ix3 (0 : Fin 1) r d := ⟨i 1, i 2, eq_ix3_zero i⟩
  rw [attnBlk_q_at, hF.q]
  exact isReal_sum _ _ fun j _ => (hx _).mul ((hq _).mul ⟨_, Cert.Attn.Scale.ofBits_inv32⟩)

theorem isReal_kblk (hF : Fused V c x wq wk wv) (hx : ∀ i, IsReal (x i)) (hk : ∀ i, IsReal (wk i))
    (t : Fin cfg1.N) (i : S1x512x1024.Idx) : IsReal ((attnBlk V c 1 t : Vec Ideal S1x512x1024 .bf16) i) := by
  obtain ⟨j, d, rfl⟩ : ∃ (j : Fin 512) (d : Fin 1024), i = ix3 (0 : Fin 1) j d := ⟨i 1, i 2, eq_ix3_zero i⟩
  rw [attnBlk_k_at, hF.k]
  exact Cert.Attn.Finite.isReal_proj x wk hx hk _ _ _

theorem isReal_vblk (hF : Fused V c x wq wk wv) (hx : ∀ i, IsReal (x i)) (hv : ∀ i, IsReal (wv i))
    (t : Fin cfg1.N) (i : S1x512x1024.Idx) : IsReal ((attnBlk V c 2 t : Vec Ideal S1x512x1024 .bf16) i) := by
  obtain ⟨j, e, rfl⟩ : ∃ (j : Fin 512) (e : Fin 1024), i = ix3 (0 : Fin 1) j e := ⟨i 1, i 2, eq_ix3_zero i⟩
  rw [attnBlk_v_at, hF.v]
  exact Cert.Attn.Finite.isReal_proj x wv hx hv _ _ _

/-! ## The query block is the same along a row of key tiles -/

theorem attnBlk_q_before (t : Fin cfg1.N) (h3 : t.val % 4 = 3) (k : ℕ) (hk : k ≤ 3) :
    (attnBlk V c 0 (before t k) : Vec Ideal S1x1024x1024 .bf16) = attnBlk V c 0 t := by
  funext y
  obtain ⟨r, d, rfl⟩ : ∃ r d : Fin 1024, y = ix3 (0 : Fin 1) r d := ⟨y 1, y 2, eq_ix3_zero y⟩
  rw [attnBlk_q_at, attnBlk_q_at]
  have ht := attn_t_lt t
  exact congrArg (V c main_v6 : S8x2048x3072.Idx → EReal)
    (ix3_congr (by show (t.val - k) / 8 = t.val / 8; omega)
      (by show (t.val - k) / 4 % 2 * 1024 + r.val = t.val / 4 % 2 * 1024 + r.val; omega) rfl)

/-! ## The row's scores and values are the specification's -/

/-- Key tile i of the row that ends at point t. -/
abbrev keyTiles (V : (c : Dev nD) → (b : Ref sig .tc) → Buf (Elt Ideal) ((c : Thread nD τ).loc b)) (c : Dev nD)
    (t : Fin cfg1.N) : Fin 4 → FVec Ideal S1x512x1024 .bf16 := fun i => attnBlk V c 1 (before t (3 - i.val))

/-- Value tile i of the row that ends at point t. -/
abbrev valTiles (V : (c : Dev nD) → (b : Ref sig .tc) → Buf (Elt Ideal) ((c : Thread nD τ).loc b)) (c : Dev nD)
    (t : Fin cfg1.N) : Fin 4 → FVec Ideal S1x512x1024 .bf16 := fun i => attnBlk V c 2 (before t (3 - i.val))

theorem rowScore_eq (hF : Fused V c x wq wk wv) (hx : ∀ i, IsReal (x i)) (hq : ∀ i, IsReal (wq i))
    (hk : ∀ i, IsReal (wk i)) (t : Fin cfg1.N) (h3 : t.val % 4 = 3) (r : Fin 1024) (k : Fin 2048) :
    rowScore (attnBlk V c 0 t) (keyTiles V c t) r k = Cert.Attn.score x wq wk (batchOf t) (qrowOf t r) k := by
  have ht := attn_t_lt t
  have hk' := k.isLt
  unfold rowScore
  rw [← Cert.Attn.Scale.scaled_score x wq wk hx hq hk]
  refine Finset.sum_congr rfl fun d _ => ?_
  refine congrArg₂ (fun p q : EReal => p * q) ((attnBlk_q_at V c t r d).trans (hF.q _ _ d _)) ?_
  refine (attnBlk_k_at V c (before t (3 - (tileOf k).val)) (posOf k) d).trans ?_
  refine (congrArg (V c main_v6 : S8x2048x3072.Idx → EReal) (ix3_congr ?_ ?_ rfl)).trans
    (hF.k (batchOf t) k d (by have := d.isLt; omega))
  · show (t.val - (3 - k.val / 512)) / 8 = t.val / 8
    omega
  · show (t.val - (3 - k.val / 512)) % 4 * 512 + k.val % 512 = k.val
    omega

theorem rowVal_eq (hF : Fused V c x wq wk wv) (t : Fin cfg1.N) (h3 : t.val % 4 = 3) (e : Fin 1024) (k : Fin 2048) :
    rowVal (valTiles V c t) e k = Cert.Attn.proj x wv (batchOf t) k e := by
  have ht := attn_t_lt t
  have hk' := k.isLt
  unfold rowVal
  refine (attnBlk_v_at V c (before t (3 - (tileOf k).val)) (posOf k) e).trans ?_
  refine (congrArg (V c main_v6 : S8x2048x3072.Idx → EReal) (ix3_congr ?_ ?_ rfl)).trans
    (hF.v (batchOf t) k e (by have := e.isLt; omega))
  · show (t.val - (3 - k.val / 512)) / 8 = t.val / 8
    omega
  · show (t.val - (3 - k.val / 512)) % 4 * 512 + k.val % 512 = k.val
    omega

/-! ## The output block -/

/-- **The block written back at the last key tile of a row is that block of self-attention.** -/
theorem attn_point_value (hF : Fused V c x wq wk wv) (hx : ∀ i, IsReal (x i)) (hq : ∀ i, IsReal (wq i))
    (hk : ∀ i, IsReal (wk i)) (hv : ∀ i, IsReal (wv i)) (t : Fin cfg1.N) (h3 : t.val % 4 = 3) :
    attnOutAt V c t = ((cfg1.win 3).blk t).view.read (Elt Ideal) (Cert.Attn.attention x wq wk wv) := by
  funext y
  obtain ⟨r, e, rfl⟩ : ∃ r e : Fin 1024, y = ix3 (0 : Fin 1) r e := ⟨y 1, y 2, eq_ix3_zero y⟩
  rw [attnOut_row V c t h3, attn_outBlk_at, Cert.Attn.attention_apply,
    attnBlk_q_before t h3 1 (by omega), attnBlk_q_before t h3 2 (by omega), attnBlk_q_before t h3 3 (by omega)]
  refine (row_value (attnBlk V c 0 t) (keyTiles V c t) (valTiles V c t) (isReal_qblk hF hx hq t)
    (fun i => isReal_kblk hF hx hk _) (fun i => isReal_vblk hF hx hv _) r e).trans ?_
  have hS : rowScore (attnBlk V c 0 t) (keyTiles V c t) r
      = fun k => Cert.Attn.score x wq wk (batchOf t) (qrowOf t r) k := funext (rowScore_eq hF hx hq hk t h3 r)
  have hV : rowVal (valTiles V c t) e = fun k => Cert.Attn.proj x wv (batchOf t) k e := funext (rowVal_eq hF t h3 e)
  rw [hS, hV]
  rfl

end PointValue

end Cert.KernelIdeal.Hand

end
-- ==== Proof.KernelValue.lean ====
/-
  The kernel's result array is self-attention of its four arguments.

  The result array after the attention kernel is what its write-backs leave: the output blocks written at the last key
  tile of each row of tiles, which tile the array. The attention kernel's input holds the scaled query projection, the
  key projection and the value projection of the argument arrays side by side; so, when every entry of the four
  arguments is a real number, each of those blocks is the corresponding block of self-attention, and the whole array is
  self-attention of the arguments.
-/
import proofs.«178871_j489626272173_2_alg».proof.Proof.KernelRun
import proofs.«178871_j489626272173_2_alg».proof.Proof.MainV6
import proofs.«178871_j489626272173_2_alg».proof.Proof.AttnPointValue

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen Cert.LibRealSum

section KernelValue

variable (m : (ℓ : Loc nD τ sig) → Buf (Elt Ideal) ℓ) (c : Dev nD)

/-- The attention kernel's input holds the three projections of the argument arrays side by side. -/
theorem fused_main : Fused (U3 m) c (argX m c) (argWq m c) (argWk m c) (argWv m c) where
  q b s d _ := mainV6_q m c b s d
  k b s d _ := mainV6_k m c b s d
  v b s d _ := mainV6_v m c b s d

/-- **The result array is self-attention of the arguments**, when every entry of the arguments is a real number. -/
theorem kernel_value (hx : ∀ i, IsReal (argX m c i)) (hq : ∀ i, IsReal (argWq m c i))
    (hk : ∀ i, IsReal (argWk m c i)) (hv : ∀ i, IsReal (argWv m c i)) :
    (U4 m c main_v7 : S8x2048x1024.Idx → EReal)
      = Cert.Attn.attention (argX m c) (argWq m c) (argWk m c) (argWv m c) :=
  (W4_out m c).trans
    (attn_final_of (U3 m) c (attnDat (U3 m) c) (attn_after_3 (U3 m) c) _
      (fun t h3 => attn_point_value (fused_main m c) hx hq hk hv t h3))

end KernelValue

end Cert.KernelIdeal.Hand

end
-- ==== Proof.LibSoftmaxRow.lean ====
/-
  A softmax-weighted average of one row, in two arrangements.

  For scores `S k` and values `V k` over `n ≥ 1` keys, let `M` be the maximum of the scores (folded from -∞),
  `e k = exp (S k - M)` and `l = Σ_k e k`. One arrangement divides first and sums afterwards,
      Σ_k (e k / l) · V k ,
  the other sums first and divides once,
      (Σ_k e k · V k) / l .
  When every score and every value is a real number the maximum is a real number, every `e k` is a positive real and
  `l > 0`, so the quotient by `l` is the product with the real `1 / l`, which distributes over the finite sum: the two
  arrangements agree. (Over the extended reals in general they do not: the product does not distribute over a sum that
  mixes +∞ and -∞.)
-/
import Mathlib
import Idealize.ShloMosaic.PureOps.Ideal
import proofs.«178871_j489626272173_2_alg».proof.Proof.LibRealSum

noncomputable section

open scoped BigOperators

namespace Cert.LibSoftmaxRow

open Idealize.ShloMosaic Cert.LibRealSum

variable {n : ℕ}

/-- The f32 word `0xFF800000` denotes -∞. -/
theorem ofBits_negInf : Ideal.ofBits .f32 0xFF800000#32 = ⊥ := by simp [Ideal.ofBits, Ideal.ieee]

/-- -∞ is the identity of `max`. -/
theorem max_negInf (y : EReal) : max (Ideal.ofBits .f32 0xFF800000#32) y = y := by
  rw [ofBits_negInf]; exact max_eq_right bot_le

/-- The maximum of `n` extended reals, folded from the f32 word of -∞. -/
def rowMax (S : Fin n → EReal) : EReal :=
  (Finset.univ : Finset (Fin n)).fold max (Ideal.ofBits .f32 0xFF800000#32) S

/-- The maximum of a nonempty family of reals is a real. -/
theorem isReal_rowMax (hn : 0 < n) (S : Fin n → EReal) (hS : ∀ k, IsReal (S k)) : IsReal (rowMax S) := by
  have htop : rowMax S ≠ ⊤ := by
    unfold rowMax
    rw [← lt_top_iff_ne_top, Finset.fold_max_lt]
    refine ⟨by rw [ofBits_negInf]; exact bot_lt_top, fun k _ => ?_⟩
    obtain ⟨a, ha⟩ := hS k
    rw [ha]; exact EReal.coe_lt_top a
  have hbot : rowMax S ≠ ⊥ := by
    unfold rowMax
    rw [← bot_lt_iff_ne_bot, Finset.lt_fold_max]
    refine Or.inr ⟨⟨0, hn⟩, Finset.mem_univ _, ?_⟩
    obtain ⟨a, ha⟩ := hS ⟨0, hn⟩
    rw [ha]; exact EReal.bot_lt_coe a
  exact ⟨(rowMax S).toReal, (EReal.coe_toReal htop hbot).symm⟩

/-- Divide each weight by the normaliser, then average: `Σ_k (e k / l) · V k`. -/
def softmaxAvg (S V : Fin n → EReal) : EReal :=
  ∑ k, Ideal.div (Ideal.exp (S k - rowMax S)) (∑ i, Ideal.exp (S i - rowMax S)) * V k

/-- Average with the unnormalised weights, then divide once: `(Σ_k e k · V k) / l`. -/
def softmaxQuot (S V : Fin n → EReal) : EReal :=
  Ideal.div (∑ k, Ideal.exp (S k - rowMax S) * V k) (∑ k, Ideal.exp (S k - rowMax S))

/-- With real scores and real values over at least one key the two arrangements agree. -/
theorem softmaxQuot_eq_softmaxAvg (hn : 0 < n) (S V : Fin n → EReal) (hS : ∀ k, IsReal (S k)) (hV : ∀ k, IsReal (V k)) :
    softmaxQuot S V = softmaxAvg S V := by
  obtain ⟨M, hM⟩ := isReal_rowMax hn S hS
  choose s hs using hS
  choose v hv using hV
  unfold softmaxQuot softmaxAvg
  rw [hM]
  have hexp : ∀ k, Ideal.exp (S k - (M : EReal)) = ((Real.exp (s k - M) : ℝ) : EReal) := fun k => by
    rw [hs k, ← EReal.coe_sub, Ideal.exp_coe]
  have hpos : (∑ i, Real.exp (s i - M)) ≠ 0 :=
    (Finset.sum_pos (fun _ _ => Real.exp_pos _) ⟨⟨0, hn⟩, Finset.mem_univ _⟩).ne'
  simp only [hexp, hv, ← EReal.coe_mul, ← coe_finset_sum, Ideal.div_coe hpos]
  refine congrArg _ ?_
  rw [Finset.sum_mul]
  exact Finset.sum_congr rfl fun k _ => by ring

end Cert.LibSoftmaxRow

end
-- ==== Proof.RefIsAttention.lean ====
/-
  The reference program computes self-attention.

  Read operation by operation at an index, the reference's 23 host operations are: three projections of x through the
  weight matrices; the products of query rows with key rows, divided by sqrt 1024 = 32; each row's maximum (a reduce
  with a maximum body from -∞, then a maximum with -∞ again, which changes nothing); the exponentials of the scores
  minus the row's maximum; their row sums from 0; the quotients; and the weighted sum of the value rows. Entry by entry
  that is `Cert.Attn.attention`.
-/
import proofs.«178871_j489626272173_2_alg».proof.Proof.Gen.ReferenceIdeal.Read
import proofs.«178871_j489626272173_2_alg».proof.Proof.AttnSpec
import proofs.«178871_j489626272173_2_alg».proof.Proof.LibSoftmaxRow

noncomputable section

namespace Cert.Attn.Ref

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x : (⟨S8x2048x1024, .f32⟩ : BufTy).Contents (Elt Ideal))
  (wq wk wv w : (⟨S1024x1024, .f32⟩ : BufTy).Contents (Elt Ideal))

/-! ## The constants -/

/-- The f32 word `0x44800000` denotes 1024. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt ((1024 : ℝ) : EReal) = ((32 : ℝ) : EReal) := by
  rw [Ideal.sqrt_coe, if_neg (by norm_num)]
  congr 1
  rw [show (1024 : ℝ) = 32 * 32 by norm_num, Real.sqrt_mul_self (by norm_num)]

/-! ## The three projections -/

theorem v0_apply (b : Fin 8) (s : Fin 2048) (d : Fin 1024) :
    val_main_v0 (F := Ideal) x w (ix3 b s d) = Cert.Attn.proj x w b s d := by
  rw [val_main_v0_apply]
  unfold Cert.Attn.proj
  refine Finset.sum_congr rfl fun k _ => ?_
  have el : lidx_main_v0 (ix3 b s d) k = ix3 b s k :=
    funext fun a => Fin.ext (by match a with | ⟨0, _⟩ => rfl | ⟨1, _⟩ => rfl | ⟨2, _⟩ => rfl)
  have er : ridx_main_v0 (ix3 b s d) k = ix2 k d :=
    funext fun a => Fin.ext (by match a with | ⟨0, _⟩ => rfl | ⟨1, _⟩ => rfl)
  rw [el, er]

theorem v1_apply (b : Fin 8) (s : Fin 2048) (d : Fin 1024) :
    val_main_v1 (F := Ideal) x w (ix3 b s d) = Cert.Attn.proj x w b s d := v0_apply x w b s d

theorem v2_apply (b : Fin 8) (s : Fin 2048) (d : Fin 1024) :
    val_main_v2 (F := Ideal) x w (ix3 b s d) = Cert.Attn.proj x w b s d := v0_apply x w b s d

/-! ## The scores -/

theorem v3_apply (b : Fin 8) (s t : Fin 2048) :
    val_main_v3 (F := Ideal) x wq wk (ix3 b s t)
      = ∑ d : Fin 1024, Cert.Attn.proj x wq b s d * Cert.Attn.proj x wk b t d := by
  rw [val_main_v3_apply]
  refine Finset.sum_congr rfl fun k _ => ?_
  have el : lidx_main_v3 (ix3 b s t) k = ix3 b s k :=
    funext fun a => Fin.ext (by match a with | ⟨0, _⟩ => rfl | ⟨1, _⟩ => rfl | ⟨2, _⟩ => rfl)
  have er : ridx_main_v3 (ix3 b s t) k = ix3 b t k :=
    funext fun a => Fin.ext (by match a with | ⟨0, _⟩ => rfl | ⟨1, _⟩ => rfl | ⟨2, _⟩ => rfl)
  rw [el, er, v0_apply, v1_apply]

/-- The divisor: sqrt 1024 = 32 at every index. -/
theorem v5_apply (i : S8x2048x2048.Idx) : val_main_v5 (F := Ideal) i = ((32 : ℝ) : EReal) := by
  rw [val_main_v5_apply, val_main_v4_apply, val_main_cst_apply, Ideal.hostUnary_sqrt_def, Ideal.ofBits_def, ofBits_1024,
    sqrt_1024]

theorem v6_apply (b : Fin 8) (s t : Fin 2048) :
    val_main_v6 (F := Ideal) x wq wk (ix3 b s t) = Cert.Attn.score x wq wk b s t := by
  rw [val_main_v6_apply, v3_apply, v5_apply, Ideal.hostDivf_def]
  rfl

/-! ## The row maximum -/

/-- The reduced index (b, s) with key `k` put back on the last axis is (b, s, k). -/
theorem lift_row (h : S8x2048x2048.Reduces [2] S8x2048) (b : Fin 8) (s : Fin 2048) (k : Fin (S8x2048x2048.size 2)) :
    h.lift (ix2 b s) k = ix3 b s (⟨k.val, k.isLt⟩ : Fin 2048) := by
  funext c; apply Fin.ext
  fin_cases c <;> rfl

theorem v7_apply (b : Fin 8) (s : Fin 2048) :
    val_main_v7 (F := Ideal) x wq wk (ix2 b s) = Cert.Attn.rowMax x wq wk b s := by
  have h : S8x2048x2048.Reduces [2] S8x2048 := by decide
  unfold val_main_v7
  rw [Host.reduce_eq_fold_single FloatOps.maximumf _ _ reducesTo_S8x2048x2048_S8x2048_d2 h h_S_ (ix2 b s),
    val_main_cst_0_apply, Ideal.ofBits_def, Cert.LibSoftmaxRow.ofBits_negInf]
  have hf : (val_main_v6 (F := Ideal) x wq wk ∘ h.lift (ix2 b s)) = fun t : Fin 2048 => Cert.Attn.score x wq wk b s t :=
    funext fun k => by
      show val_main_v6 (F := Ideal) x wq wk (h.lift (ix2 b s) k) = _
      rw [lift_row, v6_apply]
      rfl
  unfold Cert.Attn.rowMax
  exact congrArg (fun f => Finset.fold max (⊥ : EReal) f (Finset.univ : Finset (Fin 2048))) hf

theorem v9_apply (b : Fin 8) (s : Fin 2048) :
    val_main_v9 (F := Ideal) x wq wk (ix2 b s) = Cert.Attn.rowMax x wq wk b s := by
  rw [val_main_v9_apply, val_main_v8_apply, val_main_cst_1_apply, v7_apply, Ideal.maximumf_def, Ideal.ofBits_def,
    Cert.LibSoftmaxRow.max_negInf]

theorem v11_apply (b : Fin 8) (s t : Fin 2048) :
    val_main_v11 (F := Ideal) x wq wk (ix3 b s t) = Cert.Attn.rowMax x wq wk b s := by
  rw [val_main_v11_apply, val_main_v10_apply]
  have e : idx_main_v10 (idx_main_v11 (ix3 b s t)) = ix2 b s :=
    funext fun a => Fin.ext (by match a with | ⟨0, _⟩ => rfl | ⟨1, _⟩ => rfl)
  rw [e, v9_apply]

/-! ## The weights -/

theorem v13_apply (b : Fin 8) (s t : Fin 2048) :
    val_main_v13 (F := Ideal) x wq wk (ix3 b s t)
      = Ideal.exp (Cert.Attn.score x wq wk b s t - Cert.Attn.rowMax x wq wk b s) := by
  rw [val_main_v13_apply, val_main_v12_apply, v6_apply, v11_apply, Ideal.hostUnary_exp_def, Ideal.subf_def]

theorem v14_apply (b : Fin 8) (s : Fin 2048) :
    val_main_v14 (F := Ideal) x wq wk (ix2 b s)
      = ∑ u : Fin 2048, Ideal.exp (Cert.Attn.score x wq wk b s u - Cert.Attn.rowMax x wq wk b s) := by
  rw [val_main_v14_apply, val_main_cst_2_apply, Ideal.ofBits_def, Ideal.ofBits_zero_f32, zero_add]
  refine Finset.sum_congr rfl fun k _ => ?_
  have e : idx_main_v14 (ix2 b s) k = ix3 b s k :=
    funext fun a => Fin.ext (by match a with | ⟨0, _⟩ => rfl | ⟨1, _⟩ => rfl | ⟨2, _⟩ => rfl)
  rw [e, v13_apply]

theorem v16_apply (b : Fin 8) (s t : Fin 2048) :
    val_main_v16 (F := Ideal) x wq wk (ix3 b s t)
      = ∑ u : Fin 2048, Ideal.exp (Cert.Attn.score x wq wk b s u - Cert.Attn.rowMax x wq wk b s) := by
  rw [val_main_v16_apply, val_main_v15_apply]
  have e : idx_main_v15 (idx_main_v16 (ix3 b s t)) = ix2 b s :=
    funext fun a => Fin.ext (by match a with | ⟨0, _⟩ => rfl | ⟨1, _⟩ => rfl)
  rw [e, v14_apply]

theorem v17_apply (b : Fin 8) (s t : Fin 2048) :
    val_main_v17 (F := Ideal) x wq wk (ix3 b s t)
      = Ideal.div (Ideal.exp (Cert.Attn.score x wq wk b s t - Cert.Attn.rowMax x wq wk b s))
          (∑ u : Fin 2048, Ideal.exp (Cert.Attn.score x wq wk b s u - Cert.Attn.rowMax x wq wk b s)) := by
  rw [val_main_v17_apply, v13_apply, v16_apply, Ideal.hostDivf_def]

/-! ## The result -/

theorem v18_apply (b : Fin 8) (s : Fin 2048) (e : Fin 1024) :
    val_main_v18 (F := Ideal) x wq wk wv (ix3 b s e) = Cert.Attn.attnOut x wq wk wv b s e := by
  rw [val_main_v18_apply]
  unfold Cert.Attn.attnOut
  refine Finset.sum_congr rfl fun k _ => ?_
  have el : lidx_main_v18 (ix3 b s e) k = ix3 b s k :=
    funext fun a => Fin.ext (by match a with | ⟨0, _⟩ => rfl | ⟨1, _⟩ => rfl | ⟨2, _⟩ => rfl)
  have er : ridx_main_v18 (ix3 b s e) k = ix3 b k e :=
    funext fun a => Fin.ext (by match a with | ⟨0, _⟩ => rfl | ⟨1, _⟩ => rfl | ⟨2, _⟩ => rfl)
  rw [el, er, v17_apply, v2_apply]

/-- **The reference's result is self-attention of its four arguments.** -/
theorem ref_is_attention :
    val_main_v18 (F := Ideal) x wq wk wv = Cert.Attn.attention x wq wk wv := by
  funext i
  obtain ⟨b, s, e, rfl⟩ : ∃ (b : Fin 8) (s : Fin 2048) (e : Fin 1024), i = ix3 b s e := ⟨i 0, i 1, i 2, eq_ix3 i⟩
  rw [v18_apply, Cert.Attn.attention_apply]

end Cert.Attn.Ref

end
-- ==== Proof.lean ====
/-
  The certificate's five claims, assembled.

  Both printed kernels' programs run to the end with every argument array unchanged: the run over @main's four
  segments (host operations, the projection kernel, a reshape, the attention kernel), proved once for any float
  interpretation and cited at the bit-level one and at the exact one.  The reference is a straight line of host
  operations, whose run is read off operation by operation.  Nothing was rewritten between the kernel and its exact
  reading, so that claim is empty.  And over the extended reals, with every input finite, the attention kernel's
  tile-by-tile softmax over the projections (queries pre-scaled by 1/32) and the reference's row softmax of scores
  divided by sqrt 1024 = 32 are the same function of the four argument arrays.
-/
import proofs.«178871_j489626272173_2_alg».proof.Defs
import proofs.«178871_j489626272173_2_alg».proof.Proof.Gen.Kernel
import proofs.«178871_j489626272173_2_alg».proof.Proof.Gen.KernelIdeal
import proofs.«178871_j489626272173_2_alg».proof.Proof.Gen.ReferenceIdeal
import proofs.«178871_j489626272173_2_alg».proof.Proof.Gen.Pre_finite_inputs
import proofs.«178871_j489626272173_2_alg».proof.Proof.Gen.ReferenceIdeal.Run
import proofs.«178871_j489626272173_2_alg».proof.Proof.Gen.ReferenceIdeal.Read
import proofs.«178871_j489626272173_2_alg».proof.Proof.KernelRun
import proofs.«178871_j489626272173_2_alg».proof.Proof.BitsKernelRun
import proofs.«178871_j489626272173_2_alg».proof.Proof.KernelValue
import proofs.«178871_j489626272173_2_alg».proof.Proof.RefIsAttention
import proofs.«178871_j489626272173_2_alg».proof.Proof.FiniteReal
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ =>
  (θ_run Cert.Kernel.defs _ _).mono (fun _ h c => (h c).2) (Cert.Kernel.Hand.run_main (F := Bits) m ρ)

/-- So does its exact reading. -/
theorem frame_kernelIdeal : Cert.frame_KernelIdeal := fun m ρ _ =>
  (θ_run Cert.KernelIdeal.defs _ _).mono (fun _ h c => (h c).2) (Cert.KernelIdeal.Hand.run_main (F := Ideal) m ρ)

/-- The reference is host operations only: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the exact reading. -/
theorem preserves : Cert.preserves_Kernel_KernelIdeal := trivial

/-- With finite inputs both programs end with self-attention of the four argument arrays in their result. -/
theorem algebraic : Cert.algebraic_KernelIdeal_ReferenceIdeal := by
  intro m ρ m' ρ' hpre hagree
  refine ⟨fun c => Cert.Attn.attention (Cert.KernelIdeal.Hand.argX m c) (Cert.KernelIdeal.Hand.argWq m c)
      (Cert.KernelIdeal.Hand.argWk m c) (Cert.KernelIdeal.Hand.argWv m c), ?_, ?_⟩
  · refine (θ_run Cert.KernelIdeal.defs _ _).mono (fun r h c => ⟨(h c).1.trans ?_, (h c).2⟩)
      (Cert.KernelIdeal.Hand.run_main (F := Ideal) m ρ)
    obtain ⟨hx, hq, hk, hv⟩ := Cert.Attn.Finite.inputs_real (Cert.KernelIdeal.Hand.argX m c) (Cert.KernelIdeal.Hand.argWq m c)
      (Cert.KernelIdeal.Hand.argWk m c) (Cert.KernelIdeal.Hand.argWv m c) (hpre c)
    exact Cert.KernelIdeal.Hand.kernel_value m c hx hq hk hv
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v18_eq, Cert.Attn.Ref.ref_is_attention, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
